-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S20000x3 : Shape := ⟨2, ![20000, 3]⟩
abbrev S2x320000 : Shape := ⟨2, ![2, 320000]⟩
abbrev S513x256 : Shape := ⟨2, ![513, 256]⟩
abbrev S256 : Shape := ⟨1, ![256]⟩
abbrev S256x256 : Shape := ⟨2, ![256, 256]⟩
abbrev S512x256 : Shape := ⟨2, ![512, 256]⟩
abbrev S256x1 : Shape := ⟨2, ![256, 1]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S513x256 : S_.BroadcastsInDim S513x256 (![] : Fin 0 → Fin S513x256.rank)
  reducesTo_S513x256_S_d0_1 : S513x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  reducesTo_S_S_d : S_.ReducesTo [] S_

variable [Facts]

def fn_part5 {F : FTy → Type} [FloatOps F] (main_arg19 : FVec F S_ .f32) (main_v83 : IVec S_ 1) (main_v84 : FVec F S_ .f32) (main_cst_32 : FVec F S_ .f32) : IVec S_ 1 :=
  let main_v85 : IVec S_ 1 := cmpf .olt main_v84 main_cst_32
  let main_c_33 : IVec S_ 1 := constantI S_ 1 1#1
  let main_v86 : IVec S_ 1 := (fun x v => Host.reduce IntOp.andi x v reducesTo_S_S_d h_S_) main_v85 main_c_33
  let main_v87 : IVec S_ 1 := andi main_v83 main_v86
  let main_v88 : FVec F S_ .f32 := Host.absf main_arg19
  let main_cst_34 : FVec F S_ .f32 := constant S_ .f32 0x7F800000#32
  let main_v89 : IVec S_ 1 := cmpf .olt main_v88 main_cst_34
  let main_c_35 : IVec S_ 1 := constantI S_ 1 1#1
  let main_v90 : IVec S_ 1 := (fun x v => Host.reduce IntOp.andi x v reducesTo_S_S_d h_S_) main_v89 main_c_35
  let main_v91 : IVec S_ 1 := andi main_v87 main_v90
  main_v91

def fn_part4 {F : FTy → Type} [FloatOps F] (main_arg15 : FVec F S256x256 .f32) (main_arg16 : FVec F S256 .f32) (main_arg17 : FVec F S256x1 .f32) (main_arg18 : FVec F S_ .f32) (main_arg19 : FVec F S_ .f32) (main_v63 : IVec S_ 1) (main_v67 : IVec S_ 1) : IVec S_ 1 :=
  let main_v68 : IVec S_ 1 := andi main_v63 main_v67
  let main_v69 : FVec F S256x256 .f32 := Host.absf main_arg15
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x1 .f32 := Host.absf main_arg17
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S_ .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S256 .f32) (main_arg13 : FVec F S256 .f32) (main_arg14 : FVec F S256 .f32) (main_arg15 : FVec F S256x256 .f32) (main_arg16 : FVec F S256 .f32) (main_arg17 : FVec F S256x1 .f32) (main_arg18 : FVec F S_ .f32) (main_arg19 : FVec F S_ .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_v63 main_v67

def fn_part2 {F : FTy → Type} [FloatOps F] (main_arg8 : FVec F S256 .f32) (main_arg9 : FVec F S512x256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256x1 .f32) (main_arg18 : FVec F S_ .f32) (main_arg19 : FVec F S_ .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_arg15 main_arg16 main_arg17 main_arg18 main_arg19 main_v48 main_v49 main_v50

def fn_part1 {F : FTy → Type} [FloatOps F] (main_arg5 : FVec F S256x256 .f32) (main_arg6 : FVec F S256 .f32) (main_arg7 : FVec F S256 .f32) (main_arg8 : FVec F S256 .f32) (main_arg9 : FVec F S512x256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256x1 .f32) (main_arg18 : FVec F S_ .f32) (main_arg19 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S20000x256 .f32) (main_arg1 : FVec F S20000x3 .f32) (main_arg2 : IVec S2x320000 32) (main_arg3 : FVec F S513x256 .f32) (main_arg4 : FVec F S256 .f32) (main_arg5 : FVec F S256x256 .f32) (main_arg6 : FVec F S256 .f32) (main_arg7 : FVec F S256 .f32) (main_arg8 : FVec F S256 .f32) (main_arg9 : FVec F S512x256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256x1 .f32) (main_arg18 : FVec F S_ .f32) (main_arg19 : FVec F S_ .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  let main_v9 : FVec F S513x256 .f32 := Host.absf main_arg3
  let main_cst_2 : FVec F S_ .f32 := constant S_ .f32 0x7F800000#32
  let main_v10 : FVec F S513x256 .f32 := broadcastInDim S513x256 ![] bcast_S_S513x256 main_cst_2
  let main_v11 : IVec S513x256 1 := cmpf .olt main_v9 main_v10
  let main_c_3 : IVec S_ 1 := constantI S_ 1 1#1
  let main_v12 : IVec S_ 1 := (fun x v => Host.reduce IntOp.andi x v reducesTo_S513x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S20000x256 : Shape := ⟨2, ![20000, 256]⟩
abbrev S20000x3 : Shape := ⟨2, ![20000, 3]⟩
abbrev S2x320000 : Shape := ⟨2, ![2, 320000]⟩
abbrev S513x256 : Shape := ⟨2, ![513, 256]⟩
abbrev S256 : Shape := ⟨1, ![256]⟩
abbrev S256x256 : Shape := ⟨2, ![256, 256]⟩
abbrev S512x256 : Shape := ⟨2, ![512, 256]⟩
abbrev S256x1 : Shape := ⟨2, ![256, 1]⟩
abbrev S_ : Shape := ⟨0, ![]⟩
abbrev S1x320000 : Shape := ⟨2, ![1, 320000]⟩
abbrev S320000 : Shape := ⟨1, ![320000]⟩
abbrev S320000x1 : Shape := ⟨2, ![320000, 1]⟩
abbrev S320000x256 : Shape := ⟨2, ![320000, 256]⟩
abbrev S320000x3 : Shape := ⟨2, ![320000, 3]⟩
abbrev S320000x4 : Shape := ⟨2, ![320000, 4]⟩
abbrev S1x256 : Shape := ⟨2, ![1, 256]⟩
abbrev S4000x256 : Shape := ⟨2, ![4000, 256]⟩
abbrev S4000x4 : Shape := ⟨2, ![4000, 4]⟩
abbrev S4000x3 : Shape := ⟨2, ![4000, 3]⟩
abbrev S4000x1 : Shape := ⟨2, ![4000, 1]⟩
abbrev S4000 : Shape := ⟨1, ![4000]⟩

abbrev nBuf : Space → Nat
  | .hbm => 110
  | .vmem => 34
  | .smem => 0
  | _ => 0

abbrev bufTy : (tb : Table) → Fin (tcTables nBuf tb) → BufTy
  | .hbm, ⟨0, _⟩ => ⟨S20000x256, .f32⟩
  | .hbm, ⟨1, _⟩ => ⟨S20000x3, .f32⟩
  | .hbm, ⟨2, _⟩ => ⟨S2x320000, .i32⟩
  | .hbm, ⟨3, _⟩ => ⟨S513x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S512x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x1, .f32⟩
  | .hbm, ⟨18, _⟩ => ⟨S_, .f32⟩
  | .hbm, ⟨19, _⟩ => ⟨S_, .f32⟩
  | .hbm, ⟨20, _⟩ => ⟨S1x320000, .i32⟩
  | .hbm, ⟨21, _⟩ => ⟨S320000, .i32⟩
  | .hbm, ⟨22, _⟩ => ⟨S1x320000, .i32⟩
  | .hbm, ⟨23, _⟩ => ⟨S320000, .i32⟩
  | .hbm, ⟨24, _⟩ => ⟨S20000x256, .bf16⟩
  | .hbm, ⟨25, _⟩ => ⟨S_, .i32⟩
  | .hbm, ⟨26, _⟩ => ⟨S320000, .i32⟩
  | .hbm, ⟨27, _⟩ => ⟨S320000, .i1⟩
  | .hbm, ⟨28, _⟩ => ⟨S_, .i32⟩
  | .hbm, ⟨29, _⟩ => ⟨S320000, .i32⟩
  | .hbm, ⟨30, _⟩ => ⟨S320000, .i32⟩
  | .hbm, ⟨31, _⟩ => ⟨S320000, .i32⟩
  | .hbm, ⟨32, _⟩ => ⟨S320000x1, .i32⟩
  | .hbm, ⟨33, _⟩ => ⟨S320000x256, .bf16⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x256, .bf16⟩
  | .hbm, ⟨43, _⟩ => ⟨S_, .i32⟩
  | .hbm, ⟨44, _⟩ => ⟨S320000, .i32⟩
  | .hbm, ⟨45, _⟩ => ⟨S320000, .i1⟩
  | .hbm, ⟨46, _⟩ => ⟨S_, .i32⟩
  | .hbm, ⟨47, _⟩ => ⟨S320000, .i32⟩
  | .hbm, ⟨48, _⟩ => ⟨S320000, .i32⟩
  | .hbm, ⟨49, _⟩ => ⟨S320000, .i32⟩
  | .hbm, ⟨50, _⟩ => ⟨S320000x1, .i32⟩
  | .hbm, ⟨51, _⟩ => ⟨S320000x3, .f32⟩
  | .hbm, ⟨52, _⟩ => ⟨S_, .i32⟩
  | .hbm, ⟨53, _⟩ => ⟨S320000, .i32⟩
  | .hbm, ⟨54, _⟩ => ⟨S320000, .i1⟩
  | .hbm, ⟨55, _⟩ => ⟨S_, .i32⟩
  | .hbm, ⟨56, _⟩ => ⟨S320000, .i32⟩
  | .hbm, ⟨57, _⟩ => ⟨S320000, .i32⟩
  | .hbm, ⟨58, _⟩ => ⟨S320000, .i32⟩
  | .hbm, ⟨59, _⟩ => ⟨S320000x1, .i32⟩
  | .hbm, ⟨60, _⟩ => ⟨S320000x3, .f32⟩
  | .hbm, ⟨61, _⟩ => ⟨S320000x3, .f32⟩
  | .hbm, ⟨62, _⟩ => ⟨S320000x3, .f32⟩
  | .hbm, ⟨63, _⟩ => ⟨S_, .f32⟩
  | .hbm, ⟨64, _⟩ => ⟨S320000, .f32⟩
  | .hbm, ⟨65, _⟩ => ⟨S320000x1, .f32⟩
  | .hbm, ⟨66, _⟩ => ⟨S320000x1, .f32⟩
  | .hbm, ⟨67, _⟩ => ⟨S_, .f32⟩
  | .hbm, ⟨68, _⟩ => ⟨S320000x1, .f32⟩
  | .hbm, ⟨69, _⟩ => ⟨S320000x1, .f32⟩
  | .hbm, ⟨70, _⟩ => ⟨S320000x4, .f32⟩
  | .hbm, ⟨71, _⟩ => ⟨S256x256, .f32⟩
  | .hbm, ⟨72, _⟩ => ⟨S256x256, .bf16⟩
  | .hbm, ⟨73, _⟩ => ⟨S256x256, .f32⟩
  | .hbm, ⟨74, _⟩ => ⟨S256x256, .bf16⟩
  | .hbm, ⟨75, _⟩ => ⟨S1x256, .f32⟩
  | .hbm, ⟨76, _⟩ => ⟨S1x256, .f32⟩
  | .hbm, ⟨77, _⟩ => ⟨S256x256, .bf16⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S256x256, .bf16⟩
  | .hbm, ⟨82, _⟩ => ⟨S1x256, .f32⟩
  | .hbm, ⟨83, _⟩ => ⟨S256x1, .bf16⟩
  | .hbm, ⟨84, _⟩ => ⟨S320000x256, .f32⟩
  | .hbm, ⟨85, _⟩ => ⟨S320000x3, .f32⟩
  | .hbm, ⟨86, _⟩ => ⟨S_, .f32⟩
  | .hbm, ⟨87, _⟩ => ⟨S20000x3, .f32⟩
  | .hbm, ⟨88, _⟩ => ⟨S320000x1, .i32⟩
  | .hbm, ⟨89, _⟩ => ⟨S20000x3, .f32⟩
  | .hbm, ⟨90, _⟩ => ⟨S20000x3, .f32⟩
  | .hbm, ⟨91, _⟩ => ⟨S20000x3, .f32⟩
  | .hbm, ⟨92, _⟩ => ⟨S20000x3, .f32⟩
  | .hbm, ⟨93, _⟩ => ⟨S_, .f32⟩
  | .hbm, ⟨94, _⟩ => ⟨S20000x256, .f32⟩
  | .hbm, ⟨95, _⟩ => ⟨S320000x1, .i32⟩
  | .hbm, ⟨96, _⟩ => ⟨S20000x256, .f32⟩
  | .hbm, ⟨97, _⟩ => ⟨S256x256, .f32⟩
  | .hbm, ⟨98, _⟩ => ⟨S256x256, .bf16⟩
  | .hbm, ⟨99, _⟩ => ⟨S256x256, .f32⟩
  | .hbm, ⟨100, _⟩ => ⟨S256x256, .bf16⟩
  | .hbm, ⟨101, _⟩ => ⟨S1x256, .f32⟩
  | .hbm, ⟨102, _⟩ => ⟨S256x256, .bf16⟩
  | .hbm, ⟨103, _⟩ => ⟨S1x256, .f32⟩
  | .hbm, ⟨104, _⟩ => ⟨S1x256, .f32⟩
  | .hbm, ⟨105, _⟩ => ⟨S1x256, .f32⟩
  | .hbm, ⟨106, _⟩ => ⟨S20000x256, .f32⟩
  | .hbm, ⟨107, _⟩ => ⟨S20000x256, .f32⟩
  | .hbm, ⟨108, _⟩ => ⟨S20000x256, .f32⟩
  | .hbm, ⟨109, _⟩ => ⟨S20000x256, .f32⟩
  | .local _ .vmem, ⟨0, _⟩ => ⟨S4000x256, .bf16⟩
  | .local _ .vmem, ⟨1, _⟩ => ⟨S4000x256, .bf16⟩
  | .local _ .vmem, ⟨2, _⟩ => ⟨S4000x256, .bf16⟩
  | .local _ .vmem, ⟨3, _⟩ => ⟨S4000x256, .bf16⟩
  | .local _ .vmem, ⟨4, _⟩ => ⟨S4000x4, .f32⟩
  | .local _ .vmem, ⟨5, _⟩ => ⟨S4000x4, .f32⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x256, .bf16⟩
  | .local _ .vmem, ⟨15, _⟩ => ⟨S1x256, .f32⟩
  | .local _ .vmem, ⟨16, _⟩ => ⟨S256x1, .bf16⟩
  | .local _ .vmem, ⟨17, _⟩ => ⟨S4000x256, .f32⟩
  | .local _ .vmem, ⟨18, _⟩ => ⟨S4000x256, .f32⟩
  | .local _ .vmem, ⟨19, _⟩ => ⟨S4000x3, .f32⟩
  | .local _ .vmem, ⟨20, _⟩ => ⟨S4000x3, .f32⟩
  | .local _ .vmem, ⟨21, _⟩ => ⟨S4000x256, .bf16⟩
  | .local _ .vmem, ⟨22, _⟩ => ⟨S4000x256, .bf16⟩
  | .local _ .vmem, ⟨23, _⟩ => ⟨S4000x256, .f32⟩
  | .local _ .vmem, ⟨24, _⟩ => ⟨S4000x256, .f32⟩
  | .local _ .vmem, ⟨25, _⟩ => ⟨S256x256, .bf16⟩
  | .local _ .vmem, ⟨26, _⟩ => ⟨S256x256, .bf16⟩
  | .local _ .vmem, ⟨27, _⟩ => ⟨S1x256, .f32⟩
  | .local _ .vmem, ⟨28, _⟩ => ⟨S256x256, .bf16⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S4000x256, .f32⟩
  | .local _ .vmem, ⟨33, _⟩ => ⟨S4000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_1 : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_call0_v0 : Ref sig .tc := ⟨.hbm, 62, rfl⟩
abbrev main_call0_cst : Ref sig .tc := ⟨.hbm, 63, rfl⟩
abbrev main_call0_v1 : Ref sig .tc := ⟨.hbm, 64, rfl⟩
abbrev main_call0_v2 : Ref sig .tc := ⟨.hbm, 65, rfl⟩
abbrev main_v34 : Ref sig .tc := ⟨.hbm, 66, rfl⟩
abbrev main_cst : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51_0 : Ref sig .tc := ⟨.hbm, 84, rfl⟩
abbrev main_v51_1 : Ref sig .tc := ⟨.hbm, 85, rfl⟩
abbrev main_cst_7 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_8 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem9_1 : DmaSem sig := 33

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4000x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4000x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  bcast_S_S320000x1 : S_.BroadcastsInDim S320000x1 (![] : Fin 0 → Fin S320000x1.rank)
  concatenates_S320000x3_S320000x1_S320000x4_d1 : Shape.Concatenates [S320000x3, S320000x1] S320000x4 1
  slices_S513x256_S256x256_0_0 : S513x256.Slices ![0, 0] S256x256
  slices_S513x256_S256x256_256_0 : S513x256.Slices ![256, 0] S256x256
  slices_S513x256_S1x256_512_0 : S513x256.Slices ![512, 0] S1x256
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  slices_S4000x4_o0_0_S4000x3 : S4000x4.Slices ![0, 0] S4000x3
  slices_S4000x4_o0_3_S4000x1 : S4000x4.Slices ![0, 3] S4000x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S4000x1_S4000x256 : S4000x1.Broadcasts S4000x256
  broadcasts_S1x256_S4000x256 : S1x256.Broadcasts S4000x256
  reduces_S4000x256_S4000 : S4000x256.Reduces [1] S4000
  shapeCasts_S4000_S4000x1 : S4000.ShapeCasts S4000x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S4000x1_S4000x3 : S4000x1.Broadcasts S4000x3
  inb_S4000x3_S4000x3_0_0 : ∀ a, (![0, 0] : Fin 2 → Nat) a + S4000x3.size a ≤ S4000x3.size a
  h_S4000x3 : 0 < S4000x3.numel
  bcast_S_S20000x3 : S_.BroadcastsInDim S20000x3 (![] : Fin 0 → Fin S20000x3.rank)
  bcast_S_S20000x256 : S_.BroadcastsInDim S20000x256 (![] : Fin 0 → Fin S20000x256.rank)
  slices_S512x256_S256x256_0_0 : S512x256.Slices ![0, 0] S256x256
  slices_S512x256_S256x256_256_0 : S512x256.Slices ![256, 0] S256x256
  gather_S20000x256_S320000x1_S320000x256_1_0_n_n_0_1_1256_wf : GatherDims.WF S20000x256 S320000x1 S320000x256 [1] [0] [] [0] [] 1 ![1, 256]
  gather_S20000x3_S320000x1_S320000x3_1_0_n_n_0_1_13_wf : GatherDims.WF S20000x3 S320000x1 S320000x3 [1] [0] [] [0] [] 1 ![1, 3]
  dot_S4000x256_S256x256_S4000x256_1_0_0_1_n_n_wf : DotDims.WF S4000x256 S256x256 S4000x256 [1] [0] [0] [1] [] []
  dot_S4000x256_S256x1_S4000x1_1_0_0_1_n_n_wf : DotDims.WF S4000x256 S256x1 S4000x1 [1] [0] [0] [1] [] []
  scatter_S20000x3_S320000x1_S320000x3_1_0_0_1_wf : ScatterDims.WF S20000x3 S320000x1 S320000x3 [1] [0] [0] 1
  scatter_S20000x256_S320000x1_S320000x256_1_0_0_1_wf : ScatterDims.WF S20000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S320000x256.size a
  hwx0_0 : ∀ i : grid0.Coords, EltTy.bits .bf16 = 32 ∨ (Rect.block (s := S320000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S320000x256.size a
  hwx0_1 : ∀ i : grid0.Coords, EltTy.bits .bf16 = 32 ∨ (Rect.block (s := S320000x256) S4000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x4.size a ≤ S320000x4.size a
  hwx0_2 : ∀ i : grid0.Coords, EltTy.bits .f32 = 32 ∨ (Rect.block (s := S320000x4) S4000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x1.size a ≤ S256x1.size a
  hwx0_13 : ∀ i : grid0.Coords, EltTy.bits .bf16 = 32 ∨ (Rect.block (s := S256x1) S256x1.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x256.size a ≤ S320000x256.size a
  hwx0_14 : ∀ i : grid0.Coords, EltTy.bits .f32 = 32 ∨ (Rect.block (s := S320000x256) S4000x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4000x3.size a ≤ S320000x3.size a
  hwx0_15 : ∀ i : grid0.Coords, EltTy.bits .f32 = 32 ∨ (Rect.block (s := S320000x3) S4000x3.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S20000x256.size a
  hwx1_0 : ∀ i : grid1.Coords, EltTy.bits .bf16 = 32 ∨ (Rect.block (s := S20000x256) S4000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S20000x256.size a
  hwx1_1 : ∀ i : grid1.Coords, EltTy.bits .f32 = 32 ∨ (Rect.block (s := S20000x256) S4000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x256.size a ≤ S20000x256.size a
  hwx1_9 : ∀ i : grid1.Coords, EltTy.bits .f32 = 32 ∨ (Rect.block (s := S20000x256) S4000x256.size (cc1_transform_9 i) (hinb1_9 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def gather_S20000x3_S320000x1_S320000x3_1_0_n_n_0_1_13 : GatherDims S20000x3 S320000x1 S320000x3 where
  offsetDims := [1]
  collapsedSliceDims := [0]
  operandBatchingDims := []
  startIndicesBatchingDims := []
  startIndexMap := [0]
  indexVectorDim := 1
  sliceSizes := ![1, 3]
  wf := gather_S20000x3_S320000x1_S320000x3_1_0_n_n_0_1_13_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x1_S4000x1_1_0_0_1_n_n : DotDims S4000x256 S256x1 S4000x1 where
  lhsContracting := [1]
  rhsContracting := [0]
  lhsNonContracting := [0]
  rhsNonContracting := [1]
  lhsBatch := []
  rhsBatch := []
  wf := dot_S4000x256_S256x1_S4000x1_1_0_0_1_n_n_wf
def scatter_S20000x3_S320000x1_S320000x3_1_0_0_1 : ScatterDims S20000x3 S320000x1 S320000x3 where
  updateWindowDims := [1]
  insertedWindowDims := [0]
  scatterDimsToOperandDims := [0]
  indexVectorDim := 1
  wf := scatter_S20000x3_S320000x1_S320000x3_1_0_0_1_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf

abbrev win0_0 : Pipeline.Window sig grid0 :=
  Pipeline.Window.ofSpec (Memref.whole main_v11) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S4000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v47) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v48) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v49) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v50) S256x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v51_0) S4000x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v51_1) S4000x3.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v4) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v68) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v69) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v70) S4000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S20000x256 : Shape := ⟨2, ![20000, 256]⟩
abbrev S20000x3 : Shape := ⟨2, ![20000, 3]⟩
abbrev S2x320000 : Shape := ⟨2, ![2, 320000]⟩
abbrev S513x256 : Shape := ⟨2, ![513, 256]⟩
abbrev S256 : Shape := ⟨1, ![256]⟩
abbrev S256x256 : Shape := ⟨2, ![256, 256]⟩
abbrev S512x256 : Shape := ⟨2, ![512, 256]⟩
abbrev S256x1 : Shape := ⟨2, ![256, 1]⟩
abbrev S_ : Shape := ⟨0, ![]⟩
abbrev S1x320000 : Shape := ⟨2, ![1, 320000]⟩
abbrev S320000 : Shape := ⟨1, ![320000]⟩
abbrev S320000x1 : Shape := ⟨2, ![320000, 1]⟩
abbrev S320000x3 : Shape := ⟨2, ![320000, 3]⟩
abbrev S320000x256 : Shape := ⟨2, ![320000, 256]⟩
abbrev S320000x513 : Shape := ⟨2, ![320000, 513]⟩
abbrev S1x256 : Shape := ⟨2, ![1, 256]⟩
abbrev S20000x512 : Shape := ⟨2, ![20000, 512]⟩
abbrev S20000 : Shape := ⟨1, ![20000]⟩
abbrev S20000x1 : Shape := ⟨2, ![20000, 1]⟩

abbrev nBuf : Space → Nat
  | .hbm => 196
  | .vmem => 0
  | .smem => 0
  | _ => 0

abbrev hbmTy0_0 (i : Nat) : BufTy := match i % 128 with
  | 0 => ⟨S20000x256, .f32⟩
  | 1 => ⟨S20000x3, .f32⟩
  | 2 => ⟨S2x320000, .i32⟩
  | 3 => ⟨S513x256, .f32⟩
  | 4 => ⟨S256, .f32⟩
  | 5 => ⟨S256x256, .f32⟩
  | 6 => ⟨S256, .f32⟩
  | 7 => ⟨S256, .f32⟩
  | 8 => ⟨S256, .f32⟩
  | 9 => ⟨S512x256, .f32⟩
  | 10 => ⟨S256, .f32⟩
  | 11 => ⟨S256x256, .f32⟩
  | 12 => ⟨S256, .f32⟩
  | 13 => ⟨S256, .f32⟩
  | 14 => ⟨S256, .f32⟩
  | 15 => ⟨S256x256, .f32⟩
  | 16 => ⟨S256, .f32⟩
  | 17 => ⟨S256x1, .f32⟩
  | 18 => ⟨S_, .f32⟩
  | 19 => ⟨S_, .f32⟩
  | 20 => ⟨S1x320000, .i32⟩
  | 21 => ⟨S320000, .i32⟩
  | 22 => ⟨S1x320000, .i32⟩
  | 23 => ⟨S320000, .i32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000x3, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x3, .f32⟩
  | 42 => ⟨S320000x3, .f32⟩
  | 43 => ⟨S320000x3, .f32⟩
  | 44 => ⟨S_, .f32⟩
  | 45 => ⟨S320000, .f32⟩
  | 46 => ⟨S320000x1, .f32⟩
  | 47 => ⟨S320000x1, .f32⟩
  | 48 => ⟨S_, .f32⟩
  | 49 => ⟨S320000x1, .f32⟩
  | 50 => ⟨S320000x1, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x256, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x256, .f32⟩
  | 69 => ⟨S320000x513, .f32⟩
  | 70 => ⟨S320000x256, .f32⟩
  | 71 => ⟨S1x256, .f32⟩
  | 72 => ⟨S320000x256, .f32⟩
  | 73 => ⟨S320000x256, .f32⟩
  | 74 => ⟨S_, .f32⟩
  | 75 => ⟨S320000x256, .f32⟩
  | 76 => ⟨S320000x256, .i1⟩
  | 77 => ⟨S_, .f32⟩
  | 78 => ⟨S320000x256, .f32⟩
  | 79 => ⟨S320000x256, .f32⟩
  | 80 => ⟨S320000x256, .f32⟩
  | 81 => ⟨S320000x256, .f32⟩
  | 82 => ⟨S1x256, .f32⟩
  | 83 => ⟨S320000x256, .f32⟩
  | 84 => ⟨S320000x256, .f32⟩
  | 85 => ⟨S_, .f32⟩
  | 86 => ⟨S320000x256, .f32⟩
  | 87 => ⟨S320000x256, .i1⟩
  | 88 => ⟨S_, .f32⟩
  | 89 => ⟨S320000x256, .f32⟩
  | 90 => ⟨S320000x256, .f32⟩
  | 91 => ⟨S320000x256, .f32⟩
  | 92 => ⟨S_, .f32⟩
  | 93 => ⟨S320000, .f32⟩
  | 94 => ⟨S320000x1, .f32⟩
  | 95 => ⟨S_, .f32⟩
  | 96 => ⟨S320000x1, .f32⟩
  | 97 => ⟨S320000x1, .f32⟩
  | 98 => ⟨S320000x256, .f32⟩
  | 99 => ⟨S320000x256, .f32⟩
  | 100 => ⟨S320000x256, .f32⟩
  | 101 => ⟨S_, .f32⟩
  | 102 => ⟨S320000, .f32⟩
  | 103 => ⟨S320000x1, .f32⟩
  | 104 => ⟨S_, .f32⟩
  | 105 => ⟨S320000x1, .f32⟩
  | 106 => ⟨S320000x1, .f32⟩
  | 107 => ⟨S320000x256, .f32⟩
  | 108 => ⟨S320000x256, .f32⟩
  | 109 => ⟨S_, .f32⟩
  | 110 => ⟨S320000x1, .f32⟩
  | 111 => ⟨S320000x1, .f32⟩
  | 112 => ⟨S320000x1, .f32⟩
  | 113 => ⟨S320000x256, .f32⟩
  | 114 => ⟨S320000x256, .f32⟩
  | 115 => ⟨S1x256, .f32⟩
  | 116 => ⟨S320000x256, .f32⟩
  | 117 => ⟨S320000x256, .f32⟩
  | 118 => ⟨S1x256, .f32⟩
  | 119 => ⟨S320000x256, .f32⟩
  | 120 => ⟨S320000x256, .f32⟩
  | 121 => ⟨S320000x256, .f32⟩
  | 122 => ⟨S1x256, .f32⟩
  | 123 => ⟨S320000x256, .f32⟩
  | 124 => ⟨S320000x256, .f32⟩
  | 125 => ⟨S_, .f32⟩
  | 126 => ⟨S320000x256, .f32⟩
  | 127 => ⟨S320000x256, .i1⟩
  | _ => ⟨S20000x256, .f32⟩

abbrev hbmTy0_1 (i : Nat) : BufTy := match i % 128 with
  | 0 => ⟨S_, .f32⟩
  | 1 => ⟨S320000x256, .f32⟩
  | 2 => ⟨S320000x256, .f32⟩
  | 3 => ⟨S320000x256, .f32⟩
  | 4 => ⟨S320000x1, .f32⟩
  | 5 => ⟨S320000x3, .f32⟩
  | 6 => ⟨S320000x3, .f32⟩
  | 7 => ⟨S320000x3, .f32⟩
  | 8 => ⟨S320000x3, .f32⟩
  | 9 => ⟨S_, .f32⟩
  | 10 => ⟨S20000x3, .f32⟩
  | 11 => ⟨S320000x1, .i32⟩
  | 12 => ⟨S20000x3, .f32⟩
  | 13 => ⟨S20000x3, .f32⟩
  | 14 => ⟨S20000x3, .f32⟩
  | 15 => ⟨S20000x3, .f32⟩
  | 16 => ⟨S_, .f32⟩
  | 17 => ⟨S20000x256, .f32⟩
  | 18 => ⟨S320000x1, .i32⟩
  | 19 => ⟨S20000x256, .f32⟩
  | 20 => ⟨S20000x512, .f32⟩
  | 21 => ⟨S20000x256, .f32⟩
  | 22 => ⟨S1x256, .f32⟩
  | 23 => ⟨S20000x256, .f32⟩
  | 24 => ⟨S20000x256, .f32⟩
  | 25 => ⟨S_, .f32⟩
  | 26 => ⟨S20000x256, .f32⟩
  | 27 => ⟨S20000x256, .i1⟩
  | 28 => ⟨S_, .f32⟩
  | 29 => ⟨S20000x256, .f32⟩
  | 30 => ⟨S20000x256, .f32⟩
  | 31 => ⟨S20000x256, .f32⟩
  | 32 => ⟨S20000x256, .f32⟩
  | 33 => ⟨S1x256, .f32⟩
  | 34 => ⟨S20000x256, .f32⟩
  | 35 => ⟨S20000x256, .f32⟩
  | 36 => ⟨S_, .f32⟩
  | 37 => ⟨S20000, .f32⟩
  | 38 => ⟨S20000x1, .f32⟩
  | 39 => ⟨S_, .f32⟩
  | 40 => ⟨S20000x1, .f32⟩
  | 41 => ⟨S20000x1, .f32⟩
  | 42 => ⟨S20000x256, .f32⟩
  | 43 => ⟨S20000x256, .f32⟩
  | 44 => ⟨S20000x256, .f32⟩
  | 45 => ⟨S_, .f32⟩
  | 46 => ⟨S20000, .f32⟩
  | 47 => ⟨S20000x1, .f32⟩
  | 48 => ⟨S_, .f32⟩
  | 49 => ⟨S20000x1, .f32⟩
  | 50 => ⟨S20000x1, .f32⟩
  | 51 => ⟨S20000x256, .f32⟩
  | 52 => ⟨S20000x256, .f32⟩
  | 53 => ⟨S_, .f32⟩
  | 54 => ⟨S20000x1, .f32⟩
  | 55 => ⟨S20000x1, .f32⟩
  | 56 => ⟨S20000x1, .f32⟩
  | 57 => ⟨S20000x256, .f32⟩
  | 58 => ⟨S20000x256, .f32⟩
  | 59 => ⟨S1x256, .f32⟩
  | 60 => ⟨S20000x256, .f32⟩
  | 61 => ⟨S20000x256, .f32⟩
  | 62 => ⟨S1x256, .f32⟩
  | 63 => ⟨S20000x256, .f32⟩
  | 64 => ⟨S20000x256, .f32⟩
  | 65 => ⟨S20000x256, .f32⟩
  | 66 => ⟨S20000x256, .f32⟩
  | 67 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_call0_v2 : Ref sig .tc := ⟨.hbm, 46, rfl⟩
abbrev main_v19 : Ref sig .tc := ⟨.hbm, 47, rfl⟩
abbrev main_cst : Ref sig .tc := ⟨.hbm, 48, rfl⟩
abbrev main_v20 : Ref sig .tc := ⟨.hbm, 49, rfl⟩
abbrev main_v21 : Ref sig .tc := ⟨.hbm, 50, rfl⟩
abbrev main_c_3 : Ref sig .tc := ⟨.hbm, 51, rfl⟩
abbrev main_v22 : Ref sig .tc := ⟨.hbm, 52, rfl⟩
abbrev main_v23 : Ref sig .tc := ⟨.hbm, 53, rfl⟩
abbrev main_c_4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_5 : Ref sig .tc := ⟨.hbm, 60, rfl⟩
abbrev main_v29 : Ref sig .tc := ⟨.hbm, 61, rfl⟩
abbrev main_v30 : Ref sig .tc := ⟨.hbm, 62, rfl⟩
abbrev main_c_6 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_v42 : Ref sig .tc := ⟨.hbm, 76, rfl⟩
abbrev main_cst_8 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_v51 : Ref sig .tc := ⟨.hbm, 87, rfl⟩
abbrev main_cst_10 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_11 : Ref sig .tc := ⟨.hbm, 92, rfl⟩
abbrev main_v55 : Ref sig .tc := ⟨.hbm, 93, rfl⟩
abbrev main_v56 : Ref sig .tc := ⟨.hbm, 94, rfl⟩
abbrev main_cst_12 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_13 : Ref sig .tc := ⟨.hbm, 101, rfl⟩
abbrev main_v62 : Ref sig .tc := ⟨.hbm, 102, rfl⟩
abbrev main_v63 : Ref sig .tc := ⟨.hbm, 103, rfl⟩
abbrev main_cst_14 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_15 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_16 : Ref sig .tc := ⟨.hbm, 125, rfl⟩
abbrev main_v83 : Ref sig .tc := ⟨.hbm, 126, rfl⟩
abbrev main_v84 : Ref sig .tc := ⟨.hbm, 127, rfl⟩
abbrev main_cst_17 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_18 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_19 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_20 : Ref sig .tc := ⟨.hbm, 153, rfl⟩
abbrev main_v107 : Ref sig .tc := ⟨.hbm, 154, rfl⟩
abbrev main_v108 : Ref sig .tc := ⟨.hbm, 155, rfl⟩
abbrev main_cst_21 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_22 : Ref sig .tc := ⟨.hbm, 164, rfl⟩
abbrev main_v116 : Ref sig .tc := ⟨.hbm, 165, rfl⟩
abbrev main_v117 : Ref sig .tc := ⟨.hbm, 166, rfl⟩
abbrev main_cst_23 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_24 : Ref sig .tc := ⟨.hbm, 173, rfl⟩
abbrev main_v123 : Ref sig .tc := ⟨.hbm, 174, rfl⟩
abbrev main_v124 : Ref sig .tc := ⟨.hbm, 175, rfl⟩
abbrev main_cst_25 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_26 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  bcast_S_S320000x1 : S_.BroadcastsInDim S320000x1 (![] : Fin 0 → Fin S320000x1.rank)
  concatenates_S320000x256_S320000x256_S320000x1_S320000x513_d1 : Shape.Concatenates [S320000x256, S320000x256, S320000x1] S320000x513 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  reducesTo_S320000x256_S320000_d1 : S320000x256.ReducesTo [1] S320000
  bcast_S320000x1_S320000x256_0_1 : S320000x1.BroadcastsInDim S320000x256 (![0, 1] : Fin 2 → Fin S320000x256.rank)
  bcast_S320000x1_S320000x3_0_1 : S320000x1.BroadcastsInDim S320000x3 (![0, 1] : Fin 2 → Fin S320000x3.rank)
  bcast_S_S20000x3 : S_.BroadcastsInDim S20000x3 (![] : Fin 0 → Fin S20000x3.rank)
  bcast_S_S20000x256 : S_.BroadcastsInDim S20000x256 (![] : Fin 0 → Fin S20000x256.rank)
  concatenates_S20000x256_S20000x256_S20000x512_d1 : Shape.Concatenates [S20000x256, S20000x256] S20000x512 1
  bcast_S1x256_S20000x256_0_1 : S1x256.BroadcastsInDim S20000x256 (![0, 1] : Fin 2 → Fin S20000x256.rank)
  reducesTo_S20000x256_S20000_d1 : S20000x256.ReducesTo [1] S20000
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  gather_S20000x3_S320000x1_S320000x3_1_0_n_n_0_1_13_wf : GatherDims.WF S20000x3 S320000x1 S320000x3 [1] [0] [] [0] [] 1 ![1, 3]
  gather_S20000x256_S320000x1_S320000x256_1_0_n_n_0_1_1256_wf : GatherDims.WF S20000x256 S320000x1 S320000x256 [1] [0] [] [0] [] 1 ![1, 256]
  dot_S320000x513_S513x256_S320000x256_1_0_0_1_n_n_wf : DotDims.WF S320000x513 S513x256 S320000x256 [1] [0] [0] [1] [] []
  dot_S320000x256_S256x256_S320000x256_1_0_0_1_n_n_wf : DotDims.WF S320000x256 S256x256 S320000x256 [1] [0] [0] [1] [] []
  dot_S320000x256_S256x1_S320000x1_1_0_0_1_n_n_wf : DotDims.WF S320000x256 S256x1 S320000x1 [1] [0] [0] [1] [] []
  scatter_S20000x3_S320000x1_S320000x3_1_0_0_1_wf : ScatterDims.WF S20000x3 S320000x1 S320000x3 [1] [0] [0] 1
  scatter_S20000x256_S320000x1_S320000x256_1_0_0_1_wf : ScatterDims.WF S20000x256 S320000x1 S320000x256 [1] [0] [0] 1
  dot_S20000x512_S512x256_S20000x256_1_0_0_1_n_n_wf : DotDims.WF S20000x512 S512x256 S20000x256 [1] [0] [0] [1] [] []
  dot_S20000x256_S256x256_S20000x256_1_0_0_1_n_n_wf : DotDims.WF S20000x256 S256x256 S20000x256 [1] [0] [0] [1] [] []

variable [Facts₀]

def gather_S20000x3_S320000x1_S320000x3_1_0_n_n_0_1_13 : GatherDims S20000x3 S320000x1 S320000x3 where
  offsetDims := [1]
  collapsedSliceDims := [0]
  operandBatchingDims := []
  startIndicesBatchingDims := []
  startIndexMap := [0]
  indexVectorDim := 1
  sliceSizes := ![1, 3]
  wf := gather_S20000x3_S320000x1_S320000x3_1_0_n_n_0_1_13_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S320000x513_S513x256_S320000x256_1_0_0_1_n_n : DotDims S320000x513 S513x256 S320000x256 where
  lhsContracting := [1]
  rhsContracting := [0]
  lhsNonContracting := [0]
  rhsNonContracting := [1]
  lhsBatch := []
  rhsBatch := []
  wf := dot_S320000x513_S513x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def dot_S320000x256_S256x1_S320000x1_1_0_0_1_n_n : DotDims S320000x256 S256x1 S320000x1 where
  lhsContracting := [1]
  rhsContracting := [0]
  lhsNonContracting := [0]
  rhsNonContracting := [1]
  lhsBatch := []
  rhsBatch := []
  wf := dot_S320000x256_S256x1_S320000x1_1_0_0_1_n_n_wf
def scatter_S20000x3_S320000x1_S320000x3_1_0_0_1 : ScatterDims S20000x3 S320000x1 S320000x3 where
  updateWindowDims := [1]
  insertedWindowDims := [0]
  scatterDimsToOperandDims := [0]
  indexVectorDim := 1
  wf := scatter_S20000x3_S320000x1_S320000x3_1_0_0_1_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.RunValue.lean ====
/-
  The idealized kernel program's run, with what every buffer holds at the end.

  The program is five stretches of host operations around two pipelined kernel regions. Its run passes through the
  buffer contents at each boundary: the launch memory, then each host stretch's operations applied in order, then
  each region's arrays replaced by what its grid points wrote back. The frame of the program keeps, of the last
  boundary, only that the arguments are unchanged; here the same run is stated with the WHOLE last boundary in its
  post — every buffer that outlives the regions holds the last boundary's contents, the two results among them — so
  that the results can be read off as terms of the argument arrays.
-/
import proofs.«140590_j6975026888916_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element: every pipeline's cells at their initial tokens. -/
abbrev launchElt : UR sig nD τ := initOf (Pipeline.cells cfgs cellOf_inj) (Pipeline.launchToks cfgs cellOf_inj)

/-- The launch element is handed over whole; no core receives anything beside it. -/
theorem launch_split :
    (ownU launchElt : sProp 𝕄) ⊢ |={Set.univ}=> iprop(BI.own (emb₁ launchElt) ∗ bigSep Finset.univ fun _ : Dev nD => (BI.emp : sProp 𝕄)) := by
  iintro Hown
  imodintro
  isplitl [Hown]
  · iapply (show (ownU launchElt : sProp 𝕄) ⊢ BI.own (emb₁ launchElt) from .rfl)
    iexact Hown
  · rw [BI.bigSep_emp_const]
    iempintro

/-- What a core holds before the first host stretch: its unscoped buffers at the launch memory, and beside them
    its generator register and the fact that it owes nothing. -/
abbrev firstState (c : Dev nD) : sProp 𝕄 :=
  iprop(StableHlo.held (c : Thread nD τ) (Pipeline.ucRefs τ sig) (W0 m ρ c) ∗ R c)

/-- At the end a core's unscoped buffers are read against the final state: each holds the last boundary's contents. -/
theorem last_read (c : Dev nD) (s' : Phys nD τ sig (Elt F)) :
    iprop(Tₙ m ρ c ∗ SI s') ⊢ |={Set.univ}=>
      iprop(⌜∀ b ∈ Pipeline.ucRefs τ sig, s'.mem.mem (((c : Thread nD τ)).1, b) = W7 m ρ c b⌝ ∗ SI s') := by
  iintro ⟨⟨Hbufs, -⟩, Hstate⟩
  unfold StableHlo.held
  imodintro
  iapply (pointsTo_read_all (Pipeline.ucRefs τ sig) (fun b => (((c : Thread nD τ)).1, b)) (W7 m ρ c) s')
  isplitl [Hbufs]
  · iexact Hbufs
  · iexact Hstate

set_option backward.isDefEq.respectTransparency.types false in
/-- Every weakly fair execution of the program terminates without a fault, and at the end every buffer that is
    not scoped to a region holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := launchElt)
    (hu₀ := launch_split)
    (T₀ := firstState m ρ) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hbufs, Hreg, Howes⟩
      isplitr [Howes]
      · isplitl [Hbufs]
        · iexact Hbufs
        · iexact Hreg
      · iexact Howes⟩)
    (hinit := by
      -- the launch gives every core its first state: its buffers at the launch memory, its register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]
      · iexact Hbufs
      · isplitl [Hreg]
        · iexists _
          iexact Hreg
        · iexists ∅
          iexact Howes)
    (QY := fun c s => ∀ b ∈ Pipeline.ucRefs τ sig, s.mem (((c : Thread nD τ)).1, b) = W7 m ρ c b)
    (hfin := last_read m ρ)
    (hQ := fun s h => h)

/-- A buffer of the program that no region scopes is among those the run's post speaks of. -/
theorem at_end {r : PUnit × MemSt nD τ sig (Elt F)}
    (h : ∀ c : Dev nD, ∀ b ∈ Pipeline.ucRefs τ sig, r.2.mem (((c : Thread nD τ)).1, b) = W7 m ρ c b)
    (c : Dev nD) (b : Ref sig .tc) (hb : ¬ (Proc.devRef .tc b : DevRef τ sig).isScoped) :
    r.2.mem ((c.tc : Thread nD τ).loc b) = W7 m ρ c (Proc.devRef .tc b) :=
  h c _ (mem_uc b hb)

end Cert.KernelIdeal.RunValue

end
-- ==== Proof.Fold.lean ====
/-
  What the host stretches of the idealized kernel program leave in the buffers the proof reads.

  Each stretch is a straight line of host operations; what one buffer holds after it is the operation that writes
  the buffer applied to what its operands held, and a buffer no operation of the stretch writes keeps its contents.
  The stretch lemmas are stated over an arbitrary valuation `X` of the buffers before the stretch; the boundary
  lemmas below them chain the stretches and the two regions (a region changes its own arrays only).
-/
import proofs.«140590_j6975026888916_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-- A buffer that no operation of a listed stretch writes keeps its contents through the stretch. -/
macro "untouched " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

section Stretches

variable (X : Valuation τ sig (Elt F))

/-! ## The last stretch: the node result scaled and added to the node features -/

theorem tail_v73 :
    StableHlo.after (hostOps2 (F := F)) X (Proc.devRef .tc main_v73)
      = addf (X (Proc.devRef .tc main_arg0))
          (mulf (broadcastInDim S20000x256 ![] bcast_S_S20000x256 (X (Proc.devRef .tc main_arg19))) (X (Proc.devRef .tc main_v70))) := by
  after_results

/-! ## The stretch between the regions: the two scatter-sums, the coordinate result, the node weights -/

theorem mid_v57 :
    StableHlo.after (hostOps1 (F := F)) X (Proc.devRef .tc main_v57)
      = addf (X (Proc.devRef .tc main_arg1))
          (mulf (broadcastInDim S20000x3 ![] bcast_S_S20000x3 (X (Proc.devRef .tc main_arg18)))
            (Host.scatterAdd scatter_S20000x3_S320000x1_S320000x3_1_0_0_1
              (broadcastInDim S20000x3 ![] bcast_S_S20000x3 (constant S_ .f32 0x00000000#32))
              (broadcastInDim S320000x1 ![0] bcast_S320000_S320000x1_0 (X (Proc.devRef .tc main_v1)))
              (X (Proc.devRef .tc main_v51_1)))) := by
  after_results

theorem mid_v60 :
    StableHlo.after (hostOps1 (F := F)) X (Proc.devRef .tc main_v60)
      = Host.scatterAdd scatter_S20000x256_S320000x1_S320000x256_1_0_0_1
          (broadcastInDim S20000x256 ![] bcast_S_S20000x256 (constant S_ .f32 0x00000000#32))
          (broadcastInDim S320000x1 ![0] bcast_S320000_S320000x1_0 (X (Proc.devRef .tc main_v1)))
          (X (Proc.devRef .tc main_v51_0)) := by
  after_results

theorem mid_v62 :
    StableHlo.after (hostOps1 (F := F)) X (Proc.devRef .tc main_v62)
      = truncf .bf16 (extractStridedSlice S256x256 ![0, 0] (X (Proc.devRef .tc main_arg9)) slices_S512x256_S256x256_0_0) bitsLt_bf16_f32 := by
  after_results

theorem mid_v64 :
    StableHlo.after (hostOps1 (F := F)) X (Proc.devRef .tc main_v64)
      = truncf .bf16 (extractStridedSlice S256x256 ![256, 0] (X (Proc.devRef .tc main_arg9)) slices_S512x256_S256x256_256_0) bitsLt_bf16_f32 := by
  after_results

theorem mid_v65 :
    StableHlo.after (hostOps1 (F := F)) X (Proc.devRef .tc main_v65)
      = shapeCast S1x256 (X (Proc.devRef .tc main_arg10)) shapeCasts_S256_S1x256 := by
  after_results; rfl

theorem mid_v66 :
    StableHlo.after (hostOps1 (F := F)) X (Proc.devRef .tc main_v66)
      = truncf .bf16 (X (Proc.devRef .tc main_arg11)) bitsLt_bf16_f32 := by
  after_results

theorem mid_v67 :
    StableHlo.after (hostOps1 (F := F)) X (Proc.devRef .tc main_v67)
      = shapeCast S1x256 (X (Proc.devRef .tc main_arg12)) shapeCasts_S256_S1x256 := by
  after_results; rfl

theorem mid_v68 :
    StableHlo.after (hostOps1 (F := F)) X (Proc.devRef .tc main_v68)
      = shapeCast S1x256 (X (Proc.devRef .tc main_arg13)) shapeCasts_S256_S1x256 := by
  after_results; rfl

theorem mid_v69 :
    StableHlo.after (hostOps1 (F := F)) X (Proc.devRef .tc main_v69)
      = shapeCast S1x256 (X (Proc.devRef .tc main_arg14)) shapeCasts_S256_S1x256 := by
  after_results; rfl

/-! ## The third stretch before the edge region: distance, the rel array, the edge weights -/

theorem pre_v37 :
    StableHlo.after (hostOps0_2 (F := F)) X (Proc.devRef .tc main_v37)
      = concatenate S320000x4 1 [⟨S320000x3, X (Proc.devRef .tc main_v33)⟩,
          ⟨S320000x1, addf (X (Proc.devRef .tc main_v34)) (broadcastInDim S320000x1 ![] bcast_S_S320000x1 (constant S_ .f32 0x322BCC77#32))⟩]
          concatenates_S320000x3_S320000x1_S320000x4_d1 := by
  after_results

theorem pre_v39 :
    StableHlo.after (hostOps0_2 (F := F)) X (Proc.devRef .tc main_v39)
      = truncf .bf16 (extractStridedSlice S256x256 ![0, 0] (X (Proc.devRef .tc main_arg3)) slices_S513x256_S256x256_0_0) bitsLt_bf16_f32 := by
  after_results

theorem pre_v41 :
    StableHlo.after (hostOps0_2 (F := F)) X (Proc.devRef .tc main_v41)
      = truncf .bf16 (extractStridedSlice S256x256 ![256, 0] (X (Proc.devRef .tc main_arg3)) slices_S513x256_S256x256_256_0) bitsLt_bf16_f32 := by
  after_results

theorem pre_v42 :
    StableHlo.after (hostOps0_2 (F := F)) X (Proc.devRef .tc main_v42)
      = extractStridedSlice S1x256 ![512, 0] (X (Proc.devRef .tc main_arg3)) slices_S513x256_S1x256_512_0 := by
  after_results

theorem pre_v43 :
    StableHlo.after (hostOps0_2 (F := F)) X (Proc.devRef .tc main_v43)
      = shapeCast S1x256 (X (Proc.devRef .tc main_arg4)) shapeCasts_S256_S1x256 := by
  after_results; rfl

theorem pre_v44 :
    StableHlo.after (hostOps0_2 (F := F)) X (Proc.devRef .tc main_v44)
      = truncf .bf16 (X (Proc.devRef .tc main_arg5)) bitsLt_bf16_f32 := by
  after_results

theorem pre_v45 :
    StableHlo.after (hostOps0_2 (F := F)) X (Proc.devRef .tc main_v45)
      = shapeCast S1x256 (X (Proc.devRef .tc main_arg6)) shapeCasts_S256_S1x256 := by
  after_results; rfl

theorem pre_v46 :
    StableHlo.after (hostOps0_2 (F := F)) X (Proc.devRef .tc main_v46)
      = shapeCast S1x256 (X (Proc.devRef .tc main_arg7)) shapeCasts_S256_S1x256 := by
  after_results; rfl

theorem pre_v47 :
    StableHlo.after (hostOps0_2 (F := F)) X (Proc.devRef .tc main_v47)
      = shapeCast S1x256 (X (Proc.devRef .tc main_arg8)) shapeCasts_S256_S1x256 := by
  after_results; rfl

theorem pre_v48 :
    StableHlo.after (hostOps0_2 (F := F)) X (Proc.devRef .tc main_v48)
      = truncf .bf16 (X (Proc.devRef .tc main_arg15)) bitsLt_bf16_f32 := by
  after_results

theorem pre_v49 :
    StableHlo.after (hostOps0_2 (F := F)) X (Proc.devRef .tc main_v49)
      = shapeCast S1x256 (X (Proc.devRef .tc main_arg16)) shapeCasts_S256_S1x256 := by
  after_results; rfl

theorem pre_v50 :
    StableHlo.after (hostOps0_2 (F := F)) X (Proc.devRef .tc main_v50)
      = truncf .bf16 (X (Proc.devRef .tc main_arg17)) bitsLt_bf16_f32 := by
  after_results

/-! ## The second stretch: the Euclidean norm of the relative coordinates -/

theorem norm_v34 :
    StableHlo.after (hostOps0_1 (F := F)) X (Proc.devRef .tc main_v34)
      = Host.sqrt (broadcastInDim S320000x1 ![0] bcast_S320000_S320000x1_0
          (Host.reduceAdd (mulf (X (Proc.devRef .tc main_v33)) (X (Proc.devRef .tc main_v33))) (constant S_ .f32 0x00000000#32)
            reducesTo_S320000x3_S320000_d1 h_S_)) := by
  after_results
  rfl

end Stretches

end Cert.KernelIdeal.Fold

end
-- ==== Proof.FoldHead.lean ====
/-
  The first host stretch of the idealized kernel program: the two index rows of the edge list, negative indices
  wrapped by the number of nodes, the node features gathered at both ends of every edge, the coordinates gathered
  at both ends and subtracted.
-/
import proofs.«140590_j6975026888916_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-- Row `r` (0: source nodes, 1: target nodes) of the edge list, as a vector of 320000 indices. -/
def srcIdx (x2 : (⟨S2x320000, .i32⟩ : BufTy).Contents (Elt F)) : (⟨S320000, .i32⟩ : BufTy).Contents (Elt F) :=
  shapeCast S320000 (extractStridedSlice S1x320000 ![0, 0] x2 slices_S2x320000_S1x320000_0_0) shapeCasts_S1x320000_S320000

def dstIdx (x2 : (⟨S2x320000, .i32⟩ : BufTy).Contents (Elt F)) : (⟨S320000, .i32⟩ : BufTy).Contents (Elt F) :=
  shapeCast S320000 (extractStridedSlice S1x320000 ![1, 0] x2 slices_S2x320000_S1x320000_1_0) shapeCasts_S1x320000_S320000

/-- A negative index counts from the end: add the number of nodes to it; then one index per gathered row. -/
def wrapped (r : (⟨S320000, .i32⟩ : BufTy).Contents (Elt F)) : (⟨S320000x1, .i32⟩ : BufTy).Contents (Elt F) :=
  broadcastInDim S320000x1 ![0] bcast_S320000_S320000x1_0
    (select (cmpi .slt r (broadcastInDim S320000 ![] bcast_S_S320000 (constantI S_ 32 0#32)))
      (addi r (broadcastInDim S320000 ![] bcast_S_S320000 (constantI S_ 32 20000#32))) r)

variable (X : Valuation τ sig (Elt F))

theorem head_v1 : StableHlo.after (hostOps0 (F := F)) X (Proc.devRef .tc main_v1) = srcIdx (X (Proc.devRef .tc main_arg2)) := by
  after_results_simp; rfl

theorem head_v4 : StableHlo.after (hostOps0 (F := F)) X (Proc.devRef .tc main_v4)
    = truncf .bf16 (X (Proc.devRef .tc main_arg0)) bitsLt_bf16_f32 := by
  after_results_simp

theorem head_v11 : StableHlo.after (hostOps0 (F := F)) X (Proc.devRef .tc main_v11)
    = Host.gather gather_S20000x256_S320000x1_S320000x256_1_0_n_n_0_1_1256 (truncf .bf16 (X (Proc.devRef .tc main_arg0)) bitsLt_bf16_f32)
        (wrapped (srcIdx (X (Proc.devRef .tc main_arg2)))) := by
  after_results_simp; rfl

theorem head_v18 : StableHlo.after (hostOps0 (F := F)) X (Proc.devRef .tc main_v18)
    = Host.gather gather_S20000x256_S320000x1_S320000x256_1_0_n_n_0_1_1256 (truncf .bf16 (X (Proc.devRef .tc main_arg0)) bitsLt_bf16_f32)
        (wrapped (dstIdx (X (Proc.devRef .tc main_arg2)))) := by
  after_results_simp; rfl

theorem head_v33 : StableHlo.after (hostOps0 (F := F)) X (Proc.devRef .tc main_v33)
    = subf (Host.gather gather_S20000x3_S320000x1_S320000x3_1_0_n_n_0_1_13 (X (Proc.devRef .tc main_arg1)) (wrapped (srcIdx (X (Proc.devRef .tc main_arg2)))))
        (Host.gather gather_S20000x3_S320000x1_S320000x3_1_0_n_n_0_1_13 (X (Proc.devRef .tc main_arg1)) (wrapped (dstIdx (X (Proc.devRef .tc main_arg2))))) := by
  after_results_simp; rfl

end Cert.KernelIdeal.Fold

end
-- ==== Proof.Boundaries.lean ====
/-
  What the two kernel regions find when they are entered, and what the program's two results hold at the end, as
  terms of the launch memory.

  The edge region's fourteen operand arrays are host terms of the arguments: the gathered node features at the two
  ends of every edge, the array (relative coordinates, distance), and slices, reshapes and format changes of the
  weights. The node region's nine operand arrays are the node features, the scatter-sum of the edge region's first
  output over the source index, and the node weights. The coordinate result is the coordinates plus a scalar times
  the scatter-sum of the edge region's second output; the feature result is the features plus a scalar times the
  node region's output. A region changes its own arrays only, and no operation writes an argument.
-/
import proofs.«140590_j6975026888916_1_alg».proof.Proof.Fold
import proofs.«140590_j6975026888916_1_alg».proof.Proof.FoldHead

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Across the node region, for a buffer that is none of its arrays. -/
macro "past_node_region" : tactic => `(tactic| refine (W6_of_ne _ _ _ _ (by decide)).trans ?_)
/-- Across the edge region, for a buffer that is none of its arrays. -/
macro "past_edge_region" : tactic => `(tactic| refine (W4_of_ne _ _ _ _ (by decide)).trans ?_)
/-- Back through a host stretch none of whose operations writes the buffer. -/
macro "through " ops:ident : tactic => `(tactic|
  refine (StableHlo.after_of_forall_not_mem $ops _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_)

/-! ## The relative coordinates and the distance, as the kernel program computes them -/

/-- Coordinates of the source node minus coordinates of the target node, per edge. -/
def relCoords (x1 : (⟨S20000x3, .f32⟩ : BufTy).Contents (Elt F)) (x2 : (⟨S2x320000, .i32⟩ : BufTy).Contents (Elt F)) :
    (⟨S320000x3, .f32⟩ : BufTy).Contents (Elt F) :=
  subf (Host.gather gather_S20000x3_S320000x1_S320000x3_1_0_n_n_0_1_13 x1 (wrapped (srcIdx x2)))
    (Host.gather gather_S20000x3_S320000x1_S320000x3_1_0_n_n_0_1_13 x1 (wrapped (dstIdx x2)))

/-- The Euclidean length of the relative coordinates plus the f32 nearest 1e-8, per edge. -/
def relDist (x1 : (⟨S20000x3, .f32⟩ : BufTy).Contents (Elt F)) (x2 : (⟨S2x320000, .i32⟩ : BufTy).Contents (Elt F)) :
    (⟨S320000x1, .f32⟩ : BufTy).Contents (Elt F) :=
  addf (Host.sqrt (broadcastInDim S320000x1 ![0] bcast_S320000_S320000x1_0
      (Host.reduceAdd (mulf (relCoords x1 x2) (relCoords x1 x2)) (constant S_ .f32 0x00000000#32) reducesTo_S320000x3_S320000_d1 h_S_)))
    (broadcastInDim S320000x1 ![] bcast_S_S320000x1 (constant S_ .f32 0x322BCC77#32))

/-- The node features (their format change is the identity at the exact values) gathered at the source node of every edge. -/
def srcFeat (x0 : (⟨S20000x256, .f32⟩ : BufTy).Contents (Elt F)) (x2 : (⟨S2x320000, .i32⟩ : BufTy).Contents (Elt F)) :
    (⟨S320000x256, .bf16⟩ : BufTy).Contents (Elt F) :=
  Host.gather gather_S20000x256_S320000x1_S320000x256_1_0_n_n_0_1_1256 (truncf .bf16 x0 bitsLt_bf16_f32) (wrapped (srcIdx x2))

/-- The node features gathered at the target node of every edge. -/
def dstFeat (x0 : (⟨S20000x256, .f32⟩ : BufTy).Contents (Elt F)) (x2 : (⟨S2x320000, .i32⟩ : BufTy).Contents (Elt F)) :
    (⟨S320000x256, .bf16⟩ : BufTy).Contents (Elt F) :=
  Host.gather gather_S20000x256_S320000x1_S320000x256_1_0_n_n_0_1_1256 (truncf .bf16 x0 bitsLt_bf16_f32) (wrapped (dstIdx x2))

/-- Summing an array of per-edge rows of 256 into the nodes by the source index, from zero. -/
def sumToNodes (x2 : (⟨S2x320000, .i32⟩ : BufTy).Contents (Elt F)) (u : (⟨S320000x256, .f32⟩ : BufTy).Contents (Elt F)) :
    (⟨S20000x256, .f32⟩ : BufTy).Contents (Elt F) :=
  Host.scatterAdd scatter_S20000x256_S320000x1_S320000x256_1_0_0_1
    (broadcastInDim S20000x256 ![] bcast_S_S20000x256 (constant S_ .f32 0x00000000#32))
    (broadcastInDim S320000x1 ![0] bcast_S320000_S320000x1_0 (srcIdx x2)) u

/-- The same for per-edge rows of 3. -/
def sumToNodes3 (x2 : (⟨S2x320000, .i32⟩ : BufTy).Contents (Elt F)) (u : (⟨S320000x3, .f32⟩ : BufTy).Contents (Elt F)) :
    (⟨S20000x3, .f32⟩ : BufTy).Contents (Elt F) :=
  Host.scatterAdd scatter_S20000x3_S320000x1_S320000x3_1_0_0_1
    (broadcastInDim S20000x3 ![] bcast_S_S20000x3 (constant S_ .f32 0x00000000#32))
    (broadcastInDim S320000x1 ![0] bcast_S320000_S320000x1_0 (srcIdx x2)) u

/-- A result: an argument array plus a scalar argument times an update array (features: 256 columns). -/
def residual (x : (⟨S20000x256, .f32⟩ : BufTy).Contents (Elt F)) (s : (⟨S_, .f32⟩ : BufTy).Contents (Elt F))
    (u : (⟨S20000x256, .f32⟩ : BufTy).Contents (Elt F)) : (⟨S20000x256, .f32⟩ : BufTy).Contents (Elt F) :=
  addf x (mulf (broadcastInDim S20000x256 ![] bcast_S_S20000x256 s) u)

/-- The same for coordinates (3 columns). -/
def residual3 (x : (⟨S20000x3, .f32⟩ : BufTy).Contents (Elt F)) (s : (⟨S_, .f32⟩ : BufTy).Contents (Elt F))
    (u : (⟨S20000x3, .f32⟩ : BufTy).Contents (Elt F)) : (⟨S20000x3, .f32⟩ : BufTy).Contents (Elt F) :=
  addf x (mulf (broadcastInDim S20000x3 ![] bcast_S_S20000x3 s) u)

/-! ## The first two boundaries -/

theorem W1_v33 (c : Dev nD) : W1 m ρ c (Proc.devRef .tc main_v33) = relCoords (m ((c : Thread nD τ).loc main_arg1)) (m ((c : Thread nD τ).loc main_arg2)) :=
  head_v33 (W0 m ρ c)

theorem W2_v33 (c : Dev nD) : W2 m ρ c (Proc.devRef .tc main_v33) = relCoords (m ((c : Thread nD τ).loc main_arg1)) (m ((c : Thread nD τ).loc main_arg2)) := by
  through hostOps0_1; exact W1_v33 m ρ c

theorem W2_v34 (c : Dev nD) : W2 m ρ c (Proc.devRef .tc main_v34)
    = Host.sqrt (broadcastInDim S320000x1 ![0] bcast_S320000_S320000x1_0
        (Host.reduceAdd (mulf (relCoords (m ((c : Thread nD τ).loc main_arg1)) (m ((c : Thread nD τ).loc main_arg2))) (relCoords (m ((c : Thread nD τ).loc main_arg1)) (m ((c : Thread nD τ).loc main_arg2)))) (constant S_ .f32 0x00000000#32) reducesTo_S320000x3_S320000_d1 h_S_)) := by
  show StableHlo.after hostOps0_1 (W1 m ρ c) (Proc.devRef .tc main_v34) = _
  rw [norm_v34, W1_v33]

/-! ## The edge region's operand arrays -/

theorem V3_v11 (c : Dev nD) : V3 m ρ c main_v11 = srcFeat (m ((c : Thread nD τ).loc main_arg0)) (m ((c : Thread nD τ).loc main_arg2)) := by
  show W3 m ρ c (Proc.devRef .tc main_v11) = _
  through hostOps0_2; through hostOps0_1; exact head_v11 (W0 m ρ c)

theorem V3_v18 (c : Dev nD) : V3 m ρ c main_v18 = dstFeat (m ((c : Thread nD τ).loc main_arg0)) (m ((c : Thread nD τ).loc main_arg2)) := by
  show W3 m ρ c (Proc.devRef .tc main_v18) = _
  through hostOps0_2; through hostOps0_1; exact head_v18 (W0 m ρ c)

theorem V3_v37 (c : Dev nD) : V3 m ρ c main_v37
    = concatenate S320000x4 1 [⟨S320000x3, relCoords (m ((c : Thread nD τ).loc main_arg1)) (m ((c : Thread nD τ).loc main_arg2))⟩, ⟨S320000x1, relDist (m ((c : Thread nD τ).loc main_arg1)) (m ((c : Thread nD τ).loc main_arg2))⟩]
        concatenates_S320000x3_S320000x1_S320000x4_d1 := by
  show StableHlo.after hostOps0_2 (W2 m ρ c) (Proc.devRef .tc main_v37) = _
  rw [pre_v37, W2_v33, W2_v34]
  rfl

theorem V3_v39 (c : Dev nD) : V3 m ρ c main_v39
    = truncf .bf16 (extractStridedSlice S256x256 ![0, 0] (m ((c : Thread nD τ).loc main_arg3)) slices_S513x256_S256x256_0_0) bitsLt_bf16_f32 := by
  show StableHlo.after hostOps0_2 (W2 m ρ c) (Proc.devRef .tc main_v39) = _
  rw [pre_v39, show W2 m ρ c (Proc.devRef .tc main_arg3) = (m ((c : Thread nD τ).loc main_arg3)) from by through hostOps0_1; through hostOps0; rfl]

theorem V3_v41 (c : Dev nD) : V3 m ρ c main_v41
    = truncf .bf16 (extractStridedSlice S256x256 ![256, 0] (m ((c : Thread nD τ).loc main_arg3)) slices_S513x256_S256x256_256_0) bitsLt_bf16_f32 := by
  show StableHlo.after hostOps0_2 (W2 m ρ c) (Proc.devRef .tc main_v41) = _
  rw [pre_v41, show W2 m ρ c (Proc.devRef .tc main_arg3) = (m ((c : Thread nD τ).loc main_arg3)) from by through hostOps0_1; through hostOps0; rfl]

theorem V3_v42 (c : Dev nD) : V3 m ρ c main_v42
    = extractStridedSlice S1x256 ![512, 0] (m ((c : Thread nD τ).loc main_arg3)) slices_S513x256_S1x256_512_0 := by
  show StableHlo.after hostOps0_2 (W2 m ρ c) (Proc.devRef .tc main_v42) = _
  rw [pre_v42, show W2 m ρ c (Proc.devRef .tc main_arg3) = (m ((c : Thread nD τ).loc main_arg3)) from by through hostOps0_1; through hostOps0; rfl]

theorem V3_v43 (c : Dev nD) : V3 m ρ c main_v43 = shapeCast S1x256 (m ((c : Thread nD τ).loc main_arg4)) shapeCasts_S256_S1x256 := by
  show StableHlo.after hostOps0_2 (W2 m ρ c) (Proc.devRef .tc main_v43) = _
  rw [pre_v43, show W2 m ρ c (Proc.devRef .tc main_arg4) = (m ((c : Thread nD τ).loc main_arg4)) from by through hostOps0_1; through hostOps0; rfl]

theorem V3_v44 (c : Dev nD) : V3 m ρ c main_v44 = truncf .bf16 (m ((c : Thread nD τ).loc main_arg5)) bitsLt_bf16_f32 := by
  show StableHlo.after hostOps0_2 (W2 m ρ c) (Proc.devRef .tc main_v44) = _
  rw [pre_v44, show W2 m ρ c (Proc.devRef .tc main_arg5) = (m ((c : Thread nD τ).loc main_arg5)) from by through hostOps0_1; through hostOps0; rfl]

theorem V3_v45 (c : Dev nD) : V3 m ρ c main_v45 = shapeCast S1x256 (m ((c : Thread nD τ).loc main_arg6)) shapeCasts_S256_S1x256 := by
  show StableHlo.after hostOps0_2 (W2 m ρ c) (Proc.devRef .tc main_v45) = _
  rw [pre_v45, show W2 m ρ c (Proc.devRef .tc main_arg6) = (m ((c : Thread nD τ).loc main_arg6)) from by through hostOps0_1; through hostOps0; rfl]

theorem V3_v46 (c : Dev nD) : V3 m ρ c main_v46 = shapeCast S1x256 (m ((c : Thread nD τ).loc main_arg7)) shapeCasts_S256_S1x256 := by
  show StableHlo.after hostOps0_2 (W2 m ρ c) (Proc.devRef .tc main_v46) = _
  rw [pre_v46, show W2 m ρ c (Proc.devRef .tc main_arg7) = (m ((c : Thread nD τ).loc main_arg7)) from by through hostOps0_1; through hostOps0; rfl]

theorem V3_v47 (c : Dev nD) : V3 m ρ c main_v47 = shapeCast S1x256 (m ((c : Thread nD τ).loc main_arg8)) shapeCasts_S256_S1x256 := by
  show StableHlo.after hostOps0_2 (W2 m ρ c) (Proc.devRef .tc main_v47) = _
  rw [pre_v47, show W2 m ρ c (Proc.devRef .tc main_arg8) = (m ((c : Thread nD τ).loc main_arg8)) from by through hostOps0_1; through hostOps0; rfl]

theorem V3_v48 (c : Dev nD) : V3 m ρ c main_v48 = truncf .bf16 (m ((c : Thread nD τ).loc main_arg15)) bitsLt_bf16_f32 := by
  show StableHlo.after hostOps0_2 (W2 m ρ c) (Proc.devRef .tc main_v48) = _
  rw [pre_v48, show W2 m ρ c (Proc.devRef .tc main_arg15) = (m ((c : Thread nD τ).loc main_arg15)) from by through hostOps0_1; through hostOps0; rfl]

theorem V3_v49 (c : Dev nD) : V3 m ρ c main_v49 = shapeCast S1x256 (m ((c : Thread nD τ).loc main_arg16)) shapeCasts_S256_S1x256 := by
  show StableHlo.after hostOps0_2 (W2 m ρ c) (Proc.devRef .tc main_v49) = _
  rw [pre_v49, show W2 m ρ c (Proc.devRef .tc main_arg16) = (m ((c : Thread nD τ).loc main_arg16)) from by through hostOps0_1; through hostOps0; rfl]

theorem V3_v50 (c : Dev nD) : V3 m ρ c main_v50 = truncf .bf16 (m ((c : Thread nD τ).loc main_arg17)) bitsLt_bf16_f32 := by
  show StableHlo.after hostOps0_2 (W2 m ρ c) (Proc.devRef .tc main_v50) = _
  rw [pre_v50, show W2 m ρ c (Proc.devRef .tc main_arg17) = (m ((c : Thread nD τ).loc main_arg17)) from by through hostOps0_1; through hostOps0; rfl]

/-! ## The node region's operand arrays -/

theorem W4_v1 (c : Dev nD) : W4 m ρ c (Proc.devRef .tc main_v1) = srcIdx (m ((c : Thread nD τ).loc main_arg2)) := by
  past_edge_region; through hostOps0_2; through hostOps0_1; exact head_v1 (W0 m ρ c)

theorem V5_v4 (c : Dev nD) : V5 m ρ c main_v4 = truncf .bf16 (m ((c : Thread nD τ).loc main_arg0)) bitsLt_bf16_f32 := by
  show W5 m ρ c (Proc.devRef .tc main_v4) = _
  through hostOps1; past_edge_region; through hostOps0_2; through hostOps0_1; exact head_v4 (W0 m ρ c)

theorem V5_v60 (c : Dev nD) : V5 m ρ c main_v60 = sumToNodes (m ((c : Thread nD τ).loc main_arg2)) ((dat0 (V3 m ρ) c).arrAt 14 cfg0.N) := by
  show StableHlo.after hostOps1 (W4 m ρ c) (Proc.devRef .tc main_v60) = _
  rw [mid_v60, W4_v1]
  exact congrArg _ (W4_arr m ρ c 14)

theorem V5_v62 (c : Dev nD) : V5 m ρ c main_v62
    = truncf .bf16 (extractStridedSlice S256x256 ![0, 0] (m ((c : Thread nD τ).loc main_arg9)) slices_S512x256_S256x256_0_0) bitsLt_bf16_f32 := by
  show StableHlo.after hostOps1 (W4 m ρ c) (Proc.devRef .tc main_v62) = _
  rw [mid_v62, show W4 m ρ c (Proc.devRef .tc main_arg9) = (m ((c : Thread nD τ).loc main_arg9)) from by past_edge_region; through hostOps0_2; through hostOps0_1; through hostOps0; rfl]

theorem V5_v64 (c : Dev nD) : V5 m ρ c main_v64
    = truncf .bf16 (extractStridedSlice S256x256 ![256, 0] (m ((c : Thread nD τ).loc main_arg9)) slices_S512x256_S256x256_256_0) bitsLt_bf16_f32 := by
  show StableHlo.after hostOps1 (W4 m ρ c) (Proc.devRef .tc main_v64) = _
  rw [mid_v64, show W4 m ρ c (Proc.devRef .tc main_arg9) = (m ((c : Thread nD τ).loc main_arg9)) from by past_edge_region; through hostOps0_2; through hostOps0_1; through hostOps0; rfl]

theorem V5_v65 (c : Dev nD) : V5 m ρ c main_v65 = shapeCast S1x256 (m ((c : Thread nD τ).loc main_arg10)) shapeCasts_S256_S1x256 := by
  show StableHlo.after hostOps1 (W4 m ρ c) (Proc.devRef .tc main_v65) = _
  rw [mid_v65, show W4 m ρ c (Proc.devRef .tc main_arg10) = (m ((c : Thread nD τ).loc main_arg10)) from by past_edge_region; through hostOps0_2; through hostOps0_1; through hostOps0; rfl]

theorem V5_v66 (c : Dev nD) : V5 m ρ c main_v66 = truncf .bf16 (m ((c : Thread nD τ).loc main_arg11)) bitsLt_bf16_f32 := by
  show StableHlo.after hostOps1 (W4 m ρ c) (Proc.devRef .tc main_v66) = _
  rw [mid_v66, show W4 m ρ c (Proc.devRef .tc main_arg11) = (m ((c : Thread nD τ).loc main_arg11)) from by past_edge_region; through hostOps0_2; through hostOps0_1; through hostOps0; rfl]

theorem V5_v67 (c : Dev nD) : V5 m ρ c main_v67 = shapeCast S1x256 (m ((c : Thread nD τ).loc main_arg12)) shapeCasts_S256_S1x256 := by
  show StableHlo.after hostOps1 (W4 m ρ c) (Proc.devRef .tc main_v67) = _
  rw [mid_v67, show W4 m ρ c (Proc.devRef .tc main_arg12) = (m ((c : Thread nD τ).loc main_arg12)) from by past_edge_region; through hostOps0_2; through hostOps0_1; through hostOps0; rfl]

theorem V5_v68 (c : Dev nD) : V5 m ρ c main_v68 = shapeCast S1x256 (m ((c : Thread nD τ).loc main_arg13)) shapeCasts_S256_S1x256 := by
  show StableHlo.after hostOps1 (W4 m ρ c) (Proc.devRef .tc main_v68) = _
  rw [mid_v68, show W4 m ρ c (Proc.devRef .tc main_arg13) = (m ((c : Thread nD τ).loc main_arg13)) from by past_edge_region; through hostOps0_2; through hostOps0_1; through hostOps0; rfl]

theorem V5_v69 (c : Dev nD) : V5 m ρ c main_v69 = shapeCast S1x256 (m ((c : Thread nD τ).loc main_arg14)) shapeCasts_S256_S1x256 := by
  show StableHlo.after hostOps1 (W4 m ρ c) (Proc.devRef .tc main_v69) = _
  rw [mid_v69, show W4 m ρ c (Proc.devRef .tc main_arg14) = (m ((c : Thread nD τ).loc main_arg14)) from by past_edge_region; through hostOps0_2; through hostOps0_1; through hostOps0; rfl]

/-! ## The two results at the last boundary -/

theorem W7_v73 (c : Dev nD) : W7 m ρ c (Proc.devRef .tc main_v73)
    = residual (m ((c : Thread nD τ).loc main_arg0)) (m ((c : Thread nD τ).loc main_arg19)) ((dat1 (V5 m ρ) c).arrAt 9 cfg1.N) := by
  show StableHlo.after hostOps2 (W6 m ρ c) (Proc.devRef .tc main_v73) = _
  rw [tail_v73, show W6 m ρ c (Proc.devRef .tc main_arg0) = (m ((c : Thread nD τ).loc main_arg0)) from by past_node_region; through hostOps1; past_edge_region; through hostOps0_2; through hostOps0_1; through hostOps0; rfl,
    show W6 m ρ c (Proc.devRef .tc main_arg19) = (m ((c : Thread nD τ).loc main_arg19)) from by past_node_region; through hostOps1; past_edge_region; through hostOps0_2; through hostOps0_1; through hostOps0; rfl]
  exact congrArg _ (congrArg _ (W6_arr m ρ c 9))

theorem W7_v57 (c : Dev nD) : W7 m ρ c (Proc.devRef .tc main_v57)
    = residual3 (m ((c : Thread nD τ).loc main_arg1)) (m ((c : Thread nD τ).loc main_arg18)) (sumToNodes3 (m ((c : Thread nD τ).loc main_arg2)) ((dat0 (V3 m ρ) c).arrAt 15 cfg0.N)) := by
  through hostOps2; past_node_region
  show StableHlo.after hostOps1 (W4 m ρ c) (Proc.devRef .tc main_v57) = _
  rw [mid_v57, W4_v1, show W4 m ρ c (Proc.devRef .tc main_arg1) = (m ((c : Thread nD τ).loc main_arg1)) from by past_edge_region; through hostOps0_2; through hostOps0_1; through hostOps0; rfl,
    show W4 m ρ c (Proc.devRef .tc main_arg18) = (m ((c : Thread nD τ).loc main_arg18)) from by past_edge_region; through hostOps0_2; through hostOps0_1; through hostOps0; rfl]
  exact congrArg _ (congrArg _ (congrArg _ (W4_arr m ρ c 15)))

end Cert.KernelIdeal.Fold

end
-- ==== Proof.Spec.lean ====
/-
  The layer's arithmetic, one row at a time, on the extended reals.

  Both programs compute, for every edge e (320000 of them) and every node n (20000), functions of ONE row of each
  operand: a row of gathered node features, a row of relative coordinates, a distance, and the weight matrices.
  This module states those row functions once, over plain `Fin`-indexed families of extended reals, so that the
  kernel's blocks and the reference's whole arrays can both be read against them.

  * `leaky x` is x when x > 0 and (the f32 nearest 1/10) · x otherwise.
  * `rowMean v` is the sum of a row of 256 entries divided by 256; `rowNorm v g b` is the row centred at its mean,
    scaled by the reciprocal square root of (its mean squared deviation + 1e-5), times a gain, plus an offset.
  * `dense v W b` is the affine map j ↦ Σ_k v k · W k j + b j.
  * the edge stage: a first affine layer whose input is the concatenation (features of the source node, features of
    the target node, distance) — written here in its SPLIT form, three partial sums over the three pieces —,
    a second affine layer, each followed by `leaky`, then `rowNorm`;
    the coordinate gate: an affine layer, `leaky`, and a product with a column of 256 weights;
    the coordinate update of an edge: gate · (relative coordinate / distance).
  * the node stage: an affine layer over the concatenation (node features, aggregated edge features), again split in
    two partial sums, `leaky`, an affine layer, `rowNorm`.

  The one law that relates the two programs is that a sum over 513 (or 512) indices splits into the sums over its
  pieces (`sum_three_pieces`, `sum_two_pieces`): addition of extended reals is commutative and associative, so
  the law needs no finiteness.
-/
import Idealize.ShloMosaic.PureOps.Ideal
import Idealize.ShloMosaic.PureOps.Ideal.Laws
import Idealize.ShloMosaic.Lib.ValueIdx

noncomputable section

namespace Cert.Layer

open Idealize.ShloMosaic

/-- The f32 word of zero. -/
abbrev zero : EReal := Ideal.ofBits .f32 0x00000000#32
/-- The f32 nearest to one tenth (the slope of `leaky` on the negatives). -/
abbrev tenth : EReal := Ideal.ofBits .f32 0x3DCCCCCD#32
/-- The f32 word of 256, the length of a row. -/
abbrev width : EReal := Ideal.ofBits .f32 0x43800000#32
/-- The f32 nearest to 1e-5, added to the variance. -/
abbrev eps : EReal := Ideal.ofBits .f32 0x3727C5AC#32

/-- x when x > 0, a tenth of x otherwise. -/
def leaky (x : EReal) : EReal := Scalar.select (Ideal.cmp .ogt x zero) x (tenth * x)

/-- The mean of a row of 256 entries. -/
def rowMean (v : Fin 256 → EReal) : EReal := Ideal.div (∑ k, v k) width

/-- Layer normalisation of a row: centred, scaled by the reciprocal root of the variance plus `eps`, gain and offset. -/
def rowNorm (v g b : Fin 256 → EReal) (j : Fin 256) : EReal :=
  (v j - rowMean v) * Ideal.rsqrt (Ideal.div (∑ k, (v k - rowMean v) * (v k - rowMean v)) width + eps) * g j + b j

/-- The affine map of a row of 256 entries through a 256 × 256 matrix. -/
def dense (v : Fin 256 → EReal) (W : Fin 256 → Fin 256 → EReal) (b : Fin 256 → EReal) (j : Fin 256) : EReal :=
  (∑ k, v k * W k j) + b j

/-- The first edge layer in split form: source-node features through the first 256 rows of the weight, target-node
    features through the next 256, the distance times the last row, the offset; then `leaky`. -/
def edgeHidden (hr hc : Fin 256 → EReal) (d : EReal) (Wa Wb : Fin 256 → Fin 256 → EReal) (wc b1 : Fin 256 → EReal)
    (j : Fin 256) : EReal :=
  leaky ((((∑ k, hr k * Wa k j) + (∑ k, hc k * Wb k j)) + d * wc j) + b1 j)

/-- The edge features of one edge. -/
def edgeAttr (hr hc : Fin 256 → EReal) (d : EReal) (Wa Wb : Fin 256 → Fin 256 → EReal) (wc b1 : Fin 256 → EReal)
    (W2 : Fin 256 → Fin 256 → EReal) (b2 g beta : Fin 256 → EReal) : Fin 256 → EReal :=
  rowNorm (fun j => leaky (dense (edgeHidden hr hc d Wa Wb wc b1) W2 b2 j)) g beta

/-- The scalar gate of an edge's coordinate update, from its edge features. -/
def coordGate (ea : Fin 256 → EReal) (C1 : Fin 256 → Fin 256 → EReal) (c1 c2 : Fin 256 → EReal) : EReal :=
  ∑ k, leaky (dense ea C1 c1 k) * c2 k

/-- The coordinate update of an edge: the gate times the unit-ish direction (relative coordinate over distance). -/
def coordMul (gate : EReal) (rc : Fin 3 → EReal) (d : EReal) (a : Fin 3) : EReal :=
  gate * Ideal.div (rc a) d

/-- The first node layer in split form: node features through the first 256 rows of the weight, aggregated edge
    features through the last 256, the offset; then `leaky`. -/
def nodeHidden (h ag : Fin 256 → EReal) (Wh Wa : Fin 256 → Fin 256 → EReal) (b1 : Fin 256 → EReal) (j : Fin 256) : EReal :=
  leaky (((∑ k, h k * Wh k j) + (∑ k, ag k * Wa k j)) + b1 j)

/-- The feature update of one node (before the residual scaling). -/
def nodeOut (h ag : Fin 256 → EReal) (Wh Wa : Fin 256 → Fin 256 → EReal) (b1 : Fin 256 → EReal)
    (W2 : Fin 256 → Fin 256 → EReal) (b2 g beta : Fin 256 → EReal) : Fin 256 → EReal :=
  rowNorm (dense (nodeHidden h ag Wh Wa b1) W2 b2) g beta

/-- A sum over 512 indices is the sum over the first 256 plus the sum over the last 256. -/
theorem sum_two_pieces (f : Fin 512 → EReal) :
    ∑ k, f k = (∑ k : Fin 256, f ⟨k.val, by omega⟩) + (∑ k : Fin 256, f ⟨256 + k.val, by omega⟩) := by
  exact Fin.sum_univ_add (a := 256) (b := 256) (f : Fin (256 + 256) → EReal)

/-- A sum over 513 indices is the sum over the first 256, plus the sum over the next 256, plus the last term. -/
theorem sum_three_pieces (f : Fin 513 → EReal) :
    ∑ k, f k = ((∑ k : Fin 256, f ⟨k.val, by omega⟩) + (∑ k : Fin 256, f ⟨256 + k.val, by omega⟩)) + f ⟨512, by omega⟩ := by
  have h := Fin.sum_univ_castSucc (M := EReal) (n := 512) f
  rw [h, sum_two_pieces (fun k => f k.castSucc)]
  rfl

end Cert.Layer

end
-- ==== Proof.EdgeBody.lean ====
/-
  The edge stage read at an index.

  For an edge p of a block of 4000 edges the stage computes, from the row p of the two gathered feature blocks, the
  row p of the relative-coordinate block (three coordinates and a distance) and the weights:

  * the first affine layer in split form, Σ_k hr k · Wa k j + Σ_k hc k · Wb k j + d · wc j + b1 j, then `leaky`;
  * the second affine layer Σ_k hidden k · W2 k j + b2 j, then `leaky`;
  * the row norm of that row: centred at its mean (the lane sum over 256), scaled by the reciprocal square root of
    its mean squared deviation plus eps, times a gain, plus an offset — the edge features;
  * the gate Σ_k leaky(Σ_q features q · C1 q k + c1 k) · c2 k, and the coordinate update gate · (coordinate / distance).

  Each intermediate block is read at (p, j) as the corresponding expression of `Cert.Layer`: a product with a matrix
  into the zero accumulator is the plain sum over the contraction index, a lane reduction is the plain sum over the
  lanes, a column broadcast along the lanes reads the column, a row broadcast over the rows reads the row, and the
  format changes are the identity on the extended reals. The two results: the first output block at (p, q) is
  `edgeAttr … q`, the second at (p, a) is `coordMul (coordGate (edgeAttr …) …) … a`.
-/
import proofs.«140590_j6975026888916_1_alg».proof.Proof.Gen.KernelIdeal.Frame
import proofs.«140590_j6975026888916_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section
namespace Cert.KernelIdeal.EdgeBody
open Cert.KernelIdeal Cert.KernelIdeal.Gen Idealize.ShloMosaic Idealize.ShloMosaic.ValueIdx

/-! ## The layout operations and the two products, read at an index given by its coordinates -/

/-- The left operand's index of the square product: its row is the output's row. -/
theorem sq_lhs0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
/-- ... and its column is the contraction position. -/
theorem sq_lhs1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
/-- The right operand's index of the square product: its row is the contraction position. -/
theorem sq_rhs0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
/-- ... and its column is the output's column. -/
theorem sq_rhs1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- A [4000,256] block times a [256,256] matrix into the zero accumulator, at (p, j): Σ_k A(p,k) · B(k,j). -/
theorem matmul_sq_apply (A : FVec Ideal S4000x256 .bf16) (B : FVec Ideal S256x256 .bf16) (p : Fin 4000) (j : Fin 256) :
    matmul dot_S4000x256_S256x256_S4000x256_1_0_0_1_n_n none A B (constant (F := Ideal) S4000x256 .f32 0x00000000#32) (ix2 p j)
      = ∑ k : Fin 256, A (ix2 p k) * B (ix2 k j) := by
  refine (Ideal.matmul_constant_zero_apply dot_S4000x256_S256x256_S4000x256_1_0_0_1_n_n none A B (ix2 p j)).trans ?_
  rw [← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p j) ((contrEquiv1 dot_S4000x256_S256x256_S4000x256_1_0_0_1_n_n 256 rfl rfl).symm k) = ix2 p k := funext fun a => Fin.ext (by
    match a with
    | ⟨0, _⟩ => exact sq_lhs0 _ _
    | ⟨1, _⟩ => exact (sq_lhs1 _ _).trans hk)
  have er : dot_S4000x256_S256x256_S4000x256_1_0_0_1_n_n.rhsIdx (ix2 p j) ((contrEquiv1 dot_S4000x256_S256x256_S4000x256_1_0_0_1_n_n 256 rfl rfl).symm k) = ix2 k j := funext fun a => Fin.ext (by
    match a with
    | ⟨0, _⟩ => exact (sq_rhs0 _ _).trans hk
    | ⟨1, _⟩ => exact sq_rhs1 _ _)
  rw [el, er]

/-- The left operand's index of the product with a column: its row is the output's row. -/
theorem col_lhs0 (i : S4000x1.Idx) (q : dot_S4000x256_S256x1_S4000x1_1_0_0_1_n_n.contr.Idx) :
    (dot_S4000x256_S256x1_S4000x1_1_0_0_1_n_n.lhsIdx i q 0).val = (i 0).val := by
  unfold DotDims.lhsIdx
  rw [dif_neg (show ¬(0 : Fin S4000x256.rank) ∈ dot_S4000x256_S256x1_S4000x1_1_0_0_1_n_n.lhsBatch by decide), dif_pos (show (0 : Fin S4000x256.rank) ∈ dot_S4000x256_S256x1_S4000x1_1_0_0_1_n_n.lhsNonContracting by decide)]
  rfl
theorem col_lhs1 (i : S4000x1.Idx) (q : dot_S4000x256_S256x1_S4000x1_1_0_0_1_n_n.contr.Idx) :
    (dot_S4000x256_S256x1_S4000x1_1_0_0_1_n_n.lhsIdx i q 1).val = (q ⟨0, by decide⟩).val :=
  dot_S4000x256_S256x1_S4000x1_1_0_0_1_n_n.lhsIdx_val_of_single rfl i q
theorem col_rhs0 (i : S4000x1.Idx) (q : dot_S4000x256_S256x1_S4000x1_1_0_0_1_n_n.contr.Idx) :
    (dot_S4000x256_S256x1_S4000x1_1_0_0_1_n_n.rhsIdx i q 0).val = (q ⟨0, by decide⟩).val :=
  dot_S4000x256_S256x1_S4000x1_1_0_0_1_n_n.rhsIdx_val_of_single rfl i q
theorem col_rhs1 (i : S4000x1.Idx) (q : dot_S4000x256_S256x1_S4000x1_1_0_0_1_n_n.contr.Idx) :
    (dot_S4000x256_S256x1_S4000x1_1_0_0_1_n_n.rhsIdx i q 1).val = (i 1).val := by
  unfold DotDims.rhsIdx
  rw [dif_neg (show ¬(1 : Fin S256x1.rank) ∈ dot_S4000x256_S256x1_S4000x1_1_0_0_1_n_n.rhsBatch by decide), dif_pos (show (1 : Fin S256x1.rank) ∈ dot_S4000x256_S256x1_S4000x1_1_0_0_1_n_n.rhsNonContracting by decide)]
  rfl

/-- A [4000,256] block times a [256,1] column into the zero accumulator, at (p, 0): Σ_k A(p,k) · c(k,0). -/
theorem matmul_col_apply (A : FVec Ideal S4000x256 .bf16) (B : FVec Ideal S256x1 .bf16) (p : Fin 4000) (u : Fin 1) :
    matmul dot_S4000x256_S256x1_S4000x1_1_0_0_1_n_n none A B (constant (F := Ideal) S4000x1 .f32 0x00000000#32) (ix2 p u)
      = ∑ k : Fin 256, A (ix2 p k) * B (ix2 k (0 : Fin 1)) := by
  refine (Ideal.matmul_constant_zero_apply dot_S4000x256_S256x1_S4000x1_1_0_0_1_n_n none A B (ix2 p u)).trans ?_
  rw [← Equiv.sum_comp (contrEquiv1 dot_S4000x256_S256x1_S4000x1_1_0_0_1_n_n 256 rfl rfl).symm]
  refine Finset.sum_congr rfl fun k _ => ?_
  have hk := contrEquiv1_symm_val dot_S4000x256_S256x1_S4000x1_1_0_0_1_n_n 256 rfl rfl k
  have hu : u = 0 := Subsingleton.elim _ _
  have el : dot_S4000x256_S256x1_S4000x1_1_0_0_1_n_n.lhsIdx (ix2 p u) ((contrEquiv1 dot_S4000x256_S256x1_S4000x1_1_0_0_1_n_n 256 rfl rfl).symm k) = ix2 p k := funext fun a => Fin.ext (by
    match a with
    | ⟨0, _⟩ => exact col_lhs0 _ _
    | ⟨1, _⟩ => exact (col_lhs1 _ _).trans hk)
  have er : dot_S4000x256_S256x1_S4000x1_1_0_0_1_n_n.rhsIdx (ix2 p u) ((contrEquiv1 dot_S4000x256_S256x1_S4000x1_1_0_0_1_n_n 256 rfl rfl).symm k) = ix2 k (0 : Fin 1) := funext fun a => Fin.ext (by
    match a with
    | ⟨0, _⟩ => exact (col_rhs0 _ _).trans hk
    | ⟨1, _⟩ => exact (col_rhs1 _ _).trans (by rw [hu]))
  rw [el, er]

/-- The sum along the lanes of a [4000,256] block, at row p: Σ_k v(p,k). -/
theorem laneSum_apply (v : FVec Ideal S4000x256 .f32) (hφ : FKind.Formats .f32)
    (hacc : (0x00000000#32 : BitVec 32) = 0x00000000#32) (p : Fin 4000) :
    multiReduction .add [1] S4000 v 0x00000000#32 reduces_S4000x256_S4000 hφ hacc (ix1 p) = ∑ k : Fin 256, v (ix2 p k) := by
  refine (Ideal.multiReduction_add_single v 0x00000000#32 reduces_S4000x256_S4000 hφ hacc (ix1 p)).trans ?_
  refine Finset.sum_congr rfl fun k _ => congrArg v (funext fun a => Fin.ext ?_)
  match a with
  | ⟨0, _⟩ => rfl
  | ⟨1, _⟩ => rfl

/-- A [4000] vector viewed as a [4000,1] column reads, at (p, 0), the vector at p. -/
theorem colCast_apply {α : Type} (v : S4000.Idx → α) (p : Fin 4000) (u : Fin 1) :
    shapeCast S4000x1 v shapeCasts_S4000_S4000x1 (ix2 p u) = v (ix1 p) :=
  shapeCast_apply v shapeCasts_S4000_S4000x1 _ _ (by
    have hu : u.val = 0 := by omega
    rw [Shape.rowMajor_val_two, Shape.rowMajor_val_one]
    show p.val = p.val * 1 + u.val
    rw [hu, Nat.mul_one, Nat.add_zero])

/-- A [4000,1] column broadcast along 256 lanes reads, at (p, q), the column at (p, 0). -/
theorem colBcast256_apply {α : Type} (v : S4000x1.Idx → α) (p : Fin 4000) (q : Fin 256) :
    broadcastTo S4000x256 v broadcasts_S4000x1_S4000x256 (ix2 p q) = v (ix2 p (0 : Fin 1)) := by
  refine broadcastTo_apply v broadcasts_S4000x1_S4000x256 (ix2 p q) (ix2 p (0 : Fin 1)) fun ax => ?_
  match ax with
  | ⟨0, _⟩ =>
    show p.val = if (4000 : Nat) = 1 then 0 else p.val
    rw [if_neg (by decide)]
  | ⟨1, _⟩ => rfl

/-- A [4000,1] column broadcast along 3 lanes reads, at (p, a), the column at (p, 0). -/
theorem colBcast3_apply {α : Type} (v : S4000x1.Idx → α) (p : Fin 4000) (a : Fin 3) :
    broadcastTo S4000x3 v broadcasts_S4000x1_S4000x3 (ix2 p a) = v (ix2 p (0 : Fin 1)) := by
  refine broadcastTo_apply v broadcasts_S4000x1_S4000x3 (ix2 p a) (ix2 p (0 : Fin 1)) fun ax => ?_
  match ax with
  | ⟨0, _⟩ =>
    show p.val = if (4000 : Nat) = 1 then 0 else p.val
    rw [if_neg (by decide)]
  | ⟨1, _⟩ => rfl

/-- A [1,256] row broadcast over 4000 rows reads, at (p, q), the row at (0, q). -/
theorem rowBcast_apply {α : Type} (v : S1x256.Idx → α) (p : Fin 4000) (q : Fin 256) :
    broadcastTo S4000x256 v broadcasts_S1x256_S4000x256 (ix2 p q) = v (ix2 (0 : Fin 1) q) :=
  broadcastTo_1b_ab_apply v broadcasts_S1x256_S4000x256 p q

/-- The first three columns of a [4000,4] block, at (p, a): the block at (p, a). -/
theorem first3_apply {α : Type} (X : S4000x4.Idx → α) (p : Fin 4000) (a : Fin 3) :
    extractStridedSlice S4000x3 ![0, 0] X slices_S4000x4_o0_0_S4000x3 (ix2 p a) = X (ix2 p (⟨a.val, by omega⟩ : Fin 4)) :=
  slice2_axis1_apply 0 X slices_S4000x4_o0_0_S4000x3 p a ⟨a.val, by omega⟩ (Nat.zero_add _).symm

/-- The last column of a [4000,4] block, at (p, 0): the block at (p, 3). -/
theorem last1_apply {α : Type} (X : S4000x4.Idx → α) (p : Fin 4000) (u : Fin 1) :
    extractStridedSlice S4000x1 ![0, 3] X slices_S4000x4_o0_3_S4000x1 (ix2 p u) = X (ix2 p (3 : Fin 4)) :=
  slice2_axis1_apply 3 X slices_S4000x4_o0_3_S4000x1 p u (3 : Fin 4) (by
    have hu : u.val = 0 := by omega
    rw [hu]; rfl)

/-! ## The pieces of the edge stage, each read at an index -/

/-- The distance column is the last column of the relative-coordinate block. -/
theorem dist_apply (v4 : FVec Ideal S4000x4 .f32) (p : Fin 4000) (u : Fin 1) :
    k0_pay4 (F := Ideal) v4 (ix2 p u) = v4 (ix2 p (3 : Fin 4)) := by
  show extractStridedSlice S4000x1 ![0, 3] (shapeCast S4000x4 v4 shapeCasts_S4000x4_S4000x4) slices_S4000x4_o0_3_S4000x1 (ix2 p u) = _
  rw [shapeCast_self]
  exact last1_apply v4 p u

/-- The three relative coordinates are the first three columns of the block. -/
theorem relc_apply (v4 : FVec Ideal S4000x4 .f32) (p : Fin 4000) (a : Fin 3) :
    k0_pay3 (F := Ideal) v4 (ix2 p a) = v4 (ix2 p (⟨a.val, by omega⟩ : Fin 4)) := by
  show extractStridedSlice S4000x3 ![0, 0] (shapeCast S4000x4 v4 shapeCasts_S4000x4_S4000x4) slices_S4000x4_o0_0_S4000x3 (ix2 p a) = _
  rw [shapeCast_self]
  exact first3_apply v4 p a

/-- Comparing with zero and choosing between x and a tenth of x is `leaky`, entry by entry. -/
theorem leaky_apply {s : Shape} (w : FVec Ideal s .f32) (i : s.Idx) :
    select (cmpf .ogt w (broadcast s (Scalar.ofBits .f32 0x00000000#32))) w
        (mulf (broadcast s (Scalar.ofBits .f32 0x3DCCCCCD#32)) w) i = Cert.Layer.leaky (w i) := rfl

/-- The first layer before `leaky`, at (p, j): the two partial sums over the node features, the distance times the
    last weight row, the offset. -/
theorem pre1_apply (v0 v2 : FVec Ideal S4000x256 .bf16) (v4 : FVec Ideal S4000x4 .f32) (v8 v11 : FVec Ideal S256x256 .bf16)
    (v15 v21 : FVec Ideal S1x256 .f32) (p : Fin 4000) (j : Fin 256) :
    addf (addf (addf (matmul dot_S4000x256_S256x256_S4000x256_1_0_0_1_n_n none (shapeCast S4000x256 v0 shapeCasts_S4000x256_S4000x256) (shapeCast S256x256 v8 shapeCasts_S256x256_S256x256) (constant (F := Ideal) S4000x256 .f32 0x00000000#32))
                     (matmul dot_S4000x256_S256x256_S4000x256_1_0_0_1_n_n none (shapeCast S4000x256 v2 shapeCasts_S4000x256_S4000x256) (shapeCast S256x256 v11 shapeCasts_S256x256_S256x256) (constant (F := Ideal) S4000x256 .f32 0x00000000#32)))
               (mulf (broadcastTo S4000x256 (k0_pay4 (F := Ideal) v4) broadcasts_S4000x1_S4000x256)
                     (broadcastTo S4000x256 (shapeCast S1x256 v15 shapeCasts_S1x256_S1x256) broadcasts_S1x256_S4000x256)))
         (broadcastTo S4000x256 (shapeCast S1x256 v21 shapeCasts_S1x256_S1x256) broadcasts_S1x256_S4000x256) (ix2 p j)
      = (((∑ k : Fin 256, v0 (ix2 p k) * v8 (ix2 k j)) + (∑ k : Fin 256, v2 (ix2 p k) * v11 (ix2 k j)))
          + v4 (ix2 p (3 : Fin 4)) * v15 (ix2 (0 : Fin 1) j)) + v21 (ix2 (0 : Fin 1) j) := by
  rw [shapeCast_self v0, shapeCast_self v2, shapeCast_self v8, shapeCast_self v11, shapeCast_self v15, shapeCast_self v21]
  exact congrArg₂ (· + ·)
    (congrArg₂ (· + ·)
      (congrArg₂ (· + ·) (matmul_sq_apply v0 v8 p j) (matmul_sq_apply v2 v11 p j))
      (congrArg₂ (· * ·) ((colBcast256_apply _ p j).trans (dist_apply v4 p 0)) (rowBcast_apply v15 p j)))
    (rowBcast_apply v21 p j)

/-- The second product's value at (p, j): the hidden row of the edge against column j of the second weight. -/
theorem hidden_apply (v0 v2 : FVec Ideal S4000x256 .bf16) (v4 : FVec Ideal S4000x4 .f32) (v8 v11 : FVec Ideal S256x256 .bf16)
    (v15 v21 : FVec Ideal S1x256 .f32) (v31 : FVec Ideal S256x256 .bf16) (p : Fin 4000) (j : Fin 256) :
    k0_pay5 (F := Ideal) v0 v2 v4 v8 v11 v15 v21 v31 (ix2 p j)
      = ∑ k : Fin 256, Cert.Layer.edgeHidden (fun k => v0 (ix2 p k)) (fun k => v2 (ix2 p k)) (v4 (ix2 p (3 : Fin 4)))
          (fun k j => v8 (ix2 k j)) (fun k j => v11 (ix2 k j)) (fun j => v15 (ix2 (0 : Fin 1) j)) (fun j => v21 (ix2 (0 : Fin 1) j)) k
            * v31 (ix2 k j) := by
  unfold k0_pay5
  refine (matmul_sq_apply _ _ p j).trans ?_
  refine Finset.sum_congr rfl fun k _ => ?_
  refine congrArg₂ (· * ·) ?_ (congrFun (shapeCast_self v31 shapeCasts_S256x256_S256x256) (ix2 k j))
  refine (leaky_apply _ (ix2 p k)).trans ?_
  exact congrArg Cert.Layer.leaky (pre1_apply v0 v2 v4 v8 v11 v15 v21 p k)

/-! ## The normalisation of a row -/

/-- The column of row means of a block: the lane sums, viewed as a column, divided by 256. -/
def meanCol (w : FVec Ideal S4000x256 .f32) : FVec Ideal S4000x1 .f32 :=
  divf (shapeCast S4000x1 (multiReduction .add [1] S4000 w 0x00000000#32 reduces_S4000x256_S4000 (.inl rfl) rfl) shapeCasts_S4000_S4000x1)
    (broadcast S4000x1 (Scalar.ofBits .f32 0x43800000#32))

theorem meanCol_apply (w : FVec Ideal S4000x256 .f32) (p : Fin 4000) (u : Fin 1) :
    meanCol w (ix2 p u) = Cert.Layer.rowMean (fun k => w (ix2 p k)) :=
  congrArg (fun s => Ideal.div s Cert.Layer.width) ((colCast_apply _ p u).trans (laneSum_apply w _ _ p))

/-- The block with each row centred at its mean. -/
def centred (w : FVec Ideal S4000x256 .f32) : FVec Ideal S4000x256 .f32 :=
  subf w (broadcastTo S4000x256 (meanCol w) broadcasts_S4000x1_S4000x256)

theorem centred_apply (w : FVec Ideal S4000x256 .f32) (p : Fin 4000) (q : Fin 256) :
    centred w (ix2 p q) = w (ix2 p q) - Cert.Layer.rowMean (fun k => w (ix2 p k)) :=
  congrArg (fun m => w (ix2 p q) - m) ((colBcast256_apply _ p q).trans (meanCol_apply w p 0))

/-- The column of reciprocal square roots of (mean squared deviation of the row + eps). -/
def scaleCol (w : FVec Ideal S4000x256 .f32) : FVec Ideal S4000x1 .f32 :=
  rsqrt (addf (divf (shapeCast S4000x1 (multiReduction .add [1] S4000 (mulf (centred w) (centred w)) 0x00000000#32 reduces_S4000x256_S4000 (.inl rfl) rfl) shapeCasts_S4000_S4000x1)
                (broadcast S4000x1 (Scalar.ofBits .f32 0x43800000#32)))
              (broadcast S4000x1 (Scalar.ofBits .f32 0x3727C5AC#32)))

theorem scaleCol_apply (w : FVec Ideal S4000x256 .f32) (p : Fin 4000) (u : Fin 1) :
    scaleCol w (ix2 p u) = Ideal.rsqrt (Ideal.div (∑ k : Fin 256, (w (ix2 p k) - Cert.Layer.rowMean (fun k => w (ix2 p k)))
        * (w (ix2 p k) - Cert.Layer.rowMean (fun k => w (ix2 p k)))) Cert.Layer.width + Cert.Layer.eps) := by
  refine congrArg (fun s => Ideal.rsqrt (Ideal.div s Cert.Layer.width + Cert.Layer.eps)) ?_
  refine ((colCast_apply _ p u).trans (laneSum_apply _ _ _ p)).trans ?_
  exact Finset.sum_congr rfl fun k _ => congrArg₂ (· * ·) (centred_apply w p k) (centred_apply w p k)

/-- The normalised block: centred rows times their scale, times the gain row, plus the offset row. -/
def normBlock (w : FVec Ideal S4000x256 .f32) (g b : FVec Ideal S1x256 .f32) : FVec Ideal S4000x256 .f32 :=
  addf (mulf (mulf (centred w) (broadcastTo S4000x256 (scaleCol w) broadcasts_S4000x1_S4000x256))
             (broadcastTo S4000x256 (shapeCast S1x256 g shapeCasts_S1x256_S1x256) broadcasts_S1x256_S4000x256))
       (broadcastTo S4000x256 (shapeCast S1x256 b shapeCasts_S1x256_S1x256) broadcasts_S1x256_S4000x256)

theorem normBlock_apply (w : FVec Ideal S4000x256 .f32) (g b : FVec Ideal S1x256 .f32) (p : Fin 4000) (q : Fin 256) :
    normBlock w g b (ix2 p q)
      = Cert.Layer.rowNorm (fun k => w (ix2 p k)) (fun j => g (ix2 (0 : Fin 1) j)) (fun j => b (ix2 (0 : Fin 1) j)) q := by
  unfold normBlock
  rw [shapeCast_self g, shapeCast_self b]
  exact congrArg₂ (· + ·)
    (congrArg₂ (· * ·)
      (congrArg₂ (· * ·) (centred_apply w p q) ((colBcast256_apply _ p q).trans (scaleCol_apply w p 0)))
      (rowBcast_apply g p q))
    (rowBcast_apply b p q)

/-- A block plus an offset row, through `leaky`. -/
def actBlock (v : FVec Ideal S4000x256 .f32) (c : FVec Ideal S1x256 .f32) : FVec Ideal S4000x256 .f32 :=
  select (cmpf .ogt (addf v (broadcastTo S4000x256 c broadcasts_S1x256_S4000x256)) (broadcast S4000x256 (Scalar.ofBits .f32 0x00000000#32)))
    (addf v (broadcastTo S4000x256 c broadcasts_S1x256_S4000x256))
    (mulf (broadcast S4000x256 (Scalar.ofBits .f32 0x3DCCCCCD#32)) (addf v (broadcastTo S4000x256 c broadcasts_S1x256_S4000x256)))

theorem actBlock_apply (v : FVec Ideal S4000x256 .f32) (c : FVec Ideal S1x256 .f32) (p : Fin 4000) (k : Fin 256) :
    actBlock v c (ix2 p k) = Cert.Layer.leaky (v (ix2 p k) + c (ix2 (0 : Fin 1) k)) :=
  (leaky_apply _ (ix2 p k)).trans (congrArg Cert.Layer.leaky (congrArg (v (ix2 p k) + ·) (rowBcast_apply c p k)))

/-- The edge features' block is the normalised block of the activated second layer. -/
theorem pay7_eq (v33 : FVec Ideal S4000x256 .f32) (v35 v43 v45 : FVec Ideal S1x256 .f32) :
    k0_pay7 (F := Ideal) v33 v35 v43 v45 = normBlock (actBlock v33 v35) v43 v45 := rfl

/-- The edge features at (p, q): the row norm of the activated second layer's row. -/
theorem norm_apply (v33 : FVec Ideal S4000x256 .f32) (v35 v43 v45 : FVec Ideal S1x256 .f32) (p : Fin 4000) (q : Fin 256) :
    k0_pay7 (F := Ideal) v33 v35 v43 v45 (ix2 p q)
      = Cert.Layer.rowNorm (fun j => Cert.Layer.leaky (v33 (ix2 p j) + v35 (ix2 (0 : Fin 1) j)))
          (fun j => v43 (ix2 (0 : Fin 1) j)) (fun j => v45 (ix2 (0 : Fin 1) j)) q := by
  refine (congrFun (pay7_eq v33 v35 v43 v45) (ix2 p q)).trans ?_
  refine (normBlock_apply _ v43 v45 p q).trans ?_
  exact congrArg (fun v => Cert.Layer.rowNorm v (fun j => v43 (ix2 (0 : Fin 1) j)) (fun j => v45 (ix2 (0 : Fin 1) j)) q)
    (funext fun k => actBlock_apply v33 v35 p k)

/-- A row viewed at its own shape is itself. -/
theorem pay6_eq (v34 : FVec Ideal S1x256 .f32) : k0_pay6 (F := Ideal) v34 = v34 :=
  shapeCast_self v34 shapeCasts_S1x256_S1x256

/-! ## The edge features, the gate and the coordinate update -/

/-- The edge features of edge p at entry q, from the blocks: the row norm of the activated second layer. -/
theorem attr_apply (v0 v2 : FVec Ideal S4000x256 .bf16) (v4 : FVec Ideal S4000x4 .f32) (v8 v11 : FVec Ideal S256x256 .bf16)
    (v15 v21 : FVec Ideal S1x256 .f32) (v31 : FVec Ideal S256x256 .bf16) (v34 v43 v45 : FVec Ideal S1x256 .f32) (p : Fin 4000) (q : Fin 256) :
    k0_pay7 (F := Ideal) (k0_pay5 (F := Ideal) v0 v2 v4 v8 v11 v15 v21 v31) v34 v43 v45 (ix2 p q)
      = Cert.Layer.edgeAttr (fun k => v0 (ix2 p k)) (fun k => v2 (ix2 p k)) (v4 (ix2 p (3 : Fin 4)))
        (fun k j => v8 (ix2 k j)) (fun k j => v11 (ix2 k j)) (fun j => v15 (ix2 (0 : Fin 1) j)) (fun j => v21 (ix2 (0 : Fin 1) j))
        (fun k j => v31 (ix2 k j)) (fun j => v34 (ix2 (0 : Fin 1) j)) (fun j => v43 (ix2 (0 : Fin 1) j)) (fun j => v45 (ix2 (0 : Fin 1) j)) q := by
  refine (norm_apply _ v34 v43 v45 p q).trans ?_
  unfold Cert.Layer.edgeAttr
  refine congrArg (fun v => Cert.Layer.rowNorm v (fun j => v43 (ix2 (0 : Fin 1) j)) (fun j => v45 (ix2 (0 : Fin 1) j)) q)
    (funext fun j => congrArg Cert.Layer.leaky ?_)
  exact congrArg (· + v34 (ix2 (0 : Fin 1) j)) (hidden_apply v0 v2 v4 v8 v11 v15 v21 v31 p j)

/-- The gate's affine layer at (p, k): the edge features' row through the gate's weight, plus its offset. -/
theorem gateHidden_apply (v33 : FVec Ideal S4000x256 .f32) (v35 v43 v45 : FVec Ideal S1x256 .f32) (v70 : FVec Ideal S256x256 .bf16)
    (v73 : FVec Ideal S1x256 .f32) (p : Fin 4000) (k : Fin 256) :
    k0_pay8 (F := Ideal) v33 v35 v43 v45 v70 v73 (ix2 p k)
      = Cert.Layer.dense (fun q => k0_pay7 (F := Ideal) v33 v35 v43 v45 (ix2 p q)) (fun a b => v70 (ix2 a b))
          (fun j => v73 (ix2 (0 : Fin 1) j)) k := by
  unfold k0_pay8
  exact congrArg₂ (· + ·)
    ((matmul_sq_apply _ _ p k).trans (Finset.sum_congr rfl fun q _ =>
      congrArg₂ (· * ·) (truncf_apply _ bitsLt_bf16_f32 (ix2 p q)) (congrFun (shapeCast_self v70 shapeCasts_S256x256_S256x256) (ix2 q k))))
    ((rowBcast_apply _ p k).trans (congrFun (shapeCast_self v73 shapeCasts_S1x256_S1x256) (ix2 (0 : Fin 1) k)))

/-- The comparison the gate's `leaky` selects by is the comparison of its affine layer with zero. -/
theorem pay9_eq (v33 : FVec Ideal S4000x256 .f32) (v35 v43 v45 : FVec Ideal S1x256 .f32) (v70 : FVec Ideal S256x256 .bf16)
    (v73 : FVec Ideal S1x256 .f32) :
    k0_pay9 (F := Ideal) v33 v35 v43 v45 v70 v73
      = cmpf .ogt (k0_pay8 (F := Ideal) v33 v35 v43 v45 v70 v73) (broadcast S4000x256 (Scalar.ofBits .f32 0x00000000#32)) := rfl

/-- The coordinate update at (p, a): the gate (the activated affine layer against the gate's column) times the
    relative coordinate over the distance. -/
theorem coord_apply (v6 : FVec Ideal S4000x3 .f32) (v7 : FVec Ideal S4000x1 .f32) (v76 : FVec Ideal S4000x256 .f32)
    (v83 : FVec Ideal S256x1 .bf16) (p : Fin 4000) (a : Fin 3) :
    k0_pay1 (F := Ideal) v6 v7 v76 (cmpf .ogt v76 (broadcast S4000x256 (Scalar.ofBits .f32 0x00000000#32))) v83 (ix2 p a)
      = (∑ k : Fin 256, Cert.Layer.leaky (v76 (ix2 p k)) * v83 (ix2 k (0 : Fin 1)))
          * Ideal.div (v6 (ix2 p a)) (v7 (ix2 p (0 : Fin 1))) := by
  unfold k0_pay1
  exact congrArg₂ (· * ·)
    ((colBcast3_apply _ p a).trans ((matmul_col_apply _ _ p 0).trans (Finset.sum_congr rfl fun k _ =>
      congrArg₂ (· * ·) (leaky_apply v76 (ix2 p k)) (congrFun (shapeCast_self v83 shapeCasts_S256x1_S256x1) (ix2 k (0 : Fin 1))))))
    (congrArg (Ideal.div (v6 (ix2 p a))) (colBcast3_apply v7 p a))

/-- Every block is loaded, and the output stored, through the whole rectangle at offsets zero. -/
theorem offsets_zero : (![0, 0] : Fin 2 → Nat) = fun _ => 0 := funext fun a => by fin_cases a <;> rfl

/-- What the edge stage leaves in its first output block, at (p, q): the edge features of edge p at q. -/
theorem edgeAttr_block (x0 x1 : Vec Ideal S4000x256 .bf16) (x2 : Vec Ideal S4000x4 .f32) (x3 x4 : Vec Ideal S256x256 .bf16) (x5 x6 : Vec Ideal S1x256 .f32) (x7 : Vec Ideal S256x256 .bf16) (x8 x9 x10 : Vec Ideal S1x256 .f32) (x11 : Vec Ideal S256x256 .bf16) (x12 : Vec Ideal S1x256 .f32) (x13 : Vec Ideal S256x1 .bf16) (p : Fin 4000) (q : Fin 256) :
    Gen.out0_14 (F := Ideal) x0 x1 x2 x3 x4 x5 x6 x7 x8 x9 x10 x11 x12 x13 (ix2 p q) =
      Cert.Layer.edgeAttr (fun k => x0 (ix2 p k)) (fun k => x1 (ix2 p k)) (x2 (ix2 p (3 : Fin 4)))
        (fun k j => x3 (ix2 k j)) (fun k j => x4 (ix2 k j)) (fun j => x5 (ix2 (0 : Fin 1) j)) (fun j => x6 (ix2 (0 : Fin 1) j))
        (fun k j => x7 (ix2 k j)) (fun j => x8 (ix2 (0 : Fin 1) j)) (fun j => x9 (ix2 (0 : Fin 1) j)) (fun j => x10 (ix2 (0 : Fin 1) j)) q := by
  unfold Gen.out0_14
  rw [View.canon_unit_zero offsets_zero]
  simp only [View.ld_unit_zero (S := S4000x256) offsets_zero, View.ld_unit_zero (S := S4000x4) offsets_zero,
    View.ld_unit_zero (S := S256x256) offsets_zero, View.ld_unit_zero (S := S1x256) offsets_zero]
  rw [pay6_eq]
  exact attr_apply x0 x1 x2 x3 x4 x5 x6 x7 x8 x9 x10 p q

/-- What the edge stage leaves in its second output block, at (p, a): the gate of edge p times its a-th relative
    coordinate over its distance. -/
theorem coordMul_block (x0 x1 : Vec Ideal S4000x256 .bf16) (x2 : Vec Ideal S4000x4 .f32) (x3 x4 : Vec Ideal S256x256 .bf16) (x5 x6 : Vec Ideal S1x256 .f32) (x7 : Vec Ideal S256x256 .bf16) (x8 x9 x10 : Vec Ideal S1x256 .f32) (x11 : Vec Ideal S256x256 .bf16) (x12 : Vec Ideal S1x256 .f32) (x13 : Vec Ideal S256x1 .bf16) (p : Fin 4000) (a : Fin 3) :
    Gen.out0_15 (F := Ideal) x0 x1 x2 x3 x4 x5 x6 x7 x8 x9 x10 x11 x12 x13 (ix2 p a) =
      Cert.Layer.coordMul (Cert.Layer.coordGate (Cert.Layer.edgeAttr (fun k => x0 (ix2 p k)) (fun k => x1 (ix2 p k)) (x2 (ix2 p (3 : Fin 4)))
        (fun k j => x3 (ix2 k j)) (fun k j => x4 (ix2 k j)) (fun j => x5 (ix2 (0 : Fin 1) j)) (fun j => x6 (ix2 (0 : Fin 1) j))
        (fun k j => x7 (ix2 k j)) (fun j => x8 (ix2 (0 : Fin 1) j)) (fun j => x9 (ix2 (0 : Fin 1) j)) (fun j => x10 (ix2 (0 : Fin 1) j)))
          (fun k j => x11 (ix2 k j)) (fun j => x12 (ix2 (0 : Fin 1) j)) (fun k => x13 (ix2 k (0 : Fin 1))))
        (fun b => x2 (ix2 p (⟨b.val, by omega⟩ : Fin 4))) (x2 (ix2 p (3 : Fin 4))) a := by
  unfold Gen.out0_15
  rw [View.canon_unit_zero offsets_zero]
  simp only [View.ld_unit_zero (S := S4000x256) offsets_zero, View.ld_unit_zero (S := S4000x4) offsets_zero,
    View.ld_unit_zero (S := S256x256) offsets_zero, View.ld_unit_zero (S := S1x256) offsets_zero,
    View.ld_unit_zero (S := S256x1) offsets_zero]
  rw [pay6_eq, pay9_eq]
  refine (coord_apply _ _ _ x13 p a).trans ?_
  unfold Cert.Layer.coordMul Cert.Layer.coordGate
  refine congrArg₂ (· * ·)
    (Finset.sum_congr rfl fun k _ => congrArg (fun t => Cert.Layer.leaky t * x13 (ix2 k (0 : Fin 1))) ?_)
    (congrArg₂ Ideal.div (relc_apply x2 p a) (dist_apply x2 p 0))
  refine (gateHidden_apply _ x8 x9 x10 x11 x12 p k).trans ?_
  exact congrArg (fun v => Cert.Layer.dense v (fun k j => x11 (ix2 k j)) (fun j => x12 (ix2 (0 : Fin 1) j)) k)
    (funext fun q => attr_apply x0 x1 x2 x3 x4 x5 x6 x7 x8 x9 x10 p q)

end Cert.KernelIdeal.EdgeBody
end
-- ==== Proof.Arrays.lean ====
/-
  The layer's three stage outputs as whole arrays.

  Row e of the edge-feature array (320000 × 256) is `Cert.Layer.edgeAttr` of row e of the gathered source features,
  row e of the gathered target features, the distance of edge e and the weights; row e of the coordinate-update
  array (320000 × 3) is `Cert.Layer.coordMul` of that edge's gate, its relative coordinates and its distance; row n
  of the node-update array (20000 × 256) is `Cert.Layer.nodeOut` of row n of the node features and row n of the
  aggregated edge features. The weight matrices enter as the whole arrays the programs are given: the first edge
  weight is 513 × 256 (rows 0–255, 256–511 and 512 are its three pieces), the first node weight 512 × 256.
-/
import proofs.«140590_j6975026888916_1_alg».proof.Proof.Spec

noncomputable section

namespace Cert.Layer

open Idealize.ShloMosaic Idealize.ShloMosaic.ValueIdx

/-- A matrix of extended reals over a literal two-axis shape, and a vector over a one-axis shape. -/
abbrev Mat (r k : Nat) : Type := (⟨2, ![r, k]⟩ : Shape).Idx → EReal
abbrev Vect (k : Nat) : Type := (⟨1, ![k]⟩ : Shape).Idx → EReal

/-- The edge features of edge `e`, from the whole arrays. -/
def edgeRow (HR HC : Mat 320000 256) (RD : Mat 320000 1) (W3 : Mat 513 256) (b4 : Vect 256) (W5 : Mat 256 256)
    (b6 g7 b8 : Vect 256) (e : Fin 320000) : Fin 256 → EReal :=
  edgeAttr (fun k => HR (ix2 e k)) (fun k => HC (ix2 e k)) (RD (ix2 e (0 : Fin 1)))
    (fun k j => W3 (ix2 (⟨k.val, by omega⟩ : Fin 513) j)) (fun k j => W3 (ix2 (⟨256 + k.val, by omega⟩ : Fin 513) j))
    (fun j => W3 (ix2 (⟨512, by omega⟩ : Fin 513) j)) (fun j => b4 (ix1 j))
    (fun k j => W5 (ix2 k j)) (fun j => b6 (ix1 j)) (fun j => g7 (ix1 j)) (fun j => b8 (ix1 j))

/-- The edge-feature array. -/
def edgeArr (HR HC : Mat 320000 256) (RD : Mat 320000 1) (W3 : Mat 513 256) (b4 : Vect 256) (W5 : Mat 256 256)
    (b6 g7 b8 : Vect 256) : Mat 320000 256 :=
  fun i => edgeRow HR HC RD W3 b4 W5 b6 g7 b8 (i 0) (i 1)

/-- The coordinate-update array. -/
def coordArr (HR HC : Mat 320000 256) (RD : Mat 320000 1) (W3 : Mat 513 256) (b4 : Vect 256) (W5 : Mat 256 256)
    (b6 g7 b8 : Vect 256) (RC : Mat 320000 3) (W15 : Mat 256 256) (b16 : Vect 256) (W17 : Mat 256 1) : Mat 320000 3 :=
  fun i => coordMul
    (coordGate (edgeRow HR HC RD W3 b4 W5 b6 g7 b8 (i 0)) (fun k j => W15 (ix2 k j)) (fun j => b16 (ix1 j))
      (fun k => W17 (ix2 k (0 : Fin 1))))
    (fun b => RC (ix2 (i 0) b)) (RD (ix2 (i 0) (0 : Fin 1))) (i 1)

/-- The node-update array. -/
def nodeArr (H AG : Mat 20000 256) (W9 : Mat 512 256) (b10 : Vect 256) (W11 : Mat 256 256) (b12 g13 b14 : Vect 256) :
    Mat 20000 256 :=
  fun i => nodeOut (fun k => H (ix2 (i 0) k)) (fun k => AG (ix2 (i 0) k))
    (fun k j => W9 (ix2 (⟨k.val, by omega⟩ : Fin 512) j)) (fun k j => W9 (ix2 (⟨256 + k.val, by omega⟩ : Fin 512) j))
    (fun j => b10 (ix1 j)) (fun k j => W11 (ix2 k j)) (fun j => b12 (ix1 j)) (fun j => g13 (ix1 j)) (fun j => b14 (ix1 j)) (i 1)

end Cert.Layer

end
-- ==== Proof.EdgeArray.lean ====
/-
  From the blocks to the arrays: the edge stage over all 320000 edges.

  The stage runs over 80 points; point t reads rows 4000·t … 4000·t + 3999 of the two gathered feature arrays and of
  the relative-coordinate array, reads every weight array whole, and writes back rows 4000·t … 4000·t + 3999 of the
  edge-feature array and of the coordinate-update array. Here:

  * the index maps of the sixteen windows, decided once over the 80 points: the five windows over the edges have
    block index (t, 0), the eleven weight windows (0, 0);
  * each input block read through its array: entry (p, k) of point t's block is entry (4000·t + p, k) of the array
    (a weight's block is the array itself) — an element of a block sits, on each axis, at block index × block size
    + its own coordinate;
  * what point t writes back is block t of ONE function of the array index: row e of the edge-feature array is
    `edgeRow … e`, row e of the coordinate-update array is `coordMul (coordGate (edgeRow … e) …) …`;
  * every row r is in the block of point r / 4000, so the 80 blocks cover each array, and after the last point the
    two arrays are `edgeArr` and `coordArr` of the arrays the stage was given.
-/
import proofs.«140590_j6975026888916_1_alg».proof.Proof.Gen.KernelIdeal.Frame
import proofs.«140590_j6975026888916_1_alg».proof.Proof.EdgeBody
import proofs.«140590_j6975026888916_1_alg».proof.Proof.Arrays
import Idealize.ShloMosaic.Lib.ValueIdx
import Idealize.ShloMosaic.Lib.Pipeline.Value

noncomputable section
namespace Cert.KernelIdeal.EdgeArray
open Cert.KernelIdeal Cert.KernelIdeal.Gen Idealize.ShloMosaic Idealize.ShloMosaic.TcCoe Idealize.ShloMosaic.ValueIdx Cert.Layer
open Idealize.SL.Sem
open Idealize.ShloMosaic.Pipeline (Dat)

variable (V : (c : Dev nD) → (b : Ref sig .tc) → Buf (Elt Ideal) ((c : Thread nD τ).loc b))

/-! ## The index maps over the 80 points -/

/-- Point t of the grid works on edges 4000·t … 4000·t + 3999. -/
def edgeRowOf (t : Fin cfg0.N) (p : Fin 4000) : Fin 320000 :=
  ⟨t.val * 4000 + p.val, by have h : t.val < 80 := lt_of_lt_of_eq t.isLt N_0; omega⟩

/-! The windows over the edges move with the point along the rows; the weights' windows stay at block (0, 0). -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)

/-! ## Each window's block read through its array

A block's element sits in the array, on each axis, at block index × block size + its own coordinate. -/

/-- Row p of the source-feature block of point t is row 4000·t + p of its array. -/
theorem blk0_apply (c : Dev nD) (t : Fin cfg0.N) (p : Fin 4000) (k : Fin 256) :
    (iblk0 V c 0 t : Vec Ideal S4000x256 .bf16) (ix2 p k) = (V c main_v11 : S320000x256.Idx → EReal) (ix2 (edgeRowOf t p) k) := by
  have hi := idx0 t
  unfold iblk0
  rw [View.read_apply]
  show V c main_v11 _ = V c main_v11 _
  refine congrArg (V c main_v11) (funext fun a => Fin.ext ?_)
  match a with
  | ⟨0, _⟩ => show win0_0.index t (0 : Fin 2) * 4000 + 1 * p.val = t.val * 4000 + p.val; rw [hi.1]; omega
  | ⟨1, _⟩ => show win0_0.index t (1 : Fin 2) * 256 + 1 * k.val = k.val; rw [hi.2]; omega

/-- Row p of the target-feature block of point t is row 4000·t + p of its array. -/
theorem blk1_apply (c : Dev nD) (t : Fin cfg0.N) (p : Fin 4000) (k : Fin 256) :
    (iblk0 V c 1 t : Vec Ideal S4000x256 .bf16) (ix2 p k) = (V c main_v18 : S320000x256.Idx → EReal) (ix2 (edgeRowOf t p) k) := by
  have hi := idx1 t
  unfold iblk0
  rw [View.read_apply]
  show V c main_v18 _ = V c main_v18 _
  refine congrArg (V c main_v18) (funext fun a => Fin.ext ?_)
  match a with
  | ⟨0, _⟩ => show win0_1.index t (0 : Fin 2) * 4000 + 1 * p.val = t.val * 4000 + p.val; rw [hi.1]; omega
  | ⟨1, _⟩ => show win0_1.index t (1 : Fin 2) * 256 + 1 * k.val = k.val; rw [hi.2]; omega

/-- Row p of the relative-coordinate block of point t is row 4000·t + p of its array. -/
theorem blk2_apply (c : Dev nD) (t : Fin cfg0.N) (p : Fin 4000) (k : Fin 4) :
    (iblk0 V c 2 t : Vec Ideal S4000x4 .f32) (ix2 p k) = (V c main_v37 : S320000x4.Idx → EReal) (ix2 (edgeRowOf t p) k) := by
  have hi := idx2 t
  unfold iblk0
  rw [View.read_apply]
  show V c main_v37 _ = V c main_v37 _
  refine congrArg (V c main_v37) (funext fun a => Fin.ext ?_)
  match a with
  | ⟨0, _⟩ => show win0_2.index t (0 : Fin 2) * 4000 + 1 * p.val = t.val * 4000 + p.val; rw [hi.1]; omega
  | ⟨1, _⟩ => show win0_2.index t (1 : Fin 2) * 4 + 1 * k.val = k.val; rw [hi.2]; omega

/-! A weight's block is its whole array at every point. -/
theorem blk3_apply (c : Dev nD) (t : Fin cfg0.N) (k : Fin 256) (j : Fin 256) :
    (iblk0 V c 3 t : Vec Ideal S256x256 .bf16) (ix2 k j) = (V c main_v39 : S256x256.Idx → EReal) (ix2 k j) := by
  have hi := idx3 t
  unfold iblk0
  rw [View.read_apply]
  show V c main_v39 _ = V c main_v39 _
  refine congrArg (V c main_v39) (funext fun a => Fin.ext ?_)
  match a with
  | ⟨0, _⟩ => show win0_3.index t (0 : Fin 2) * 256 + 1 * k.val = k.val; rw [hi.1]; omega
  | ⟨1, _⟩ => show win0_3.index t (1 : Fin 2) * 256 + 1 * j.val = j.val; rw [hi.2]; omega

theorem blk4_apply (c : Dev nD) (t : Fin cfg0.N) (k : Fin 256) (j : Fin 256) :
    (iblk0 V c 4 t : Vec Ideal S256x256 .bf16) (ix2 k j) = (V c main_v41 : S256x256.Idx → EReal) (ix2 k j) := by
  have hi := idx4 t
  unfold iblk0
  rw [View.read_apply]
  show V c main_v41 _ = V c main_v41 _
  refine congrArg (V c main_v41) (funext fun a => Fin.ext ?_)
  match a with
  | ⟨0, _⟩ => show win0_4.index t (0 : Fin 2) * 256 + 1 * k.val = k.val; rw [hi.1]; omega
  | ⟨1, _⟩ => show win0_4.index t (1 : Fin 2) * 256 + 1 * j.val = j.val; rw [hi.2]; omega

theorem blk5_apply (c : Dev nD) (t : Fin cfg0.N) (k : Fin 1) (j : Fin 256) :
    (iblk0 V c 5 t : Vec Ideal S1x256 .f32) (ix2 k j) = (V c main_v42 : S1x256.Idx → EReal) (ix2 k j) := by
  have hi := idx5 t
  unfold iblk0
  rw [View.read_apply]
  show V c main_v42 _ = V c main_v42 _
  refine congrArg (V c main_v42) (funext fun a => Fin.ext ?_)
  match a with
  | ⟨0, _⟩ => show win0_5.index t (0 : Fin 2) * 1 + 1 * k.val = k.val; rw [hi.1]; omega
  | ⟨1, _⟩ => show win0_5.index t (1 : Fin 2) * 256 + 1 * j.val = j.val; rw [hi.2]; omega

theorem blk6_apply (c : Dev nD) (t : Fin cfg0.N) (k : Fin 1) (j : Fin 256) :
    (iblk0 V c 6 t : Vec Ideal S1x256 .f32) (ix2 k j) = (V c main_v43 : S1x256.Idx → EReal) (ix2 k j) := by
  have hi := idx6 t
  unfold iblk0
  rw [View.read_apply]
  show V c main_v43 _ = V c main_v43 _
  refine congrArg (V c main_v43) (funext fun a => Fin.ext ?_)
  match a with
  | ⟨0, _⟩ => show win0_6.index t (0 : Fin 2) * 1 + 1 * k.val = k.val; rw [hi.1]; omega
  | ⟨1, _⟩ => show win0_6.index t (1 : Fin 2) * 256 + 1 * j.val = j.val; rw [hi.2]; omega

theorem blk7_apply (c : Dev nD) (t : Fin cfg0.N) (k : Fin 256) (j : Fin 256) :
    (iblk0 V c 7 t : Vec Ideal S256x256 .bf16) (ix2 k j) = (V c main_v44 : S256x256.Idx → EReal) (ix2 k j) := by
  have hi := idx7 t
  unfold iblk0
  rw [View.read_apply]
  show V c main_v44 _ = V c main_v44 _
  refine congrArg (V c main_v44) (funext fun a => Fin.ext ?_)
  match a with
  | ⟨0, _⟩ => show win0_7.index t (0 : Fin 2) * 256 + 1 * k.val = k.val; rw [hi.1]; omega
  | ⟨1, _⟩ => show win0_7.index t (1 : Fin 2) * 256 + 1 * j.val = j.val; rw [hi.2]; omega

theorem blk8_apply (c : Dev nD) (t : Fin cfg0.N) (k : Fin 1) (j : Fin 256) :
    (iblk0 V c 8 t : Vec Ideal S1x256 .f32) (ix2 k j) = (V c main_v45 : S1x256.Idx → EReal) (ix2 k j) := by
  have hi := idx8 t
  unfold iblk0
  rw [View.read_apply]
  show V c main_v45 _ = V c main_v45 _
  refine congrArg (V c main_v45) (funext fun a => Fin.ext ?_)
  match a with
  | ⟨0, _⟩ => show win0_8.index t (0 : Fin 2) * 1 + 1 * k.val = k.val; rw [hi.1]; omega
  | ⟨1, _⟩ => show win0_8.index t (1 : Fin 2) * 256 + 1 * j.val = j.val; rw [hi.2]; omega

theorem blk9_apply (c : Dev nD) (t : Fin cfg0.N) (k : Fin 1) (j : Fin 256) :
    (iblk0 V c 9 t : Vec Ideal S1x256 .f32) (ix2 k j) = (V c main_v46 : S1x256.Idx → EReal) (ix2 k j) := by
  have hi := idx9 t
  unfold iblk0
  rw [View.read_apply]
  show V c main_v46 _ = V c main_v46 _
  refine congrArg (V c main_v46) (funext fun a => Fin.ext ?_)
  match a with
  | ⟨0, _⟩ => show win0_9.index t (0 : Fin 2) * 1 + 1 * k.val = k.val; rw [hi.1]; omega
  | ⟨1, _⟩ => show win0_9.index t (1 : Fin 2) * 256 + 1 * j.val = j.val; rw [hi.2]; omega

theorem blk10_apply (c : Dev nD) (t : Fin cfg0.N) (k : Fin 1) (j : Fin 256) :
    (iblk0 V c 10 t : Vec Ideal S1x256 .f32) (ix2 k j) = (V c main_v47 : S1x256.Idx → EReal) (ix2 k j) := by
  have hi := idx10 t
  unfold iblk0
  rw [View.read_apply]
  show V c main_v47 _ = V c main_v47 _
  refine congrArg (V c main_v47) (funext fun a => Fin.ext ?_)
  match a with
  | ⟨0, _⟩ => show win0_10.index t (0 : Fin 2) * 1 + 1 * k.val = k.val; rw [hi.1]; omega
  | ⟨1, _⟩ => show win0_10.index t (1 : Fin 2) * 256 + 1 * j.val = j.val; rw [hi.2]; omega

theorem blk11_apply (c : Dev nD) (t : Fin cfg0.N) (k : Fin 256) (j : Fin 256) :
    (iblk0 V c 11 t : Vec Ideal S256x256 .bf16) (ix2 k j) = (V c main_v48 : S256x256.Idx → EReal) (ix2 k j) := by
  have hi := idx11 t
  unfold iblk0
  rw [View.read_apply]
  show V c main_v48 _ = V c main_v48 _
  refine congrArg (V c main_v48) (funext fun a => Fin.ext ?_)
  match a with
  | ⟨0, _⟩ => show win0_11.index t (0 : Fin 2) * 256 + 1 * k.val = k.val; rw [hi.1]; omega
  | ⟨1, _⟩ => show win0_11.index t (1 : Fin 2) * 256 + 1 * j.val = j.val; rw [hi.2]; omega

theorem blk12_apply (c : Dev nD) (t : Fin cfg0.N) (k : Fin 1) (j : Fin 256) :
    (iblk0 V c 12 t : Vec Ideal S1x256 .f32) (ix2 k j) = (V c main_v49 : S1x256.Idx → EReal) (ix2 k j) := by
  have hi := idx12 t
  unfold iblk0
  rw [View.read_apply]
  show V c main_v49 _ = V c main_v49 _
  refine congrArg (V c main_v49) (funext fun a => Fin.ext ?_)
  match a with
  | ⟨0, _⟩ => show win0_12.index t (0 : Fin 2) * 1 + 1 * k.val = k.val; rw [hi.1]; omega
  | ⟨1, _⟩ => show win0_12.index t (1 : Fin 2) * 256 + 1 * j.val = j.val; rw [hi.2]; omega

theorem blk13_apply (c : Dev nD) (t : Fin cfg0.N) (k : Fin 256) (j : Fin 1) :
    (iblk0 V c 13 t : Vec Ideal S256x1 .bf16) (ix2 k j) = (V c main_v50 : S256x1.Idx → EReal) (ix2 k j) := by
  have hi := idx13 t
  unfold iblk0
  rw [View.read_apply]
  show V c main_v50 _ = V c main_v50 _
  refine congrArg (V c main_v50) (funext fun a => Fin.ext ?_)
  match a with
  | ⟨0, _⟩ => show win0_13.index t (0 : Fin 2) * 256 + 1 * k.val = k.val; rw [hi.1]; omega
  | ⟨1, _⟩ => show win0_13.index t (1 : Fin 2) * 1 + 1 * j.val = j.val; rw [hi.2]; omega

/-- Entry (p, q) of the block point t writes back sits at (4000·t + p, q) of the array. -/
theorem blk14_emb (t : Fin cfg0.N) (p : Fin 4000) (q : Fin 256) :
    (((cfg0.win 14).blk t).view.emb (ix2 p q : S4000x256.Idx) : S320000x256.Idx) = ix2 (edgeRowOf t p) q := by
  have hi := idx14 t
  refine funext fun a => Fin.ext ?_
  match a with
  | ⟨0, _⟩ => show win0_14.index t (0 : Fin 2) * 4000 + 1 * p.val = t.val * 4000 + p.val; rw [hi.1]; omega
  | ⟨1, _⟩ => show win0_14.index t (1 : Fin 2) * 256 + 1 * q.val = q.val; rw [hi.2]; omega

/-- Entry (p, q) of the block point t writes back sits at (4000·t + p, q) of the array. -/
theorem blk15_emb (t : Fin cfg0.N) (p : Fin 4000) (q : Fin 3) :
    (((cfg0.win 15).blk t).view.emb (ix2 p q : S4000x3.Idx) : S320000x3.Idx) = ix2 (edgeRowOf t p) q := by
  have hi := idx15 t
  refine funext fun a => Fin.ext ?_
  match a with
  | ⟨0, _⟩ => show win0_15.index t (0 : Fin 2) * 4000 + 1 * p.val = t.val * 4000 + p.val; rw [hi.1]; omega
  | ⟨1, _⟩ => show win0_15.index t (1 : Fin 2) * 3 + 1 * q.val = q.val; rw [hi.2]; omega

/-! ## The edge features and the coordinate update of a block row, from the arrays -/

/-- `edgeAttr` of equal arguments. -/
theorem edgeAttr_congr {hr hr' hc hc' : Fin 256 → EReal} {d d' : EReal} {Wa Wa' Wb Wb' : Fin 256 → Fin 256 → EReal}
    {wc wc' b1 b1' : Fin 256 → EReal} {W2 W2' : Fin 256 → Fin 256 → EReal} {b2 b2' g g' be be' : Fin 256 → EReal}
    (e0 : hr = hr') (e1 : hc = hc') (e2 : d = d') (e3 : Wa = Wa') (e4 : Wb = Wb') (e5 : wc = wc') (e6 : b1 = b1')
    (e7 : W2 = W2') (e8 : b2 = b2') (e9 : g = g') (e10 : be = be') :
    edgeAttr hr hc d Wa Wb wc b1 W2 b2 g be = edgeAttr hr' hc' d' Wa' Wb' wc' b1' W2' b2' g' be' := by
  subst e0 e1 e2 e3 e4 e5 e6 e7 e8 e9 e10; rfl

/-- `coordMul` of a `coordGate` of equal arguments. -/
theorem coordMul_congr {ea ea' : Fin 256 → EReal} {C1 C1' : Fin 256 → Fin 256 → EReal} {c1 c1' c2 c2' : Fin 256 → EReal}
    {rc rc' : Fin 3 → EReal} {d d' : EReal}
    (e0 : ea = ea') (e1 : C1 = C1') (e2 : c1 = c1') (e3 : c2 = c2') (e4 : rc = rc') (e5 : d = d') :
    coordMul (coordGate ea C1 c1 c2) rc d = coordMul (coordGate ea' C1' c1' c2') rc' d' := by
  subst e0 e1 e2 e3 e4 e5; rfl

/-- The edge features computed from row p of point t's blocks are those of edge 4000·t + p from the arrays. -/
theorem attr_row (c : Dev nD) (HR HC : Mat 320000 256) (RD : Mat 320000 1) (W3 : Mat 513 256) (b4 : Vect 256) (W5 : Mat 256 256) (b6 g7 b8 : Vect 256)
    (h0 : V c main_v11 = HR) (h1 : V c main_v18 = HC)
    (h2d : ∀ e : Fin 320000, V c main_v37 (ix2 e (3 : Fin 4)) = RD (ix2 e (0 : Fin 1)))
    (h3 : ∀ k j : Fin 256, V c main_v39 (ix2 k j) = W3 (ix2 (⟨k.val, by omega⟩ : Fin 513) j))
    (h4 : ∀ k j : Fin 256, V c main_v41 (ix2 k j) = W3 (ix2 (⟨256 + k.val, by omega⟩ : Fin 513) j))
    (h5 : ∀ j : Fin 256, V c main_v42 (ix2 (0 : Fin 1) j) = W3 (ix2 (⟨512, by omega⟩ : Fin 513) j))
    (h6 : ∀ j : Fin 256, V c main_v43 (ix2 (0 : Fin 1) j) = b4 (ix1 j))
    (h7 : ∀ k j : Fin 256, V c main_v44 (ix2 k j) = W5 (ix2 k j))
    (h8 : ∀ j : Fin 256, V c main_v45 (ix2 (0 : Fin 1) j) = b6 (ix1 j))
    (h9 : ∀ j : Fin 256, V c main_v46 (ix2 (0 : Fin 1) j) = g7 (ix1 j))
    (h10 : ∀ j : Fin 256, V c main_v47 (ix2 (0 : Fin 1) j) = b8 (ix1 j)) (t : Fin cfg0.N) (p : Fin 4000) :
    edgeAttr (fun k => (iblk0 V c 0 t : Vec Ideal S4000x256 .bf16) (ix2 p k)) (fun k => (iblk0 V c 1 t : Vec Ideal S4000x256 .bf16) (ix2 p k))
        ((iblk0 V c 2 t : Vec Ideal S4000x4 .f32) (ix2 p (3 : Fin 4)))
        (fun k j => (iblk0 V c 3 t : Vec Ideal S256x256 .bf16) (ix2 k j)) (fun k j => (iblk0 V c 4 t : Vec Ideal S256x256 .bf16) (ix2 k j))
        (fun j => (iblk0 V c 5 t : Vec Ideal S1x256 .f32) (ix2 (0 : Fin 1) j)) (fun j => (iblk0 V c 6 t : Vec Ideal S1x256 .f32) (ix2 (0 : Fin 1) j))
        (fun k j => (iblk0 V c 7 t : Vec Ideal S256x256 .bf16) (ix2 k j)) (fun j => (iblk0 V c 8 t : Vec Ideal S1x256 .f32) (ix2 (0 : Fin 1) j))
        (fun j => (iblk0 V c 9 t : Vec Ideal S1x256 .f32) (ix2 (0 : Fin 1) j)) (fun j => (iblk0 V c 10 t : Vec Ideal S1x256 .f32) (ix2 (0 : Fin 1) j))
      = edgeRow HR HC RD W3 b4 W5 b6 g7 b8 (edgeRowOf t p) :=
  edgeAttr_congr
    (funext fun k => (blk0_apply V c t p k).trans (congrFun h0 _))
    (funext fun k => (blk1_apply V c t p k).trans (congrFun h1 _))
    ((blk2_apply V c t p (3 : Fin 4)).trans (h2d _))
    (funext fun k => funext fun j => (blk3_apply V c t k j).trans (h3 k j))
    (funext fun k => funext fun j => (blk4_apply V c t k j).trans (h4 k j))
    (funext fun j => (blk5_apply V c t 0 j).trans (h5 j))
    (funext fun j => (blk6_apply V c t 0 j).trans (h6 j))
    (funext fun k => funext fun j => (blk7_apply V c t k j).trans (h7 k j))
    (funext fun j => (blk8_apply V c t 0 j).trans (h8 j))
    (funext fun j => (blk9_apply V c t 0 j).trans (h9 j))
    (funext fun j => (blk10_apply V c t 0 j).trans (h10 j))

/-! ## What each point writes back -/

/-- Point t writes back block t of the edge-feature array. -/
theorem flushed_edge (c : Dev nD) (HR HC : Mat 320000 256) (RD : Mat 320000 1) (W3 : Mat 513 256) (b4 : Vect 256) (W5 : Mat 256 256) (b6 g7 b8 : Vect 256)
    (h0 : V c main_v11 = HR) (h1 : V c main_v18 = HC)
    (h2d : ∀ e : Fin 320000, V c main_v37 (ix2 e (3 : Fin 4)) = RD (ix2 e (0 : Fin 1)))
    (h3 : ∀ k j : Fin 256, V c main_v39 (ix2 k j) = W3 (ix2 (⟨k.val, by omega⟩ : Fin 513) j))
    (h4 : ∀ k j : Fin 256, V c main_v41 (ix2 k j) = W3 (ix2 (⟨256 + k.val, by omega⟩ : Fin 513) j))
    (h5 : ∀ j : Fin 256, V c main_v42 (ix2 (0 : Fin 1) j) = W3 (ix2 (⟨512, by omega⟩ : Fin 513) j))
    (h6 : ∀ j : Fin 256, V c main_v43 (ix2 (0 : Fin 1) j) = b4 (ix1 j))
    (h7 : ∀ k j : Fin 256, V c main_v44 (ix2 k j) = W5 (ix2 k j))
    (h8 : ∀ j : Fin 256, V c main_v45 (ix2 (0 : Fin 1) j) = b6 (ix1 j))
    (h9 : ∀ j : Fin 256, V c main_v46 (ix2 (0 : Fin 1) j) = g7 (ix1 j))
    (h10 : ∀ j : Fin 256, V c main_v47 (ix2 (0 : Fin 1) j) = b8 (ix1 j)) (t : Fin cfg0.N) :
    (dat0 V c).flushed 14 t = ((cfg0.win 14).blk t).view.read (Elt Ideal) (edgeArr HR HC RD W3 b4 W5 b6 g7 b8) := by
  show (cfg0.win 14).cut (grid0.coords t) ((dat0 V c).after 14 t) = _
  rw [after0_14]
  refine funext fun (j : S4000x256.Idx) => ?_
  obtain ⟨p, q, rfl⟩ : ∃ (p : Fin 4000) (q : Fin 256), j = ix2 p q := ⟨j 0, j 1, eq_ix2 j⟩
  rw [View.read_apply, blk14_emb]
  show out0_14 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (ix2 p q)
    = edgeRow HR HC RD W3 b4 W5 b6 g7 b8 (edgeRowOf t p) q
  rw [EdgeBody.edgeAttr_block]
  exact congrFun (attr_row V c HR HC RD W3 b4 W5 b6 g7 b8 h0 h1 h2d h3 h4 h5 h6 h7 h8 h9 h10 t p) q

/-- Point t writes back block t of the coordinate-update array. -/
theorem flushed_coord (c : Dev nD) (HR HC : Mat 320000 256) (RD : Mat 320000 1) (W3 : Mat 513 256) (b4 : Vect 256) (W5 : Mat 256 256) (b6 g7 b8 : Vect 256)
    (h0 : V c main_v11 = HR) (h1 : V c main_v18 = HC)
    (h2d : ∀ e : Fin 320000, V c main_v37 (ix2 e (3 : Fin 4)) = RD (ix2 e (0 : Fin 1)))
    (h3 : ∀ k j : Fin 256, V c main_v39 (ix2 k j) = W3 (ix2 (⟨k.val, by omega⟩ : Fin 513) j))
    (h4 : ∀ k j : Fin 256, V c main_v41 (ix2 k j) = W3 (ix2 (⟨256 + k.val, by omega⟩ : Fin 513) j))
    (h5 : ∀ j : Fin 256, V c main_v42 (ix2 (0 : Fin 1) j) = W3 (ix2 (⟨512, by omega⟩ : Fin 513) j))
    (h6 : ∀ j : Fin 256, V c main_v43 (ix2 (0 : Fin 1) j) = b4 (ix1 j))
    (h7 : ∀ k j : Fin 256, V c main_v44 (ix2 k j) = W5 (ix2 k j))
    (h8 : ∀ j : Fin 256, V c main_v45 (ix2 (0 : Fin 1) j) = b6 (ix1 j))
    (h9 : ∀ j : Fin 256, V c main_v46 (ix2 (0 : Fin 1) j) = g7 (ix1 j))
    (h10 : ∀ j : Fin 256, V c main_v47 (ix2 (0 : Fin 1) j) = b8 (ix1 j))
    (RC : Mat 320000 3) (W15 : Mat 256 256) (b16 : Vect 256) (W17 : Mat 256 1)
    (h2c : ∀ (e : Fin 320000) (b : Fin 3), V c main_v37 (ix2 e (⟨b.val, by omega⟩ : Fin 4)) = RC (ix2 e b))
    (h11 : ∀ k j : Fin 256, V c main_v48 (ix2 k j) = W15 (ix2 k j))
    (h12 : ∀ j : Fin 256, V c main_v49 (ix2 (0 : Fin 1) j) = b16 (ix1 j))
    (h13 : ∀ k : Fin 256, V c main_v50 (ix2 k (0 : Fin 1)) = W17 (ix2 k (0 : Fin 1))) (t : Fin cfg0.N) :
    (dat0 V c).flushed 15 t
      = ((cfg0.win 15).blk t).view.read (Elt Ideal) (coordArr HR HC RD W3 b4 W5 b6 g7 b8 RC W15 b16 W17) := by
  show (cfg0.win 15).cut (grid0.coords t) ((dat0 V c).after 15 t) = _
  rw [after0_15]
  refine funext fun (j : S4000x3.Idx) => ?_
  obtain ⟨p, a, rfl⟩ : ∃ (p : Fin 4000) (a : Fin 3), j = ix2 p a := ⟨j 0, j 1, eq_ix2 j⟩
  rw [View.read_apply, blk15_emb]
  show out0_15 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (ix2 p a)
    = coordMul (coordGate (edgeRow HR HC RD W3 b4 W5 b6 g7 b8 (edgeRowOf t p)) (fun k j => W15 (ix2 k j)) (fun j => b16 (ix1 j))
        (fun k => W17 (ix2 k (0 : Fin 1)))) (fun b => RC (ix2 (edgeRowOf t p) b)) (RD (ix2 (edgeRowOf t p) (0 : Fin 1))) a
  rw [EdgeBody.coordMul_block]
  exact congrFun (coordMul_congr (attr_row V c HR HC RD W3 b4 W5 b6 g7 b8 h0 h1 h2d h3 h4 h5 h6 h7 h8 h9 h10 t p)
    (funext fun k => funext fun j => (blk11_apply V c t k j).trans (h11 k j))
    (funext fun j => (blk12_apply V c t 0 j).trans (h12 j))
    (funext fun k => (blk13_apply V c t k 0).trans (h13 k))
    (funext fun b => (blk2_apply V c t p (⟨b.val, by omega⟩ : Fin 4)).trans (h2c _ b))
    ((blk2_apply V c t p (3 : Fin 4)).trans (h2d _))) a

/-! ## The blocks cover the arrays -/

/-- An index of the edge-feature array is in point t's block iff each coordinate is in the block's range. -/
theorem mem_blk_edge (t : Fin cfg0.N) (i : S320000x256.Idx) :
    i ∈ ((cfg0.win 14).blk t).view.set ↔ ∀ a : Fin 2, win0_14.index t a * S4000x256.size a ≤ (i a).val
      ∧ (i a).val < win0_14.index t a * S4000x256.size a + S4000x256.size a := by
  show i ∈ ((View.whole main_v51_0).slice (win0_14.rect t)).set ↔ _
  rw [View.set_slice_whole, Rect.mem_set_unit]
  exact Iff.rfl

theorem mem_blk_coord (t : Fin cfg0.N) (i : S320000x3.Idx) :
    i ∈ ((cfg0.win 15).blk t).view.set ↔ ∀ a : Fin 2, win0_15.index t a * S4000x3.size a ≤ (i a).val
      ∧ (i a).val < win0_15.index t a * S4000x3.size a + S4000x3.size a := by
  show i ∈ ((View.whole main_v51_1).slice (win0_15.rect t)).set ↔ _
  rw [View.set_slice_whole, Rect.mem_set_unit]
  exact Iff.rfl

/-- The point that covers row r is r / 4000. -/
def pointOf (r : Fin 320000) : Fin cfg0.N :=
  ⟨r.val / 4000, by show r.val / 4000 < grid0.N; rw [N_0]; have := r.isLt; omega⟩

theorem covered_edge (i : S320000x256.Idx) :
    ∃ t : Fin cfg0.N, (cfg0.win 14).flush t = true ∧ i ∈ ((cfg0.win 14).blk t).view.set := by
  have h0 : (i 0).val < 320000 := (i 0).isLt
  have h1 : (i 1).val < 256 := (i 1).isLt
  refine ⟨pointOf ⟨(i 0).val, h0⟩, flush0_14 _, ?_⟩
  rw [mem_blk_edge]
  have hi := idx14 (pointOf ⟨(i 0).val, h0⟩)
  have ht : (pointOf ⟨(i 0).val, h0⟩).val = (i 0).val / 4000 := rfl
  intro a
  match a with
  | ⟨0, _⟩ =>
    show win0_14.index (pointOf ⟨(i 0).val, h0⟩) (0 : Fin 2) * 4000 ≤ (i 0).val
      ∧ (i 0).val < win0_14.index (pointOf ⟨(i 0).val, h0⟩) (0 : Fin 2) * 4000 + 4000
    rw [hi.1, ht]; omega
  | ⟨1, _⟩ =>
    show win0_14.index (pointOf ⟨(i 0).val, h0⟩) (1 : Fin 2) * 256 ≤ (i 1).val
      ∧ (i 1).val < win0_14.index (pointOf ⟨(i 0).val, h0⟩) (1 : Fin 2) * 256 + 256
    rw [hi.2]; omega

theorem covered_coord (i : S320000x3.Idx) :
    ∃ t : Fin cfg0.N, (cfg0.win 15).flush t = true ∧ i ∈ ((cfg0.win 15).blk t).view.set := by
  have h0 : (i 0).val < 320000 := (i 0).isLt
  have h1 : (i 1).val < 3 := (i 1).isLt
  refine ⟨pointOf ⟨(i 0).val, h0⟩, flush0_15 _, ?_⟩
  rw [mem_blk_coord]
  have hi := idx15 (pointOf ⟨(i 0).val, h0⟩)
  have ht : (pointOf ⟨(i 0).val, h0⟩).val = (i 0).val / 4000 := rfl
  intro a
  match a with
  | ⟨0, _⟩ =>
    show win0_15.index (pointOf ⟨(i 0).val, h0⟩) (0 : Fin 2) * 4000 ≤ (i 0).val
      ∧ (i 0).val < win0_15.index (pointOf ⟨(i 0).val, h0⟩) (0 : Fin 2) * 4000 + 4000
    rw [hi.1, ht]; omega
  | ⟨1, _⟩ =>
    show win0_15.index (pointOf ⟨(i 0).val, h0⟩) (1 : Fin 2) * 3 ≤ (i 1).val
      ∧ (i 1).val < win0_15.index (pointOf ⟨(i 0).val, h0⟩) (1 : Fin 2) * 3 + 3
    rw [hi.2]; omega

/-! ## The two arrays after all 80 points -/

/-- After the region the two output arrays hold the edge features and the coordinate updates of all 320000 edges. -/
theorem edge_arrays (c : Dev nD) (HR HC : Mat 320000 256) (RC : Mat 320000 3) (RD : Mat 320000 1) (W3 : Mat 513 256) (b4 : Vect 256) (W5 : Mat 256 256) (b6 g7 b8 : Vect 256) (W15 : Mat 256 256) (b16 : Vect 256) (W17 : Mat 256 1)
    (h0 : V c main_v11 = HR) (h1 : V c main_v18 = HC)
    (h2c : ∀ (e : Fin 320000) (b : Fin 3), V c main_v37 (ix2 e (⟨b.val, by omega⟩ : Fin 4)) = RC (ix2 e b))
    (h2d : ∀ e : Fin 320000, V c main_v37 (ix2 e (3 : Fin 4)) = RD (ix2 e (0 : Fin 1)))
    (h3 : ∀ k j : Fin 256, V c main_v39 (ix2 k j) = W3 (ix2 (⟨k.val, by omega⟩ : Fin 513) j))
    (h4 : ∀ k j : Fin 256, V c main_v41 (ix2 k j) = W3 (ix2 (⟨256 + k.val, by omega⟩ : Fin 513) j))
    (h5 : ∀ j : Fin 256, V c main_v42 (ix2 (0 : Fin 1) j) = W3 (ix2 (⟨512, by omega⟩ : Fin 513) j))
    (h6 : ∀ j : Fin 256, V c main_v43 (ix2 (0 : Fin 1) j) = b4 (ix1 j))
    (h7 : ∀ k j : Fin 256, V c main_v44 (ix2 k j) = W5 (ix2 k j))
    (h8 : ∀ j : Fin 256, V c main_v45 (ix2 (0 : Fin 1) j) = b6 (ix1 j))
    (h9 : ∀ j : Fin 256, V c main_v46 (ix2 (0 : Fin 1) j) = g7 (ix1 j))
    (h10 : ∀ j : Fin 256, V c main_v47 (ix2 (0 : Fin 1) j) = b8 (ix1 j))
    (h11 : ∀ k j : Fin 256, V c main_v48 (ix2 k j) = W15 (ix2 k j))
    (h12 : ∀ j : Fin 256, V c main_v49 (ix2 (0 : Fin 1) j) = b16 (ix1 j))
    (h13 : ∀ k : Fin 256, V c main_v50 (ix2 k (0 : Fin 1)) = W17 (ix2 k (0 : Fin 1))) :
    (dat0 V c).arrAt 14 cfg0.N = edgeArr HR HC RD W3 b4 W5 b6 g7 b8
    ∧ (dat0 V c).arrAt 15 cfg0.N = coordArr HR HC RD W3 b4 W5 b6 g7 b8 RC W15 b16 W17 :=
  ⟨(dat0 V c).arrAt_eq_of_cover 14 (edgeArr HR HC RD W3 b4 W5 b6 g7 b8)
      (fun t _ => flushed_edge V c HR HC RD W3 b4 W5 b6 g7 b8 h0 h1 h2d h3 h4 h5 h6 h7 h8 h9 h10 t) covered_edge,
   (dat0 V c).arrAt_eq_of_cover 15 (coordArr HR HC RD W3 b4 W5 b6 g7 b8 RC W15 b16 W17)
      (fun t _ => flushed_coord V c HR HC RD W3 b4 W5 b6 g7 b8 h0 h1 h2d h3 h4 h5 h6 h7 h8 h9 h10 RC W15 b16 W17 h2c h11 h12 h13 t) covered_coord⟩

end Cert.KernelIdeal.EdgeArray
end
-- ==== Proof.NodeBody.lean ====
/-
  The node stage's block, read entry by entry on the extended reals.

  For a block of 4000 nodes the body forms, row by row: the first affine layer as two partial products (node features
  through one 256 × 256 weight, aggregated edge features through another) plus an offset, the leaky slope, a second
  affine layer, and the normalisation of each row of 256 entries (centred at the row's mean, scaled by the reciprocal
  square root of the mean squared deviation plus a small constant, then gain and offset).

  Every step is read at one index: a matrix product at (p, j) is the sum over k of a(p, k) · w(k, j); a row sum at p is
  the sum over k of the (p, k) entries; a broadcast row or column reads the one row or column it repeats; format changes
  are the identity on the extended reals. Put together, the block's (p, q) entry is the row function `nodeOut` of row p.
-/
import proofs.«140590_j6975026888916_1_alg».proof.Proof.Gen.KernelIdeal.Frame
import proofs.«140590_j6975026888916_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section
namespace Cert.KernelIdeal.NodeBody
open Cert.KernelIdeal Cert.KernelIdeal.Gen Idealize.ShloMosaic Idealize.ShloMosaic.ValueIdx

/-! ## The layout operations of the body, read at an index -/

/-- The dimension numbers of the three matrix products: rows of the left operand against columns of the right. -/
abbrev DD : DotDims S4000x256 S256x256 S4000x256 := dot_S4000x256_S256x256_S4000x256_1_0_0_1_n_n

theorem lhs_row (i : S4000x256.Idx) (c : DD.contr.Idx) : (DD.lhsIdx i c 0).val = (i 0).val := by
  unfold DotDims.lhsIdx
  rw [dif_neg (show ¬(0 : Fin S4000x256.rank) ∈ DD.lhsBatch by decide), dif_pos (show (0 : Fin S4000x256.rank) ∈ DD.lhsNonContracting by decide)]
  rfl

theorem lhs_col (i : S4000x256.Idx) (c : DD.contr.Idx) : (DD.lhsIdx i c 1).val = (c ⟨0, by decide⟩).val :=
  DD.lhsIdx_val_of_single rfl i c

theorem rhs_row (i : S4000x256.Idx) (c : DD.contr.Idx) : (DD.rhsIdx i c 0).val = (c ⟨0, by decide⟩).val :=
  DD.rhsIdx_val_of_single rfl i c

theorem rhs_col (i : S4000x256.Idx) (c : DD.contr.Idx) : (DD.rhsIdx i c 1).val = (i 1).val := by
  unfold DotDims.rhsIdx
  rw [dif_neg (show ¬(1 : Fin S256x256.rank) ∈ DD.rhsBatch by decide), dif_pos (show (1 : Fin S256x256.rank) ∈ DD.rhsNonContracting by decide)]
  rfl

/-- A matrix product into the zero accumulator, at row p and column j, is the sum over k of a(p,k) · w(k,j). -/
theorem matmul_at (a : FVec Ideal S4000x256 .bf16) (w : FVec Ideal S256x256 .bf16) (p : Fin 4000) (j : Fin 256) :
    matmul DD none a w (constant (F := Ideal) S4000x256 .f32 0x00000000#32) (ix2 p j)
      = ∑ k : Fin 256, a (ix2 p k) * w (ix2 k j) := by
  refine (Ideal.matmul_constant_zero_apply DD none a w (ix2 p j)).trans ?_
  rw [← Equiv.sum_comp (contrEquiv1 DD 256 rfl rfl).symm]
  refine Finset.sum_congr rfl fun k _ => ?_
  have hk := contrEquiv1_symm_val DD 256 rfl rfl k
  have el : DD.lhsIdx (ix2 p j) ((contrEquiv1 DD 256 rfl rfl).symm k) = ix2 p k := funext fun ax => Fin.ext (by
    match ax with
    | ⟨0, _⟩ => exact lhs_row _ _
    | ⟨1, _⟩ => exact (lhs_col _ _).trans hk)
  have er : DD.rhsIdx (ix2 p j) ((contrEquiv1 DD 256 rfl rfl).symm k) = ix2 k j := funext fun ax => Fin.ext (by
    match ax with
    | ⟨0, _⟩ => exact (rhs_row _ _).trans hk
    | ⟨1, _⟩ => exact rhs_col _ _)
  rw [el, er]

/-- A row of 256 entries broadcast over 4000 rows reads, at (p, j), the row at j. -/
theorem bcast_row {α : Type} (v : S1x256.Idx → α) (p : Fin 4000) (j : Fin 256) :
    broadcastTo S4000x256 v broadcasts_S1x256_S4000x256 (ix2 p j) = v (ix2 (0 : Fin 1) j) :=
  broadcastTo_1b_ab_apply v broadcasts_S1x256_S4000x256 p j

/-- A column of 4000 entries broadcast over 256 columns reads, at (p, j), the column at p. -/
theorem bcast_col {α : Type} (v : S4000x1.Idx → α) (p : Fin 4000) (j : Fin 256) :
    broadcastTo S4000x256 v broadcasts_S4000x1_S4000x256 (ix2 p j) = v (ix2 p (0 : Fin 1)) := by
  refine broadcastTo_apply v broadcasts_S4000x1_S4000x256 (ix2 p j) (ix2 p (0 : Fin 1)) fun ax => ?_
  match ax with
  | ⟨0, _⟩ =>
    show p.val = if (4000 : Nat) = 1 then 0 else p.val
    rw [if_neg (by decide)]
  | ⟨1, _⟩ => rfl

/-- A vector of 4000 entries viewed as a column reads, at (p, 0), the vector at p. -/
theorem cast_col {α : Type} (u : S4000.Idx → α) (p : Fin 4000) :
    shapeCast S4000x1 u shapeCasts_S4000_S4000x1 (ix2 p (0 : Fin 1)) = u (ix1 p) :=
  shapeCast_apply u shapeCasts_S4000_S4000x1 _ _ (by
    rw [Shape.rowMajor_val_two, Shape.rowMajor_val_one]
    show p.val = p.val * 1 + 0
    omega)

/-- The sum along a row: the lane reduction of a [4000, 256] vector at p is the sum over k of its (p, k) entries. -/
theorem lane_sum (src : FVec Ideal S4000x256 .f32) (hacc : (0x00000000#32 : BitVec 32) = 0x00000000#32) (p : Fin 4000) :
    multiReduction (F := Ideal) .add [1] S4000 src 0x00000000#32 reduces_S4000x256_S4000 (.inl rfl) hacc (ix1 p)
      = ∑ k : Fin 256, src (ix2 p k) := by
  refine (Ideal.multiReduction_add_single src 0x00000000#32 reduces_S4000x256_S4000 (.inl rfl) hacc (ix1 p)).trans ?_
  refine Finset.sum_congr rfl fun k _ => congrArg src (funext fun ax => Fin.ext ?_)
  match ax with
  | ⟨0, _⟩ => rfl
  | ⟨1, _⟩ => rfl

/-! ## The two layers -/

/-- The first layer at (p, j): the two partial products, the offset, and the leaky slope. -/
theorem hidden_at (a0 : FVec Ideal S4000x256 .bf16) (a1 : FVec Ideal S4000x256 .f32) (w0 w1 : FVec Ideal S256x256 .bf16)
    (b : FVec Ideal S1x256 .f32) (p : Fin 4000) (j : Fin 256) :
    (select
        (cmpf .ogt
          (addf (addf (matmul DD none a0 w0 (constant (F := Ideal) S4000x256 .f32 0x00000000#32))
              (matmul DD none (truncf .bf16 a1 bitsLt_bf16_f32) w1 (constant (F := Ideal) S4000x256 .f32 0x00000000#32)))
            (broadcastTo S4000x256 b broadcasts_S1x256_S4000x256))
          (broadcast S4000x256 (Scalar.ofBits (F := Ideal) .f32 0x00000000#32)))
        (addf (addf (matmul DD none a0 w0 (constant (F := Ideal) S4000x256 .f32 0x00000000#32))
              (matmul DD none (truncf .bf16 a1 bitsLt_bf16_f32) w1 (constant (F := Ideal) S4000x256 .f32 0x00000000#32)))
            (broadcastTo S4000x256 b broadcasts_S1x256_S4000x256))
        (mulf (broadcast S4000x256 (Scalar.ofBits (F := Ideal) .f32 0x3DCCCCCD#32))
          (addf (addf (matmul DD none a0 w0 (constant (F := Ideal) S4000x256 .f32 0x00000000#32))
              (matmul DD none (truncf .bf16 a1 bitsLt_bf16_f32) w1 (constant (F := Ideal) S4000x256 .f32 0x00000000#32)))
            (broadcastTo S4000x256 b broadcasts_S1x256_S4000x256)))) (ix2 p j)
      = Cert.Layer.nodeHidden (fun k => a0 (ix2 p k)) (fun k => a1 (ix2 p k)) (fun k j => w0 (ix2 k j)) (fun k j => w1 (ix2 k j))
          (fun j => b (ix2 (0 : Fin 1) j)) j := by
  have h15 : (addf (addf (matmul DD none a0 w0 (constant (F := Ideal) S4000x256 .f32 0x00000000#32))
              (matmul DD none (truncf .bf16 a1 bitsLt_bf16_f32) w1 (constant (F := Ideal) S4000x256 .f32 0x00000000#32)))
            (broadcastTo S4000x256 b broadcasts_S1x256_S4000x256)) (ix2 p j)
        = ((∑ k : Fin 256, a0 (ix2 p k) * w0 (ix2 k j)) + (∑ k : Fin 256, a1 (ix2 p k) * w1 (ix2 k j))) + b (ix2 (0 : Fin 1) j) :=
    congrArg₂ (· + ·) (congrArg₂ (· + ·) (matmul_at a0 w0 p j) (matmul_at (truncf .bf16 a1 bitsLt_bf16_f32) w1 p j)) (bcast_row b p j)
  exact congrArg Cert.Layer.leaky h15

/-- The second layer's pre-activation at (p, j): the hidden row through the second weight, plus its offset. -/
theorem pay2_at (v0 : Vec Ideal S4000x256 .bf16) (v2 : Vec Ideal S4000x256 .f32) (v5 v8 : Vec Ideal S256x256 .bf16)
    (v12 : Vec Ideal S1x256 .f32) (v22 : Vec Ideal S256x256 .bf16) (v25 : Vec Ideal S1x256 .f32) (p : Fin 4000) (j : Fin 256) :
    k1_pay2 (F := Ideal) v0 v2 v5 v8 v12 v22 v25 (ix2 p j)
      = Cert.Layer.dense (Cert.Layer.nodeHidden (fun k => v0 (ix2 p k)) (fun k => v2 (ix2 p k)) (fun k j => v5 (ix2 k j))
          (fun k j => v8 (ix2 k j)) (fun j => v12 (ix2 (0 : Fin 1) j))) (fun k j => v22 (ix2 k j)) (fun j => v25 (ix2 (0 : Fin 1) j)) j := by
  unfold k1_pay2
  simp only [shapeCast_self]
  refine (congrArg₂ (· + ·) (matmul_at _ v22 p j) (bcast_row v25 p j)).trans ?_
  unfold Cert.Layer.dense
  refine congrArg (· + v25 (ix2 (0 : Fin 1) j)) (Finset.sum_congr rfl fun k _ => congrArg (· * v22 (ix2 k j)) ?_)
  exact hidden_at v0 v2 v5 v8 v12 p k

/-- The row sums the body keeps as a column: at (p, 0), the sum over k of the second layer's (p, k) entries. -/
theorem pay5_at (v0 : Vec Ideal S4000x256 .bf16) (v2 : Vec Ideal S4000x256 .f32) (v5 v8 : Vec Ideal S256x256 .bf16)
    (v12 : Vec Ideal S1x256 .f32) (v22 : Vec Ideal S256x256 .bf16) (v25 : Vec Ideal S1x256 .f32) (p : Fin 4000) :
    k1_pay5 (F := Ideal) v0 v2 v5 v8 v12 v22 v25 (ix2 p (0 : Fin 1))
      = ∑ k : Fin 256, k1_pay2 (F := Ideal) v0 v2 v5 v8 v12 v22 v25 (ix2 p k) := by
  unfold k1_pay5
  exact (cast_col _ p).trans (lane_sum _ rfl p)

/-! ## The normalisation -/

/-- A row entry minus the row's mean, the mean being the kept row sum over 256. -/
theorem centred_at (v : FVec Ideal S4000x256 .f32) (s : FVec Ideal S4000x1 .f32) (p : Fin 4000) (k : Fin 256) :
    subf v (broadcastTo S4000x256 (divf s (broadcast S4000x1 (Scalar.ofBits (F := Ideal) .f32 0x43800000#32)))
        broadcasts_S4000x1_S4000x256) (ix2 p k)
      = v (ix2 p k) - Ideal.div (s (ix2 p (0 : Fin 1))) Cert.Layer.width :=
  congrArg (v (ix2 p k) - ·) (bcast_col (divf s (broadcast S4000x1 (Scalar.ofBits (F := Ideal) .f32 0x43800000#32))) p k)

/-- The mean squared deviation of row p: the lane sum of the squared centred entries, over 256. -/
theorem variance_at (v : FVec Ideal S4000x256 .f32) (s : FVec Ideal S4000x1 .f32) (p : Fin 4000) :
    divf
        (shapeCast S4000x1
          (multiReduction (F := Ideal) .add [1] S4000
            (mulf
              (subf v (broadcastTo S4000x256 (divf s (broadcast S4000x1 (Scalar.ofBits (F := Ideal) .f32 0x43800000#32))) broadcasts_S4000x1_S4000x256))
              (subf v (broadcastTo S4000x256 (divf s (broadcast S4000x1 (Scalar.ofBits (F := Ideal) .f32 0x43800000#32))) broadcasts_S4000x1_S4000x256)))
            0x00000000#32 reduces_S4000x256_S4000 (.inl rfl) rfl)
          shapeCasts_S4000_S4000x1)
        (broadcast S4000x1 (Scalar.ofBits (F := Ideal) .f32 0x43800000#32)) (ix2 p (0 : Fin 1))
      = Ideal.div (∑ k : Fin 256, (v (ix2 p k) - Ideal.div (s (ix2 p (0 : Fin 1))) Cert.Layer.width)
          * (v (ix2 p k) - Ideal.div (s (ix2 p (0 : Fin 1))) Cert.Layer.width)) Cert.Layer.width :=
  congrArg (Ideal.div · Cert.Layer.width)
    ((cast_col _ p).trans ((lane_sum _ rfl p).trans
      (Finset.sum_congr rfl fun k _ => congrArg₂ (· * ·) (centred_at v s p k) (centred_at v s p k))))

/-- The body's last value at (p, q): the centred entry times the reciprocal root of (variance + eps), times the gain,
    plus the offset — with the row's mean taken from the kept row sum. -/
theorem pay1_at (v28 : FVec Ideal S4000x256 .f32) (v30 v32 : FVec Ideal S1x256 .f32) (v34 : FVec Ideal S4000x1 .f32)
    (p : Fin 4000) (q : Fin 256) :
    k1_pay1 (F := Ideal) v28 v30 v32 v34 (ix2 p q)
      = (v28 (ix2 p q) - Ideal.div (v34 (ix2 p (0 : Fin 1))) Cert.Layer.width)
          * Ideal.rsqrt (Ideal.div (∑ k : Fin 256, (v28 (ix2 p k) - Ideal.div (v34 (ix2 p (0 : Fin 1))) Cert.Layer.width)
              * (v28 (ix2 p k) - Ideal.div (v34 (ix2 p (0 : Fin 1))) Cert.Layer.width)) Cert.Layer.width + Cert.Layer.eps)
          * v30 (ix2 (0 : Fin 1) q) + v32 (ix2 (0 : Fin 1) q) := by
  unfold k1_pay1
  exact congrArg₂ (· + ·)
    (congrArg₂ (· * ·)
      (congrArg₂ (· * ·) (centred_at v28 v34 p q)
        ((bcast_col _ p q).trans (congrArg (fun t => Ideal.rsqrt (t + Cert.Layer.eps)) (variance_at v28 v34 p))))
      (bcast_row v30 p q))
    (bcast_row v32 p q)

/-! ## The body's output block -/

/-- The offsets of every access of the body are zero. -/
theorem offsets_zero : (![0, 0] : Fin 2 → Nat) = fun _ => 0 :=
  funext fun a => match a with | ⟨0, _⟩ => rfl | ⟨1, _⟩ => rfl

/-- What the node body leaves in its output block, at row p and column q, is the node stage's row function of row p
    of the two feature blocks and of the weights, at q: the second layer of the leaky first layer, normalised along the
    row with the mean and the mean squared deviation taken over the row's 256 entries. -/
theorem nodeOut_block (x0 : Vec Ideal S4000x256 .bf16) (x1 : Vec Ideal S4000x256 .f32) (x2 x3 : Vec Ideal S256x256 .bf16) (x4 : Vec Ideal S1x256 .f32) (x5 : Vec Ideal S256x256 .bf16) (x6 x7 x8 : Vec Ideal S1x256 .f32) (p : Fin 4000) (q : Fin 256) :
    Gen.out1_9 (F := Ideal) x0 x1 x2 x3 x4 x5 x6 x7 x8 (ix2 p q) =
      Cert.Layer.nodeOut (fun k => x0 (ix2 p k)) (fun k => x1 (ix2 p k)) (fun k j => x2 (ix2 k j)) (fun k j => x3 (ix2 k j))
        (fun j => x4 (ix2 (0 : Fin 1) j)) (fun k j => x5 (ix2 k j)) (fun j => x6 (ix2 (0 : Fin 1) j)) (fun j => x7 (ix2 (0 : Fin 1) j))
        (fun j => x8 (ix2 (0 : Fin 1) j)) q := by
  unfold Gen.out1_9
  rw [View.canon_unit_zero offsets_zero]
  simp only [View.ld_unit_zero (S := S4000x256) offsets_zero, View.ld_unit_zero (S := S256x256) offsets_zero,
    View.ld_unit_zero (S := S1x256) offsets_zero]
  refine (pay1_at _ _ _ _ p q).trans ?_
  have h2 : ∀ k : Fin 256, k1_pay2 (F := Ideal) x0 x1 x2 x3 x4 x5 x6 (ix2 p k)
      = Cert.Layer.dense (Cert.Layer.nodeHidden (fun k => x0 (ix2 p k)) (fun k => x1 (ix2 p k)) (fun k j => x2 (ix2 k j))
          (fun k j => x3 (ix2 k j)) (fun j => x4 (ix2 (0 : Fin 1) j))) (fun k j => x5 (ix2 k j)) (fun j => x6 (ix2 (0 : Fin 1) j)) k :=
    fun k => pay2_at x0 x1 x2 x3 x4 x5 x6 p k
  have h5 : k1_pay5 (F := Ideal) x0 x1 x2 x3 x4 x5 x6 (ix2 p (0 : Fin 1))
      = ∑ k : Fin 256, Cert.Layer.dense (Cert.Layer.nodeHidden (fun k => x0 (ix2 p k)) (fun k => x1 (ix2 p k)) (fun k j => x2 (ix2 k j))
          (fun k j => x3 (ix2 k j)) (fun j => x4 (ix2 (0 : Fin 1) j))) (fun k j => x5 (ix2 k j)) (fun j => x6 (ix2 (0 : Fin 1) j)) k :=
    (pay5_at x0 x1 x2 x3 x4 x5 x6 p).trans (Finset.sum_congr rfl fun k _ => h2 k)
  have h3 : k1_pay3 (F := Ideal) x7 (ix2 (0 : Fin 1) q) = x7 (ix2 (0 : Fin 1) q) :=
    congrFun (shapeCast_self x7 shapeCasts_S1x256_S1x256) _
  have h4 : k1_pay4 (F := Ideal) x8 (ix2 (0 : Fin 1) q) = x8 (ix2 (0 : Fin 1) q) :=
    congrFun (shapeCast_self x8 shapeCasts_S1x256_S1x256) _
  unfold Cert.Layer.nodeOut Cert.Layer.rowNorm Cert.Layer.rowMean
  rw [h5, h3, h4]
  simp only [h2]

end Cert.KernelIdeal.NodeBody
end
-- ==== Proof.NodeArray.lean ====
/-
  The node stage's output array, from its blocks.

  The grid has five points; at point t the body reads block t (rows 4000 t … 4000 t + 3999) of the node features and of the
  aggregated edge features, the whole weight, offset and gain arrays, and writes back block t of the output. A block's
  element sits in its array, on each axis, at block index × block size + its coordinate inside the block; the block indices
  are decided once over the five points. Row p of what point t writes back is therefore the node stage's row function of
  row 4000 t + p of the two feature arrays, which is block t of the node-update array; the five blocks cover the 20000
  rows (row r lies in block r / 4000), so the output array ends as the node-update array.
-/
import proofs.«140590_j6975026888916_1_alg».proof.Proof.Gen.KernelIdeal.Frame
import proofs.«140590_j6975026888916_1_alg».proof.Proof.NodeBody
import proofs.«140590_j6975026888916_1_alg».proof.Proof.Arrays
import Idealize.ShloMosaic.Lib.ValueIdx
import Idealize.ShloMosaic.Lib.Pipeline.Value

noncomputable section
namespace Cert.KernelIdeal.NodeArray
open Cert.KernelIdeal Cert.KernelIdeal.Gen Idealize.ShloMosaic Idealize.ShloMosaic.ValueIdx Cert.Layer
open Idealize.ShloMosaic.TcCoe Idealize.SL.Sem
open Idealize.ShloMosaic.Pipeline (Dat)

variable (V : (c : Dev nD) → (b : Ref sig .tc) → Buf (Elt Ideal) ((c : Thread nD τ).loc b))

/-! ## Where each window's block sits in its array -/

/-- The grid has five points. -/
theorem five_points : cfg1.N = 5 := N_1

/-- The block index of every window at every grid point: the two feature windows and the output move down the rows
    with the point, block t at rows 4000 t … 4000 t + 3999; the weight, offset and gain windows stay at block (0, 0). -/
theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- Row p of block t is row 4000 t + p of the array. -/
theorem row_lt (t : Fin cfg1.N) (p : Fin 4000) : t.val * 4000 + p.val < 20000 := by
  have h1 : t.val < 5 := five_points ▸ t.isLt
  have h2 := p.isLt
  omega

/-- The node-feature block at point t, at (p, k), is the node-feature array at (4000 t + p, k). -/
theorem features_block (c : Dev nD) (t : Fin cfg1.N) (p : Fin 4000) (k : Fin 256) :
    (iblk1 V c 0 t : Vec Ideal S4000x256 .bf16) (ix2 p k)
      = (V c main_v4 : S20000x256.Idx → EReal) (ix2 (⟨t.val * 4000 + p.val, row_lt t p⟩ : Fin 20000) k) := by
  obtain ⟨⟨e0, e1⟩, -⟩ := block_index t
  unfold iblk1
  rw [View.read_apply]
  show V c main_v4 _ = V c main_v4 _
  congr 1
  funext a
  apply Fin.ext
  match a with
  | ⟨0, _⟩ => show win1_0.index t (0 : Fin 2) * 4000 + 1 * p.val = t.val * 4000 + p.val; rw [e0]; omega
  | ⟨1, _⟩ => show win1_0.index t (1 : Fin 2) * 256 + 1 * k.val = k.val; rw [e1]; omega

/-- The aggregated-edge-feature block at point t, at (p, k), is that array at (4000 t + p, k). -/
theorem aggregate_block (c : Dev nD) (t : Fin cfg1.N) (p : Fin 4000) (k : Fin 256) :
    (iblk1 V c 1 t : Vec Ideal S4000x256 .f32) (ix2 p k)
      = (V c main_v60 : S20000x256.Idx → EReal) (ix2 (⟨t.val * 4000 + p.val, row_lt t p⟩ : Fin 20000) k) := by
  obtain ⟨e0, e1⟩ := (block_index t).2.1
  unfold iblk1
  rw [View.read_apply]
  show V c main_v60 _ = V c main_v60 _
  congr 1
  funext a
  apply Fin.ext
  match a with
  | ⟨0, _⟩ => show win1_1.index t (0 : Fin 2) * 4000 + 1 * p.val = t.val * 4000 + p.val; rw [e0]; omega
  | ⟨1, _⟩ => show win1_1.index t (1 : Fin 2) * 256 + 1 * k.val = k.val; rw [e1]; omega

/-- The block of the first weight's upper half is that whole 256 × 256 array, at every point. -/
theorem weight_top_block (c : Dev nD) (t : Fin cfg1.N) (k j : Fin 256) :
    (iblk1 V c 2 t : Vec Ideal S256x256 .bf16) (ix2 k j) = (V c main_v62 : S256x256.Idx → EReal) (ix2 k j) := by
  obtain ⟨e0, e1⟩ := (block_index t).2.2.1
  unfold iblk1
  rw [View.read_apply]
  show V c main_v62 _ = V c main_v62 _
  congr 1
  funext a
  apply Fin.ext
  match a with
  | ⟨0, _⟩ => show win1_2.index t (0 : Fin 2) * 256 + 1 * k.val = k.val; rw [e0]; omega
  | ⟨1, _⟩ => show win1_2.index t (1 : Fin 2) * 256 + 1 * j.val = j.val; rw [e1]; omega

/-- The block of the first weight's lower half is that whole 256 × 256 array, at every point. -/
theorem weight_bottom_block (c : Dev nD) (t : Fin cfg1.N) (k j : Fin 256) :
    (iblk1 V c 3 t : Vec Ideal S256x256 .bf16) (ix2 k j) = (V c main_v64 : S256x256.Idx → EReal) (ix2 k j) := by
  obtain ⟨e0, e1⟩ := (block_index t).2.2.2.1
  unfold iblk1
  rw [View.read_apply]
  show V c main_v64 _ = V c main_v64 _
  congr 1
  funext a
  apply Fin.ext
  match a with
  | ⟨0, _⟩ => show win1_3.index t (0 : Fin 2) * 256 + 1 * k.val = k.val; rw [e0]; omega
  | ⟨1, _⟩ => show win1_3.index t (1 : Fin 2) * 256 + 1 * j.val = j.val; rw [e1]; omega

/-- The block of the first offset is that whole row, at every point. -/
theorem offset1_block (c : Dev nD) (t : Fin cfg1.N) (j : Fin 256) :
    (iblk1 V c 4 t : Vec Ideal S1x256 .f32) (ix2 (0 : Fin 1) j) = (V c main_v65 : S1x256.Idx → EReal) (ix2 (0 : Fin 1) j) := by
  obtain ⟨e0, e1⟩ := (block_index t).2.2.2.2.1
  unfold iblk1
  rw [View.read_apply]
  show V c main_v65 _ = V c main_v65 _
  congr 1
  funext a
  apply Fin.ext
  match a with
  | ⟨0, _⟩ => show win1_4.index t (0 : Fin 2) * 1 + 1 * 0 = 0; rw [e0]
  | ⟨1, _⟩ => show win1_4.index t (1 : Fin 2) * 256 + 1 * j.val = j.val; rw [e1]; omega

/-- The block of the second weight is that whole 256 × 256 array, at every point. -/
theorem weight2_block (c : Dev nD) (t : Fin cfg1.N) (k j : Fin 256) :
    (iblk1 V c 5 t : Vec Ideal S256x256 .bf16) (ix2 k j) = (V c main_v66 : S256x256.Idx → EReal) (ix2 k j) := by
  obtain ⟨e0, e1⟩ := (block_index t).2.2.2.2.2.1
  unfold iblk1
  rw [View.read_apply]
  show V c main_v66 _ = V c main_v66 _
  congr 1
  funext a
  apply Fin.ext
  match a with
  | ⟨0, _⟩ => show win1_5.index t (0 : Fin 2) * 256 + 1 * k.val = k.val; rw [e0]; omega
  | ⟨1, _⟩ => show win1_5.index t (1 : Fin 2) * 256 + 1 * j.val = j.val; rw [e1]; omega

/-- The block of the second offset is that whole row, at every point. -/
theorem offset2_block (c : Dev nD) (t : Fin cfg1.N) (j : Fin 256) :
    (iblk1 V c 6 t : Vec Ideal S1x256 .f32) (ix2 (0 : Fin 1) j) = (V c main_v67 : S1x256.Idx → EReal) (ix2 (0 : Fin 1) j) := by
  obtain ⟨e0, e1⟩ := (block_index t).2.2.2.2.2.2.1
  unfold iblk1
  rw [View.read_apply]
  show V c main_v67 _ = V c main_v67 _
  congr 1
  funext a
  apply Fin.ext
  match a with
  | ⟨0, _⟩ => show win1_6.index t (0 : Fin 2) * 1 + 1 * 0 = 0; rw [e0]
  | ⟨1, _⟩ => show win1_6.index t (1 : Fin 2) * 256 + 1 * j.val = j.val; rw [e1]; omega

/-- The block of the norm's gain is that whole row, at every point. -/
theorem gain_block (c : Dev nD) (t : Fin cfg1.N) (j : Fin 256) :
    (iblk1 V c 7 t : Vec Ideal S1x256 .f32) (ix2 (0 : Fin 1) j) = (V c main_v68 : S1x256.Idx → EReal) (ix2 (0 : Fin 1) j) := by
  obtain ⟨e0, e1⟩ := (block_index t).2.2.2.2.2.2.2.1
  unfold iblk1
  rw [View.read_apply]
  show V c main_v68 _ = V c main_v68 _
  congr 1
  funext a
  apply Fin.ext
  match a with
  | ⟨0, _⟩ => show win1_7.index t (0 : Fin 2) * 1 + 1 * 0 = 0; rw [e0]
  | ⟨1, _⟩ => show win1_7.index t (1 : Fin 2) * 256 + 1 * j.val = j.val; rw [e1]; omega

/-- The block of the norm's offset is that whole row, at every point. -/
theorem shift_block (c : Dev nD) (t : Fin cfg1.N) (j : Fin 256) :
    (iblk1 V c 8 t : Vec Ideal S1x256 .f32) (ix2 (0 : Fin 1) j) = (V c main_v69 : S1x256.Idx → EReal) (ix2 (0 : Fin 1) j) := by
  obtain ⟨e0, e1⟩ := (block_index t).2.2.2.2.2.2.2.2.1
  unfold iblk1
  rw [View.read_apply]
  show V c main_v69 _ = V c main_v69 _
  congr 1
  funext a
  apply Fin.ext
  match a with
  | ⟨0, _⟩ => show win1_8.index t (0 : Fin 2) * 1 + 1 * 0 = 0; rw [e0]
  | ⟨1, _⟩ => show win1_8.index t (1 : Fin 2) * 256 + 1 * j.val = j.val; rw [e1]; omega

/-! ## What each point writes back, and the whole array -/

/-- The node stage's row function depends only on the rows and weights it is given. -/
theorem nodeOut_congr {h h' ag ag' : Fin 256 → EReal} {Wh Wh' Wa Wa' : Fin 256 → Fin 256 → EReal} {b1 b1' : Fin 256 → EReal}
    {W2 W2' : Fin 256 → Fin 256 → EReal} {b2 b2' g g' beta beta' : Fin 256 → EReal}
    (e0 : h = h') (e1 : ag = ag') (e2 : Wh = Wh') (e3 : Wa = Wa') (e4 : b1 = b1') (e5 : W2 = W2') (e6 : b2 = b2') (e7 : g = g')
    (e8 : beta = beta') (q : Fin 256) :
    nodeOut h ag Wh Wa b1 W2 b2 g beta q = nodeOut h' ag' Wh' Wa' b1' W2' b2' g' beta' q := by
  subst e0 e1 e2 e3 e4 e5 e6 e7 e8; rfl

/-- An index of the output array is in point t's block iff each coordinate is in the block's range on its axis. -/
theorem mem_block (t : Fin cfg1.N) (i : S20000x256.Idx) :
    i ∈ ((cfg1.win 9).blk t).view.set ↔ ∀ a : Fin 2, win1_9.index t a * S4000x256.size a ≤ (i a).val
      ∧ (i a).val < win1_9.index t a * S4000x256.size a + S4000x256.size a := by
  show i ∈ ((View.whole main_v70).slice (win1_9.rect t)).set ↔ _
  rw [View.set_slice_whole, Rect.mem_set_unit]
  exact Iff.rfl

section
variable (c : Dev nD) (H AG : Mat 20000 256) (W9 : Mat 512 256) (b10 : Vect 256) (W11 : Mat 256 256) (b12 g13 b14 : Vect 256)

/-- What point t writes back is block t of the node-update array: row p of the block is the node stage's row function
    of row 4000 t + p of the node features and of the aggregated edge features. -/
theorem flushed_eq
    (h0 : V c main_v4 = H) (h1 : V c main_v60 = AG)
    (h2 : ∀ k j : Fin 256, V c main_v62 (ix2 k j) = W9 (ix2 (⟨k.val, by omega⟩ : Fin 512) j))
    (h3 : ∀ k j : Fin 256, V c main_v64 (ix2 k j) = W9 (ix2 (⟨256 + k.val, by omega⟩ : Fin 512) j))
    (h4 : ∀ j : Fin 256, V c main_v65 (ix2 (0 : Fin 1) j) = b10 (ix1 j))
    (h5 : ∀ k j : Fin 256, V c main_v66 (ix2 k j) = W11 (ix2 k j))
    (h6 : ∀ j : Fin 256, V c main_v67 (ix2 (0 : Fin 1) j) = b12 (ix1 j))
    (h7 : ∀ j : Fin 256, V c main_v68 (ix2 (0 : Fin 1) j) = g13 (ix1 j))
    (h8 : ∀ j : Fin 256, V c main_v69 (ix2 (0 : Fin 1) j) = b14 (ix1 j)) (t : Fin cfg1.N) :
    (dat1 V c).flushed 9 t = ((cfg1.win 9).blk t).view.read (Elt Ideal) (nodeArr H AG W9 b10 W11 b12 g13 b14) := by
  show (cfg1.win 9).cut (grid1.coords t) ((dat1 V c).after 9 t) = _
  rw [after1_9]
  funext (j : S4000x256.Idx)
  obtain ⟨p, q, rfl⟩ : ∃ (p : Fin 4000) (q : Fin 256), j = ix2 p q := ⟨j 0, j 1, eq_ix2 j⟩
  obtain ⟨e0, e1⟩ := (block_index t).2.2.2.2.2.2.2.2.2
  have hemb : ((cfg1.win 9).blk t).view.emb (ix2 p q) = ix2 (⟨t.val * 4000 + p.val, row_lt t p⟩ : Fin 20000) q := by
    funext a
    apply Fin.ext
    match a with
    | ⟨0, _⟩ => show win1_9.index t (0 : Fin 2) * 4000 + 1 * p.val = t.val * 4000 + p.val; rw [e0]; omega
    | ⟨1, _⟩ => show win1_9.index t (1 : Fin 2) * 256 + 1 * q.val = q.val; rw [e1]; omega
  show out1_9 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (ix2 p q)
    = nodeArr H AG W9 b10 W11 b12 g13 b14 (((cfg1.win 9).blk t).view.emb (ix2 p q))
  rw [hemb]
  refine (NodeBody.nodeOut_block _ _ _ _ _ _ _ _ _ p q).trans ?_
  show _ = nodeOut (fun k => H (ix2 (⟨t.val * 4000 + p.val, row_lt t p⟩ : Fin 20000) k))
    (fun k => AG (ix2 (⟨t.val * 4000 + p.val, row_lt t p⟩ : Fin 20000) k))
    (fun k j => W9 (ix2 (⟨k.val, by omega⟩ : Fin 512) j)) (fun k j => W9 (ix2 (⟨256 + k.val, by omega⟩ : Fin 512) j))
    (fun j => b10 (ix1 j)) (fun k j => W11 (ix2 k j)) (fun j => b12 (ix1 j)) (fun j => g13 (ix1 j)) (fun j => b14 (ix1 j)) q
  refine nodeOut_congr ?_ ?_ ?_ ?_ ?_ ?_ ?_ ?_ ?_ q
  · funext k; exact (features_block V c t p k).trans (congrFun h0 _)
  · funext k; exact (aggregate_block V c t p k).trans (congrFun h1 _)
  · funext k j; exact (weight_top_block V c t k j).trans (h2 k j)
  · funext k j; exact (weight_bottom_block V c t k j).trans (h3 k j)
  · funext j; exact (offset1_block V c t j).trans (h4 j)
  · funext k j; exact (weight2_block V c t k j).trans (h5 k j)
  · funext j; exact (offset2_block V c t j).trans (h6 j)
  · funext j; exact (gain_block V c t j).trans (h7 j)
  · funext j; exact (shift_block V c t j).trans (h8 j)

/-- Every row of the output array is in some point's block: row r is in block r / 4000. -/
theorem covered (i : S20000x256.Idx) :
    ∃ t : Fin cfg1.N, (cfg1.win 9).flush t = true ∧ i ∈ ((cfg1.win 9).blk t).view.set := by
  have hi0 : (i 0).val < 20000 := (i 0).isLt
  have hi1 : (i 1).val < 256 := (i 1).isLt
  have hN : cfg1.N = 5 := five_points
  let t : Fin cfg1.N := ⟨(i 0).val / 4000, by rw [hN]; omega⟩
  have ht : t.val = (i 0).val / 4000 := rfl
  obtain ⟨e0, e1⟩ := (block_index t).2.2.2.2.2.2.2.2.2
  refine ⟨t, flush1_9 t, ?_⟩
  rw [mem_block]
  intro a
  match a with
  | ⟨0, _⟩ =>
    show win1_9.index t (0 : Fin 2) * 4000 ≤ (i 0).val ∧ (i 0).val < win1_9.index t (0 : Fin 2) * 4000 + 4000
    rw [e0, ht]; omega
  | ⟨1, _⟩ =>
    show win1_9.index t (1 : Fin 2) * 256 ≤ (i 1).val ∧ (i 1).val < win1_9.index t (1 : Fin 2) * 256 + 256
    rw [e1]; omega

/-- After all five points the node kernel's output array is the node-update array of the arrays the region was entered
    with: the blocks written back are its blocks, and they cover it. -/
theorem node_array
    (h0 : V c main_v4 = H) (h1 : V c main_v60 = AG)
    (h2 : ∀ k j : Fin 256, V c main_v62 (ix2 k j) = W9 (ix2 (⟨k.val, by omega⟩ : Fin 512) j))
    (h3 : ∀ k j : Fin 256, V c main_v64 (ix2 k j) = W9 (ix2 (⟨256 + k.val, by omega⟩ : Fin 512) j))
    (h4 : ∀ j : Fin 256, V c main_v65 (ix2 (0 : Fin 1) j) = b10 (ix1 j))
    (h5 : ∀ k j : Fin 256, V c main_v66 (ix2 k j) = W11 (ix2 k j))
    (h6 : ∀ j : Fin 256, V c main_v67 (ix2 (0 : Fin 1) j) = b12 (ix1 j))
    (h7 : ∀ j : Fin 256, V c main_v68 (ix2 (0 : Fin 1) j) = g13 (ix1 j))
    (h8 : ∀ j : Fin 256, V c main_v69 (ix2 (0 : Fin 1) j) = b14 (ix1 j)) :
    (dat1 V c).arrAt 9 cfg1.N = nodeArr H AG W9 b10 W11 b12 g13 b14 :=
  (dat1 V c).arrAt_eq_of_cover 9 (nodeArr H AG W9 b10 W11 b12 g13 b14)
    (fun t _ => flushed_eq V c H AG W9 b10 W11 b12 g13 b14 h0 h1 h2 h3 h4 h5 h6 h7 h8 t) covered

end

end Cert.KernelIdeal.NodeArray
end
-- ==== Proof.OperandReads.lean ====
/-
  The kernel program's operand arrays, read one entry at a time.

  Before its two kernels run, the program cuts the weight matrices into row blocks, narrows them to a shorter float
  format, views offset vectors as one-row matrices, and joins the relative coordinates (three columns) with the
  distance (one column) into a four-column array. On the extended reals a change of float format is the identity,
  so each of these arrays, read at an index, is an entry of the array it was made from:

  * rows [o, o + 256) of a matrix, at (k, j), are the matrix at (o + k, j); its last row, at (0, j), is the matrix
    at (512, j);
  * a vector viewed as a one-row matrix, at (0, j), is the vector at j;
  * a narrowed matrix at an index is the matrix there;
  * the four-column join at a column below 3 is the coordinates' column, at column 3 the distance.
-/
import proofs.«140590_j6975026888916_1_alg».proof.KernelIdeal
import Idealize.ShloMosaic.Lib.ValueIdx
import Idealize.ShloMosaic.Lib.Pipeline.Value
import Idealize.ShloMosaic.Lib.ValueLayout

noncomputable section
namespace Cert.KernelIdeal.OperandReads
open Cert.KernelIdeal Idealize.ShloMosaic Idealize.ShloMosaic.ValueIdx

variable [Facts₀]
open Facts₀

/-! ## Row blocks of the 513-row weight matrix -/

/-- Rows 0..255 of the 513-row matrix, narrowed: at (k, j) the matrix at (k, j). -/
theorem slice_top (A : FVec Ideal S513x256 .f32) (k j : Fin 256) :
    (truncf .bf16 (extractStridedSlice S256x256 ![0, 0] A slices_S513x256_S256x256_0_0) bitsLt_bf16_f32 : FVec Ideal S256x256 .bf16) (ix2 k j) = A (ix2 (⟨k.val, by omega⟩ : Fin 513) j) :=
  (truncf_apply (ψ := .bf16) (extractStridedSlice S256x256 ![0, 0] A slices_S513x256_S256x256_0_0 : FVec Ideal S256x256 .f32)
      bitsLt_bf16_f32 (ix2 k j)).trans
    (slice2_axis0_apply 0 A slices_S513x256_S256x256_0_0 k j ⟨k.val, by omega⟩ (by show k.val = 0 + k.val; omega))

/-- Rows 256..511 of the 513-row matrix, narrowed: at (k, j) the matrix at (256 + k, j). -/
theorem slice_mid (A : FVec Ideal S513x256 .f32) (k j : Fin 256) :
    (truncf .bf16 (extractStridedSlice S256x256 ![256, 0] A slices_S513x256_S256x256_256_0) bitsLt_bf16_f32 : FVec Ideal S256x256 .bf16) (ix2 k j) = A (ix2 (⟨256 + k.val, by omega⟩ : Fin 513) j) :=
  (truncf_apply (ψ := .bf16) (extractStridedSlice S256x256 ![256, 0] A slices_S513x256_S256x256_256_0 : FVec Ideal S256x256 .f32)
      bitsLt_bf16_f32 (ix2 k j)).trans
    (slice2_axis0_apply 256 A slices_S513x256_S256x256_256_0 k j ⟨256 + k.val, by omega⟩ rfl)

/-- The last row of the 513-row matrix: at (0, j) the matrix at (512, j). -/
theorem slice_last (A : FVec Ideal S513x256 .f32) (j : Fin 256) :
    (extractStridedSlice S1x256 ![512, 0] A slices_S513x256_S1x256_512_0 : FVec Ideal S1x256 .f32) (ix2 (0 : Fin 1) j) = A (ix2 (⟨512, by omega⟩ : Fin 513) j) :=
  slice2_axis0_apply 512 A slices_S513x256_S1x256_512_0 (0 : Fin 1) j ⟨512, by omega⟩ rfl

/-! ## The two halves of the 512-row weight matrix -/

/-- Rows 0..255 of the 512-row matrix, narrowed: at (k, j) the matrix at (k, j). -/
theorem slice_top2 (A : FVec Ideal S512x256 .f32) (k j : Fin 256) :
    (truncf .bf16 (extractStridedSlice S256x256 ![0, 0] A slices_S512x256_S256x256_0_0) bitsLt_bf16_f32 : FVec Ideal S256x256 .bf16) (ix2 k j) = A (ix2 (⟨k.val, by omega⟩ : Fin 512) j) :=
  (truncf_apply (ψ := .bf16) (extractStridedSlice S256x256 ![0, 0] A slices_S512x256_S256x256_0_0 : FVec Ideal S256x256 .f32)
      bitsLt_bf16_f32 (ix2 k j)).trans
    (slice2_axis0_apply 0 A slices_S512x256_S256x256_0_0 k j ⟨k.val, by omega⟩ (by show k.val = 0 + k.val; omega))

/-- Rows 256..511 of the 512-row matrix, narrowed: at (k, j) the matrix at (256 + k, j). -/
theorem slice_bot2 (A : FVec Ideal S512x256 .f32) (k j : Fin 256) :
    (truncf .bf16 (extractStridedSlice S256x256 ![256, 0] A slices_S512x256_S256x256_256_0) bitsLt_bf16_f32 : FVec Ideal S256x256 .bf16) (ix2 k j) = A (ix2 (⟨256 + k.val, by omega⟩ : Fin 512) j) :=
  (truncf_apply (ψ := .bf16) (extractStridedSlice S256x256 ![256, 0] A slices_S512x256_S256x256_256_0 : FVec Ideal S256x256 .f32)
      bitsLt_bf16_f32 (ix2 k j)).trans
    (slice2_axis0_apply 256 A slices_S512x256_S256x256_256_0 k j ⟨256 + k.val, by omega⟩ rfl)

/-! ## Vectors as one-row matrices, and narrowed matrices -/

/-- A vector of 256 entries viewed as a 1 × 256 matrix: at (0, j) the vector at j. -/
theorem row_of_vec (b : FVec Ideal S256 .f32) (j : Fin 256) :
    (shapeCast S1x256 b shapeCasts_S256_S1x256 : FVec Ideal S1x256 .f32) (ix2 (0 : Fin 1) j) = b (ix1 j) :=
  shapeCast_a_1a_apply b shapeCasts_S256_S1x256 (0 : Fin 1) j

/-- A narrowed 256 × 256 matrix at (k, j) is the matrix there. -/
theorem trunc_sq (A : FVec Ideal S256x256 .f32) (k j : Fin 256) : (truncf .bf16 A bitsLt_bf16_f32 : FVec Ideal S256x256 .bf16) (ix2 k j) = A (ix2 k j) :=
  truncf_apply _ _ _

/-- A narrowed column of 256 entries at (k, 0) is the column there. -/
theorem trunc_col (A : FVec Ideal S256x1 .f32) (k : Fin 256) : (truncf .bf16 A bitsLt_bf16_f32 : FVec Ideal S256x1 .bf16) (ix2 k (0 : Fin 1)) = A (ix2 k (0 : Fin 1)) :=
  truncf_apply _ _ _

/-! ## The join (relative coordinates | distance) -/

/-- At a column below 3 the four-column join reads the relative coordinates at that column. -/
theorem rel_coord (RC : FVec Ideal S320000x3 .f32) (RD : FVec Ideal S320000x1 .f32) (e : Fin 320000) (b : Fin 3) :
    (concatenate S320000x4 1 [⟨S320000x3, RC⟩, ⟨S320000x1, RD⟩] concatenates_S320000x3_S320000x1_S320000x4_d1 : FVec Ideal S320000x4 .f32) (ix2 e (⟨b.val, by omega⟩ : Fin 4)) = RC (ix2 e b) :=
  concatenate_pair_apply_left 1 RC RD concatenates_S320000x3_S320000x1_S320000x4_d1 _ rfl (ix2 e b) (fun c => by
    match c with
    | ⟨0, _⟩ => rfl
    | ⟨1, _⟩ => rfl)

/-- At column 3 the four-column join reads the distance. -/
theorem rel_dist (RC : FVec Ideal S320000x3 .f32) (RD : FVec Ideal S320000x1 .f32) (e : Fin 320000) :
    (concatenate S320000x4 1 [⟨S320000x3, RC⟩, ⟨S320000x1, RD⟩] concatenates_S320000x3_S320000x1_S320000x4_d1 : FVec Ideal S320000x4 .f32) (ix2 e (3 : Fin 4)) = RD (ix2 e (0 : Fin 1)) :=
  concatenate_pair_apply_right 1 RC RD concatenates_S320000x3_S320000x1_S320000x4_d1 _ rfl rfl (ix2 e (0 : Fin 1))
    (fun c hc => by
      match c with
      | ⟨0, _⟩ => rfl
      | ⟨1, _⟩ => exact absurd rfl hc)
    rfl

end Cert.KernelIdeal.OperandReads
end
-- ==== Proof.Results.lean ====
/-
  The idealized kernel program's two results as terms of its argument arrays.

  The edge region leaves, in its two output arrays, the edge-feature array and the coordinate-update array of the
  gathered operands (every block of 4000 edges is a restriction of one whole-array function, and the blocks cover
  the arrays). The host then sums both arrays into the nodes by the source index. The node region leaves the
  node-update array of the node features and the summed edge features. The results are the coordinates plus a scalar
  times the summed coordinate updates, and the features plus a scalar times the node update.
-/
import proofs.«140590_j6975026888916_1_alg».proof.Proof.Boundaries
import proofs.«140590_j6975026888916_1_alg».proof.Proof.EdgeArray
import proofs.«140590_j6975026888916_1_alg».proof.Proof.NodeArray
import proofs.«140590_j6975026888916_1_alg».proof.Proof.OperandReads
import proofs.«140590_j6975026888916_1_alg».proof.Proof.Arrays

set_option maxRecDepth 16384

noncomputable section

namespace Cert.KernelIdeal.Results

open Cert.KernelIdeal Cert.KernelIdeal.Gen Cert.KernelIdeal.Fold Cert.KernelIdeal.OperandReads
open Idealize.ShloMosaic Idealize.ShloMosaic.TcCoe Idealize.SL.Sem Idealize.ShloMosaic.StableHlo Idealize.ShloMosaic.ValueIdx
open Cert.Layer

variable (m : (ℓ : Loc nD τ sig) → Buf (Elt Ideal) ℓ) (ρ : Dev nD → PrngReg)

/-- The edge region's two output arrays: each operand array the region finds is a host term of the arguments, read
    at an index where the region's body reads it. -/
theorem edge_outputs (c : Dev nD) :
    (dat0 (V3 m ρ) c).arrAt 14 cfg0.N = edgeArr (srcFeat (m ((c : Thread nD τ).loc main_arg0)) (m ((c : Thread nD τ).loc main_arg2))) (dstFeat (m ((c : Thread nD τ).loc main_arg0)) (m ((c : Thread nD τ).loc main_arg2))) (relDist (m ((c : Thread nD τ).loc main_arg1)) (m ((c : Thread nD τ).loc main_arg2)))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ (dat0 (V3 m ρ) c).arrAt 15 cfg0.N = coordArr (srcFeat (m ((c : Thread nD τ).loc main_arg0)) (m ((c : Thread nD τ).loc main_arg2))) (dstFeat (m ((c : Thread nD τ).loc main_arg0)) (m ((c : Thread nD τ).loc main_arg2))) (relDist (m ((c : Thread nD τ).loc main_arg1)) (m ((c : Thread nD τ).loc main_arg2)))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (relCoords (m ((c : Thread nD τ).loc main_arg1)) (m ((c : Thread nD τ).loc main_arg2))) (m ((c : Thread nD τ).loc main_arg15)) (m ((c : Thread nD τ).loc main_arg16)) (m ((c : Thread nD τ).loc main_arg17)) :=
  EdgeArray.edge_arrays (V3 m ρ) c (srcFeat (m ((c : Thread nD τ).loc main_arg0)) (m ((c : Thread nD τ).loc main_arg2))) (dstFeat (m ((c : Thread nD τ).loc main_arg0)) (m ((c : Thread nD τ).loc main_arg2))) (relCoords (m ((c : Thread nD τ).loc main_arg1)) (m ((c : Thread nD τ).loc main_arg2)))
    (relDist (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg15)) (m ((c : Thread nD τ).loc main_arg16)) (m ((c : Thread nD τ).loc main_arg17))
    (V3_v11 m ρ c) (V3_v18 m ρ c)
    (fun e b => by rw [V3_v37]; exact rel_coord _ _ e b)
    (fun e => by rw [V3_v37]; exact rel_dist _ _ e)
    (fun k j => by rw [V3_v39]; exact slice_top _ k j)
    (fun k j => by rw [V3_v41]; exact slice_mid _ k j)
    (fun j => by rw [V3_v42]; exact slice_last _ j)
    (fun j => by rw [V3_v43]; exact row_of_vec _ j)
    (fun k j => by rw [V3_v44]; exact trunc_sq _ k j)
    (fun j => by rw [V3_v45]; exact row_of_vec _ j)
    (fun j => by rw [V3_v46]; exact row_of_vec _ j)
    (fun j => by rw [V3_v47]; exact row_of_vec _ j)
    (fun k j => by rw [V3_v48]; exact trunc_sq _ k j)
    (fun j => by rw [V3_v49]; exact row_of_vec _ j)
    (fun k => by rw [V3_v50]; exact trunc_col _ k)

/-- The node region's output array: the node update of the node features and of the edge features summed into the
    nodes. -/
theorem node_output (c : Dev nD) :
    (dat1 (V5 m ρ) c).arrAt 9 cfg1.N
      = nodeArr (m ((c : Thread nD τ).loc main_arg0)) (sumToNodes (m ((c : Thread nD τ).loc main_arg2)) (edgeArr (srcFeat (m ((c : Thread nD τ).loc main_arg0)) (m ((c : Thread nD τ).loc main_arg2))) (dstFeat (m ((c : Thread nD τ).loc main_arg0)) (m ((c : Thread nD τ).loc main_arg2))) (relDist (m ((c : Thread nD τ).loc main_arg1)) (m ((c : Thread nD τ).loc main_arg2)))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))
          (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  NodeArray.node_array (V5 m ρ) c (m ((c : Thread nD τ).loc main_arg0)) (sumToNodes (m ((c : Thread nD τ).loc main_arg2)) (edgeArr (srcFeat (m ((c : Thread nD τ).loc main_arg0)) (m ((c : Thread nD τ).loc main_arg2))) (dstFeat (m ((c : Thread nD τ).loc main_arg0)) (m ((c : Thread nD τ).loc main_arg2))) (relDist (m ((c : Thread nD τ).loc main_arg1)) (m ((c : Thread nD τ).loc main_arg2)))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))
    (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    ((V5_v4 m ρ c).trans (funext fun _ => rfl))
    (by rw [V5_v60, (edge_outputs m ρ c).1])
    (fun k j => by rw [V5_v62]; exact slice_top2 _ k j)
    (fun k j => by rw [V5_v64]; exact slice_bot2 _ k j)
    (fun j => by rw [V5_v65]; exact row_of_vec _ j)
    (fun k j => by rw [V5_v66]; exact trunc_sq _ k j)
    (fun j => by rw [V5_v67]; exact row_of_vec _ j)
    (fun j => by rw [V5_v68]; exact row_of_vec _ j)
    (fun j => by rw [V5_v69]; exact row_of_vec _ j)

/-- The feature result at the end of the run. -/
theorem features (c : Dev nD) :
    W7 m ρ c (Proc.devRef .tc main_v73)
      = residual (m ((c : Thread nD τ).loc main_arg0)) (m ((c : Thread nD τ).loc main_arg19))
          (nodeArr (m ((c : Thread nD τ).loc main_arg0)) (sumToNodes (m ((c : Thread nD τ).loc main_arg2)) (edgeArr (srcFeat (m ((c : Thread nD τ).loc main_arg0)) (m ((c : Thread nD τ).loc main_arg2))) (dstFeat (m ((c : Thread nD τ).loc main_arg0)) (m ((c : Thread nD τ).loc main_arg2))) (relDist (m ((c : Thread nD τ).loc main_arg1)) (m ((c : Thread nD τ).loc main_arg2)))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))
            (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  rw [W7_v73, node_output]

/-- The coordinate result at the end of the run. -/
theorem coords (c : Dev nD) :
    W7 m ρ c (Proc.devRef .tc main_v57)
      = residual3 (m ((c : Thread nD τ).loc main_arg1)) (m ((c : Thread nD τ).loc main_arg18))
          (sumToNodes3 (m ((c : Thread nD τ).loc main_arg2)) (coordArr (srcFeat (m ((c : Thread nD τ).loc main_arg0)) (m ((c : Thread nD τ).loc main_arg2))) (dstFeat (m ((c : Thread nD τ).loc main_arg0)) (m ((c : Thread nD τ).loc main_arg2))) (relDist (m ((c : Thread nD τ).loc main_arg1)) (m ((c : Thread nD τ).loc main_arg2)))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
            (relCoords (m ((c : Thread nD τ).loc main_arg1)) (m ((c : Thread nD τ).loc main_arg2))) (m ((c : Thread nD τ).loc main_arg15)) (m ((c : Thread nD τ).loc main_arg16)) (m ((c : Thread nD τ).loc main_arg17)))) := by
  rw [W7_v57, (edge_outputs m ρ c).2]

end Cert.KernelIdeal.Results

end
-- ==== Proof.RefEdge.lean ====
/-
  The reference's edge stage, read at one edge.

  For an edge e the reference forms the row (features of the source node, features of the target node, distance) of
  513 entries, contracts it with a 513 × 256 weight, adds an offset and applies the activation; a second affine layer
  and activation follow, then the normalisation of the row (mean, mean squared deviation, reciprocal root, gain,
  offset). The gate of the coordinate update is a further affine layer, the activation, and a product with a column
  of 256 weights; the update itself is the gate times the relative coordinate over the distance.

  Each array of the reference is read here at an index (e, q): a broadcast reads its operand at the same row or
  column, a contraction is the sum over its contracted index, a row sum is the sum over the row. The contraction
  over 513 columns splits into the sums over the three pieces of the concatenated row. The gathered rows and the
  distance stay opaque arrays throughout.
-/
import proofs.«140590_j6975026888916_1_alg».proof.Proof.RefStages
import proofs.«140590_j6975026888916_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section
namespace Cert.ReferenceIdeal.RefEdge
open Cert.ReferenceIdeal Cert.ReferenceIdeal.Read Idealize.ShloMosaic Idealize.ShloMosaic.ValueIdx

/-! ### Indices -/

/-- A rank-2 index is determined by the values of its two coordinates. -/
theorem ix2_ext {n0 n1 : Nat} (j : (⟨2, ![n0, n1]⟩ : Shape).Idx) (a : Fin n0) (b : Fin n1)
    (h0 : (j 0).val = a.val) (h1 : (j 1).val = b.val) : j = ix2 a b :=
  funext fun d => match d with
    | ⟨0, _⟩ => Fin.ext h0
    | ⟨1, _⟩ => Fin.ext h1

/-- A rank-1 index is determined by the value of its coordinate. -/
theorem ix1_ext {n : Nat} (j : (⟨1, ![n]⟩ : Shape).Idx) (a : Fin n) (h0 : (j 0).val = a.val) : j = ix1 a :=
  funext fun d => match d with
    | ⟨0, _⟩ => Fin.ext h0

/-! ### The activation -/

/-- Comparison with zero, product with a tenth, selection: the activation `leaky`. -/
theorem leaky_eq (x : EReal) :
    Scalar.select (FloatOps.cmpf (F := Ideal) (φ := .f32) .ogt x (FloatOps.ofBits (F := Ideal) .f32 0x00000000#32)) x
      (FloatOps.mulf (F := Ideal) (φ := .f32) (FloatOps.ofBits (F := Ideal) .f32 0x3DCCCCCD#32) x) = Cert.Layer.leaky x := rfl

/-! ### A concatenation of two blocks of 256 columns and one column, read on each piece -/

/-- Columns 0 … 255 come from the first piece. -/
theorem cat_left (A B : (⟨S320000x256, .f32⟩ : BufTy).Contents (Elt Ideal)) (C : (⟨S320000x1, .f32⟩ : BufTy).Contents (Elt Ideal)) (e : Fin 320000) (k : Fin 256) :
    concatenate S320000x513 1 [⟨S320000x256, A⟩, ⟨S320000x256, B⟩, ⟨S320000x1, C⟩] Gen.concatenates_S320000x256_S320000x256_S320000x1_S320000x513_d1 (ix2 e (⟨k.val, by omega⟩ : Fin 513)) = A (ix2 e k) := by
  exact concatenate_apply_piece (1 : Fin S320000x513.rank) [⟨S320000x256, A⟩, ⟨S320000x256, B⟩, ⟨S320000x1, C⟩] Gen.concatenates_S320000x256_S320000x256_S320000x1_S320000x513_d1
    (ix2 e (⟨k.val, by omega⟩ : Fin 513)) 0 (by show (0 : Nat) < 3; omega) S320000x256 A rfl rfl 0 rfl (ix2 e k)
    (fun b hb => match b, hb with
      | ⟨0, _⟩, _ => rfl
      | ⟨1, _⟩, hb => absurd rfl hb) (by show 0 + k.val = k.val; omega)

/-- Columns 256 … 511 come from the second piece. -/
theorem cat_mid (A B : (⟨S320000x256, .f32⟩ : BufTy).Contents (Elt Ideal)) (C : (⟨S320000x1, .f32⟩ : BufTy).Contents (Elt Ideal)) (e : Fin 320000) (k : Fin 256) :
    concatenate S320000x513 1 [⟨S320000x256, A⟩, ⟨S320000x256, B⟩, ⟨S320000x1, C⟩] Gen.concatenates_S320000x256_S320000x256_S320000x1_S320000x513_d1 (ix2 e (⟨256 + k.val, by omega⟩ : Fin 513)) = B (ix2 e k) := by
  exact concatenate_apply_piece (1 : Fin S320000x513.rank) [⟨S320000x256, A⟩, ⟨S320000x256, B⟩, ⟨S320000x1, C⟩] Gen.concatenates_S320000x256_S320000x256_S320000x1_S320000x513_d1
    (ix2 e (⟨256 + k.val, by omega⟩ : Fin 513)) 1 (by show (1 : Nat) < 3; omega) S320000x256 B rfl rfl 256 rfl (ix2 e k)
    (fun b hb => match b, hb with
      | ⟨0, _⟩, _ => rfl
      | ⟨1, _⟩, hb => absurd rfl hb) (by show 256 + k.val = 256 + k.val; rfl)

/-- Column 512 is the third piece's only column. -/
theorem cat_last (A B : (⟨S320000x256, .f32⟩ : BufTy).Contents (Elt Ideal)) (C : (⟨S320000x1, .f32⟩ : BufTy).Contents (Elt Ideal)) (e : Fin 320000) :
    concatenate S320000x513 1 [⟨S320000x256, A⟩, ⟨S320000x256, B⟩, ⟨S320000x1, C⟩] Gen.concatenates_S320000x256_S320000x256_S320000x1_S320000x513_d1 (ix2 e (⟨512, by omega⟩ : Fin 513)) = C (ix2 e (0 : Fin 1)) := by
  exact concatenate_apply_piece (1 : Fin S320000x513.rank) [⟨S320000x256, A⟩, ⟨S320000x256, B⟩, ⟨S320000x1, C⟩] Gen.concatenates_S320000x256_S320000x256_S320000x1_S320000x513_d1
    (ix2 e (⟨512, by omega⟩ : Fin 513)) 2 (by show (2 : Nat) < 3; omega) S320000x1 C rfl rfl 512 rfl (ix2 e (0 : Fin 1))
    (fun b hb => match b, hb with
      | ⟨0, _⟩, _ => rfl
      | ⟨1, _⟩, hb => absurd rfl hb) (by show 512 + 0 = 512; rfl)

section

variable (x0 : (⟨S20000x256, .f32⟩ : BufTy).Contents (Elt Ideal)) (x1 : (⟨S20000x3, .f32⟩ : BufTy).Contents (Elt Ideal))
  (x2 : (⟨S2x320000, .i32⟩ : BufTy).Contents (Elt Ideal)) (x3 : (⟨S513x256, .f32⟩ : BufTy).Contents (Elt Ideal))
  (x4 : (⟨S256, .f32⟩ : BufTy).Contents (Elt Ideal)) (x5 : (⟨S256x256, .f32⟩ : BufTy).Contents (Elt Ideal))
  (x6 x7 x8 : (⟨S256, .f32⟩ : BufTy).Contents (Elt Ideal)) (x15 : (⟨S256x256, .f32⟩ : BufTy).Contents (Elt Ideal))
  (x16 : (⟨S256, .f32⟩ : BufTy).Contents (Elt Ideal)) (x17 : (⟨S256x1, .f32⟩ : BufTy).Contents (Elt Ideal))

/-! ### The concatenated row (source features, target features, distance) -/

/-- Columns 0 … 255 of the concatenation are the source node's features. -/
theorem v36_left (e : Fin 320000) (k : Fin 256) :
    val_main_v36 (F := Ideal) x0 x1 x2 (ix2 e (⟨k.val, by omega⟩ : Fin 513)) = val_main_v28 (F := Ideal) x0 x2 (ix2 e k) := by
  unfold val_main_v36
  generalize val_main_v28 (F := Ideal) x0 x2 = A
  generalize val_main_v35 (F := Ideal) x0 x2 = B
  generalize val_main_v21 (F := Ideal) x1 x2 = C
  exact cat_left A B C e k

/-- Columns 256 … 511 are the target node's features. -/
theorem v36_mid (e : Fin 320000) (k : Fin 256) :
    val_main_v36 (F := Ideal) x0 x1 x2 (ix2 e (⟨256 + k.val, by omega⟩ : Fin 513)) = val_main_v35 (F := Ideal) x0 x2 (ix2 e k) := by
  unfold val_main_v36
  generalize val_main_v28 (F := Ideal) x0 x2 = A
  generalize val_main_v35 (F := Ideal) x0 x2 = B
  generalize val_main_v21 (F := Ideal) x1 x2 = C
  exact cat_mid A B C e k

/-- Column 512 is the distance. -/
theorem v36_last (e : Fin 320000) :
    val_main_v36 (F := Ideal) x0 x1 x2 (ix2 e (⟨512, by omega⟩ : Fin 513)) = val_main_v21 (F := Ideal) x1 x2 (ix2 e (0 : Fin 1)) := by
  unfold val_main_v36
  generalize val_main_v28 (F := Ideal) x0 x2 = A
  generalize val_main_v35 (F := Ideal) x0 x2 = B
  generalize val_main_v21 (F := Ideal) x1 x2 = C
  exact cat_last A B C e

/-! ### Small reads: broadcasts of the per-column vectors and of the constants -/

theorem v39_at (e : Fin 320000) (q : Fin 256) : val_main_v39 (F := Ideal) x4 (ix2 e q) = x4 (ix1 q) := by
  rw [val_main_v39_apply, val_main_v38_apply]
  exact congrArg x4 (ix1_ext _ q rfl)

theorem v48_at (e : Fin 320000) (q : Fin 256) : val_main_v48 (F := Ideal) x6 (ix2 e q) = x6 (ix1 q) := by
  rw [val_main_v48_apply, val_main_v47_apply]
  exact congrArg x6 (ix1_ext _ q rfl)

theorem v74_at (e : Fin 320000) (q : Fin 256) : val_main_v74 (F := Ideal) x7 (ix2 e q) = x7 (ix1 q) := by
  rw [val_main_v74_apply, val_main_v73_apply]
  exact congrArg x7 (ix1_ext _ q rfl)

theorem v77_at (e : Fin 320000) (q : Fin 256) : val_main_v77 (F := Ideal) x8 (ix2 e q) = x8 (ix1 q) := by
  rw [val_main_v77_apply, val_main_v76_apply]
  exact congrArg x8 (ix1_ext _ q rfl)

theorem v81_at (e : Fin 320000) (q : Fin 256) : val_main_v81 (F := Ideal) x16 (ix2 e q) = x16 (ix1 q) := by
  rw [val_main_v81_apply, val_main_v80_apply]
  exact congrArg x16 (ix1_ext _ q rfl)

/-! ### The first layer -/

/-- The first contraction over the 513 concatenated columns, split over the three pieces. -/
theorem v37_at (e : Fin 320000) (q : Fin 256) :
    val_main_v37 (F := Ideal) x0 x1 x2 x3 (ix2 e q) =
      ((∑ k : Fin 256, val_main_v28 (F := Ideal) x0 x2 (ix2 e k) * x3 (ix2 (⟨k.val, by omega⟩ : Fin 513) q))
        + (∑ k : Fin 256, val_main_v35 (F := Ideal) x0 x2 (ix2 e k) * x3 (ix2 (⟨256 + k.val, by omega⟩ : Fin 513) q)))
        + val_main_v21 (F := Ideal) x1 x2 (ix2 e (0 : Fin 1)) * x3 (ix2 (⟨512, by omega⟩ : Fin 513) q) := by
  rw [val_main_v37_apply]
  have hs : ∀ k : Fin 513, val_main_v36 (F := Ideal) x0 x1 x2 (lidx_main_v37 (ix2 e q) k) * x3 (ridx_main_v37 (ix2 e q) k)
      = val_main_v36 (F := Ideal) x0 x1 x2 (ix2 e k) * x3 (ix2 k q) := fun k => by
    rw [ix2_ext (lidx_main_v37 (ix2 e q) k) e k rfl rfl, ix2_ext (ridx_main_v37 (ix2 e q) k) k q rfl rfl]
  refine (Finset.sum_congr rfl fun k _ => hs k).trans ?_
  refine (Cert.Layer.sum_three_pieces (fun k : Fin 513 => val_main_v36 (F := Ideal) x0 x1 x2 (ix2 e k) * x3 (ix2 k q))).trans ?_
  simp only [v36_left, v36_mid, v36_last]

/-- The first layer before its activation. -/
theorem v40_at (e : Fin 320000) (q : Fin 256) :
    val_main_v40 (F := Ideal) x0 x1 x2 x3 x4 (ix2 e q) =
      (((∑ k : Fin 256, val_main_v28 (F := Ideal) x0 x2 (ix2 e k) * x3 (ix2 (⟨k.val, by omega⟩ : Fin 513) q))
        + (∑ k : Fin 256, val_main_v35 (F := Ideal) x0 x2 (ix2 e k) * x3 (ix2 (⟨256 + k.val, by omega⟩ : Fin 513) q)))
        + val_main_v21 (F := Ideal) x1 x2 (ix2 e (0 : Fin 1)) * x3 (ix2 (⟨512, by omega⟩ : Fin 513) q)) + x4 (ix1 q) := by
  rw [val_main_v40_apply, v37_at, v39_at]
  rfl

/-- The activation of the first layer. -/
theorem v45_leaky (i : S320000x256.Idx) :
    val_main_v45 (F := Ideal) x0 x1 x2 x3 x4 i = Cert.Layer.leaky (val_main_v40 (F := Ideal) x0 x1 x2 x3 x4 i) := by
  rw [val_main_v45_apply, val_main_v42_apply, val_main_v44_apply, val_main_v41_apply, val_main_v43_apply,
    val_main_cst_7_apply, val_main_cst_8_apply]
  exact leaky_eq _

/-- The hidden row of the first layer. -/
theorem v45_at (e : Fin 320000) (q : Fin 256) :
    val_main_v45 (F := Ideal) x0 x1 x2 x3 x4 (ix2 e q) =
      Cert.Layer.edgeHidden (fun k => val_main_v28 (F := Ideal) x0 x2 (ix2 e k)) (fun k => val_main_v35 (F := Ideal) x0 x2 (ix2 e k))
        (val_main_v21 (F := Ideal) x1 x2 (ix2 e (0 : Fin 1)))
        (fun k j => x3 (ix2 (⟨k.val, by omega⟩ : Fin 513) j)) (fun k j => x3 (ix2 (⟨256 + k.val, by omega⟩ : Fin 513) j))
        (fun j => x3 (ix2 (⟨512, by omega⟩ : Fin 513) j)) (fun j => x4 (ix1 j)) q := by
  rw [v45_leaky, v40_at]
  rfl

/-! ### The second layer -/

theorem v46_at (e : Fin 320000) (q : Fin 256) :
    val_main_v46 (F := Ideal) x0 x1 x2 x3 x4 x5 (ix2 e q) =
      ∑ k : Fin 256, val_main_v45 (F := Ideal) x0 x1 x2 x3 x4 (ix2 e k) * x5 (ix2 k q) := by
  rw [val_main_v46_apply]
  refine Finset.sum_congr rfl fun k _ => ?_
  rw [ix2_ext (lidx_main_v46 (ix2 e q) k) e k rfl rfl, ix2_ext (ridx_main_v46 (ix2 e q) k) k q rfl rfl]

/-- The activation of the second layer. -/
theorem v54_leaky (i : S320000x256.Idx) :
    val_main_v54 (F := Ideal) x0 x1 x2 x3 x4 x5 x6 i = Cert.Layer.leaky (val_main_v49 (F := Ideal) x0 x1 x2 x3 x4 x5 x6 i) := by
  rw [val_main_v54_apply, val_main_v51_apply, val_main_v53_apply, val_main_v50_apply, val_main_v52_apply,
    val_main_cst_9_apply, val_main_cst_10_apply]
  exact leaky_eq _

/-- The row of edge `e` after the two layers. -/
theorem v54_at (e : Fin 320000) (q : Fin 256) :
    val_main_v54 (F := Ideal) x0 x1 x2 x3 x4 x5 x6 (ix2 e q) =
      Cert.Layer.leaky (Cert.Layer.dense
        (Cert.Layer.edgeHidden (fun k => val_main_v28 (F := Ideal) x0 x2 (ix2 e k)) (fun k => val_main_v35 (F := Ideal) x0 x2 (ix2 e k))
          (val_main_v21 (F := Ideal) x1 x2 (ix2 e (0 : Fin 1)))
          (fun k j => x3 (ix2 (⟨k.val, by omega⟩ : Fin 513) j)) (fun k j => x3 (ix2 (⟨256 + k.val, by omega⟩ : Fin 513) j))
          (fun j => x3 (ix2 (⟨512, by omega⟩ : Fin 513) j)) (fun j => x4 (ix1 j)))
        (fun k j => x5 (ix2 k j)) (fun j => x6 (ix1 j)) q) := by
  rw [v54_leaky, val_main_v49_apply, v46_at, v48_at]
  simp only [v45_at]
  rfl

/-! ### The normalisation of a row -/

/-- The sum of the row. -/
theorem v55_at (e : Fin 320000) :
    val_main_v55 (F := Ideal) x0 x1 x2 x3 x4 x5 x6 (ix1 e) = ∑ k : Fin 256, val_main_v54 (F := Ideal) x0 x1 x2 x3 x4 x5 x6 (ix2 e k) := by
  rw [val_main_v55_apply, val_main_cst_11_apply]
  show Ideal.ofBits .f32 0x00000000#32 + _ = _
  rw [Ideal.ofBits_zero_f32, zero_add]
  refine Finset.sum_congr rfl fun k _ => ?_
  rw [ix2_ext (idx_main_v55 (ix1 e) k) e k rfl rfl]

/-- The mean of the row. -/
theorem v58_at (e : Fin 320000) :
    val_main_v58 (F := Ideal) x0 x1 x2 x3 x4 x5 x6 (ix2 e (0 : Fin 1)) =
      Cert.Layer.rowMean (fun k => val_main_v54 (F := Ideal) x0 x1 x2 x3 x4 x5 x6 (ix2 e k)) := by
  rw [val_main_v58_apply, val_main_v56_apply, val_main_v57_apply, val_main_cst_12_apply,
    ix1_ext (idx_main_v56 (ix2 e (0 : Fin 1))) e rfl, v55_at]
  rfl

theorem v59_at (e : Fin 320000) (q : Fin 256) :
    val_main_v59 (F := Ideal) x0 x1 x2 x3 x4 x5 x6 (ix2 e q) =
      Cert.Layer.rowMean (fun k => val_main_v54 (F := Ideal) x0 x1 x2 x3 x4 x5 x6 (ix2 e k)) := by
  rw [val_main_v59_apply, ix2_ext (idx_main_v59 (ix2 e q)) e (0 : Fin 1) rfl rfl, v58_at]

theorem v66_at (e : Fin 320000) (q : Fin 256) :
    val_main_v66 (F := Ideal) x0 x1 x2 x3 x4 x5 x6 (ix2 e q) =
      Cert.Layer.rowMean (fun k => val_main_v54 (F := Ideal) x0 x1 x2 x3 x4 x5 x6 (ix2 e k)) := by
  rw [val_main_v66_apply, ix2_ext (idx_main_v66 (ix2 e q)) e (0 : Fin 1) rfl rfl, v58_at]

/-- The squared deviation of an entry from the mean. -/
theorem v61_at (e : Fin 320000) (q : Fin 256) :
    val_main_v61 (F := Ideal) x0 x1 x2 x3 x4 x5 x6 (ix2 e q) =
      (val_main_v54 (F := Ideal) x0 x1 x2 x3 x4 x5 x6 (ix2 e q) - Cert.Layer.rowMean (fun k => val_main_v54 (F := Ideal) x0 x1 x2 x3 x4 x5 x6 (ix2 e k)))
      * (val_main_v54 (F := Ideal) x0 x1 x2 x3 x4 x5 x6 (ix2 e q) - Cert.Layer.rowMean (fun k => val_main_v54 (F := Ideal) x0 x1 x2 x3 x4 x5 x6 (ix2 e k))) := by
  rw [val_main_v61_apply, val_main_v60_apply, v59_at]
  rfl

/-- The sum of the squared deviations. -/
theorem v62_at (e : Fin 320000) :
    val_main_v62 (F := Ideal) x0 x1 x2 x3 x4 x5 x6 (ix1 e) =
      ∑ k : Fin 256, (val_main_v54 (F := Ideal) x0 x1 x2 x3 x4 x5 x6 (ix2 e k) - Cert.Layer.rowMean (fun k => val_main_v54 (F := Ideal) x0 x1 x2 x3 x4 x5 x6 (ix2 e k)))
      * (val_main_v54 (F := Ideal) x0 x1 x2 x3 x4 x5 x6 (ix2 e k) - Cert.Layer.rowMean (fun k => val_main_v54 (F := Ideal) x0 x1 x2 x3 x4 x5 x6 (ix2 e k))) := by
  rw [val_main_v62_apply, val_main_cst_13_apply]
  show Ideal.ofBits .f32 0x00000000#32 + _ = _
  rw [Ideal.ofBits_zero_f32, zero_add]
  refine Finset.sum_congr rfl fun k _ => ?_
  rw [ix2_ext (idx_main_v62 (ix1 e) k) e k rfl rfl, v61_at]

/-- The reciprocal root of the variance plus the small constant. -/
theorem v70_at (e : Fin 320000) :
    val_main_v70 (F := Ideal) x0 x1 x2 x3 x4 x5 x6 (ix2 e (0 : Fin 1)) =
      Ideal.rsqrt (Ideal.div (∑ k : Fin 256, (val_main_v54 (F := Ideal) x0 x1 x2 x3 x4 x5 x6 (ix2 e k) - Cert.Layer.rowMean (fun k => val_main_v54 (F := Ideal) x0 x1 x2 x3 x4 x5 x6 (ix2 e k)))
        * (val_main_v54 (F := Ideal) x0 x1 x2 x3 x4 x5 x6 (ix2 e k) - Cert.Layer.rowMean (fun k => val_main_v54 (F := Ideal) x0 x1 x2 x3 x4 x5 x6 (ix2 e k)))) Cert.Layer.width + Cert.Layer.eps) := by
  rw [val_main_v70_apply, val_main_v69_apply, val_main_v65_apply, val_main_v63_apply, val_main_v64_apply, val_main_cst_14_apply,
    val_main_v68_apply, val_main_cst_15_apply, ix1_ext (idx_main_v63 (ix2 e (0 : Fin 1))) e rfl, v62_at]
  rfl

theorem v71_at (e : Fin 320000) (q : Fin 256) :
    val_main_v71 (F := Ideal) x0 x1 x2 x3 x4 x5 x6 (ix2 e q) = val_main_v70 (F := Ideal) x0 x1 x2 x3 x4 x5 x6 (ix2 e (0 : Fin 1)) := by
  rw [val_main_v71_apply, ix2_ext (idx_main_v71 (ix2 e q)) e (0 : Fin 1) rfl rfl]

/-- The normalised row, with gain and offset. -/
theorem v78_at (e : Fin 320000) (q : Fin 256) :
    val_main_v78 (F := Ideal) x0 x1 x2 x3 x4 x5 x6 x7 x8 (ix2 e q) =
      Cert.Layer.rowNorm (fun k => val_main_v54 (F := Ideal) x0 x1 x2 x3 x4 x5 x6 (ix2 e k)) (fun j => x7 (ix1 j)) (fun j => x8 (ix1 j)) q := by
  rw [val_main_v78_apply, val_main_v75_apply, val_main_v72_apply, val_main_v67_apply, v66_at, v71_at, v70_at, v74_at, v77_at]
  rfl

/-! ### The gate of the coordinate update -/

theorem v79_at (e : Fin 320000) (q : Fin 256) :
    val_main_v79 (F := Ideal) x0 x1 x2 x3 x4 x5 x6 x7 x8 x15 (ix2 e q) =
      ∑ k : Fin 256, val_main_v78 (F := Ideal) x0 x1 x2 x3 x4 x5 x6 x7 x8 (ix2 e k) * x15 (ix2 k q) := by
  rw [val_main_v79_apply]
  refine Finset.sum_congr rfl fun k _ => ?_
  rw [ix2_ext (lidx_main_v79 (ix2 e q) k) e k rfl rfl, ix2_ext (ridx_main_v79 (ix2 e q) k) k q rfl rfl]

/-- The activation of the gate's layer. -/
theorem v87_leaky (i : S320000x256.Idx) :
    val_main_v87 (F := Ideal) x0 x1 x2 x3 x4 x5 x6 x7 x8 x15 x16 i =
      Cert.Layer.leaky (val_main_v82 (F := Ideal) x0 x1 x2 x3 x4 x5 x6 x7 x8 x15 x16 i) := by
  rw [val_main_v87_apply, val_main_v84_apply, val_main_v86_apply, val_main_v83_apply, val_main_v85_apply,
    val_main_cst_16_apply, val_main_cst_17_apply]
  exact leaky_eq _

theorem v87_at (e : Fin 320000) (q : Fin 256) :
    val_main_v87 (F := Ideal) x0 x1 x2 x3 x4 x5 x6 x7 x8 x15 x16 (ix2 e q) =
      Cert.Layer.leaky (Cert.Layer.dense (fun k => val_main_v78 (F := Ideal) x0 x1 x2 x3 x4 x5 x6 x7 x8 (ix2 e k))
        (fun k j => x15 (ix2 k j)) (fun j => x16 (ix1 j)) q) := by
  rw [v87_leaky, val_main_v82_apply, v79_at, v81_at]
  rfl

/-- The gate: the activated layer against the column of 256 weights. -/
theorem v88_at (e : Fin 320000) :
    val_main_v88 (F := Ideal) x0 x1 x2 x3 x4 x5 x6 x7 x8 x15 x16 x17 (ix2 e (0 : Fin 1)) =
      Cert.Layer.coordGate (fun k => val_main_v78 (F := Ideal) x0 x1 x2 x3 x4 x5 x6 x7 x8 (ix2 e k))
        (fun k j => x15 (ix2 k j)) (fun j => x16 (ix1 j)) (fun k => x17 (ix2 k (0 : Fin 1))) := by
  rw [val_main_v88_apply]
  unfold Cert.Layer.coordGate
  refine Finset.sum_congr rfl fun k _ => ?_
  rw [ix2_ext (lidx_main_v88 (ix2 e (0 : Fin 1)) k) e k rfl rfl, ix2_ext (ridx_main_v88 (ix2 e (0 : Fin 1)) k) k (0 : Fin 1) rfl rfl, v87_at]

/-- The coordinate update of an edge. -/
theorem v92_at (e : Fin 320000) (a : Fin 3) :
    val_main_v92 (F := Ideal) x0 x1 x2 x3 x4 x5 x6 x7 x8 x15 x16 x17 (ix2 e a) =
      Cert.Layer.coordMul (Cert.Layer.coordGate (fun k => val_main_v78 (F := Ideal) x0 x1 x2 x3 x4 x5 x6 x7 x8 (ix2 e k))
          (fun k j => x15 (ix2 k j)) (fun j => x16 (ix1 j)) (fun k => x17 (ix2 k (0 : Fin 1))))
        (fun b => val_main_v18 (F := Ideal) x1 x2 (ix2 e b)) (val_main_v21 (F := Ideal) x1 x2 (ix2 e (0 : Fin 1))) a := by
  rw [val_main_v92_apply, val_main_v91_apply, val_main_v90_apply, val_main_v89_apply,
    ix2_ext (idx_main_v91 (ix2 e a)) e (0 : Fin 1) rfl rfl, ix2_ext (idx_main_v89 (ix2 e a)) e (0 : Fin 1) rfl rfl, v88_at]
  rfl

end

/-! ### The two statements -/

/-- The reference's edge features at edge `e`, column `q`. -/
theorem edgeAttr_ref (x0 : (⟨S20000x256, .f32⟩ : BufTy).Contents (Elt Ideal)) (x1 : (⟨S20000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 x7 x8 : (⟨S256, .f32⟩ : BufTy).Contents (Elt Ideal)) (e : Fin 320000) (q : Fin 256) :
    val_main_v78 (F := Ideal) x0 x1 x2 x3 x4 x5 x6 x7 x8 (ix2 e q) =
      Cert.Layer.edgeAttr (fun k => val_main_v28 (F := Ideal) x0 x2 (ix2 e k)) (fun k => val_main_v35 (F := Ideal) x0 x2 (ix2 e k))
        (val_main_v21 (F := Ideal) x1 x2 (ix2 e (0 : Fin 1)))
        (fun k j => x3 (ix2 (⟨k.val, by omega⟩ : Fin 513) j)) (fun k j => x3 (ix2 (⟨256 + k.val, by omega⟩ : Fin 513) j))
        (fun j => x3 (ix2 (⟨512, by omega⟩ : Fin 513) j)) (fun j => x4 (ix1 j))
        (fun k j => x5 (ix2 k j)) (fun j => x6 (ix1 j)) (fun j => x7 (ix1 j)) (fun j => x8 (ix1 j)) q := by
  rw [v78_at, funext (v54_at x0 x1 x2 x3 x4 x5 x6 e)]
  rfl

/-- The reference's coordinate update at edge `e`, axis `a`. -/
theorem coordMul_ref (x0 : (⟨S20000x256, .f32⟩ : BufTy).Contents (Elt Ideal)) (x1 : (⟨S20000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 x7 x8 : (⟨S256, .f32⟩ : BufTy).Contents (Elt Ideal)) (x15 : (⟨S256x256, .f32⟩ : BufTy).Contents (Elt Ideal)) (x16 : (⟨S256, .f32⟩ : BufTy).Contents (Elt Ideal)) (x17 : (⟨S256x1, .f32⟩ : BufTy).Contents (Elt Ideal)) (e : Fin 320000) (a : Fin 3) :
    val_main_v92 (F := Ideal) x0 x1 x2 x3 x4 x5 x6 x7 x8 x15 x16 x17 (ix2 e a) =
      Cert.Layer.coordMul (Cert.Layer.coordGate (Cert.Layer.edgeAttr (fun k => val_main_v28 (F := Ideal) x0 x2 (ix2 e k)) (fun k => val_main_v35 (F := Ideal) x0 x2 (ix2 e k))
        (val_main_v21 (F := Ideal) x1 x2 (ix2 e (0 : Fin 1)))
        (fun k j => x3 (ix2 (⟨k.val, by omega⟩ : Fin 513) j)) (fun k j => x3 (ix2 (⟨256 + k.val, by omega⟩ : Fin 513) j))
        (fun j => x3 (ix2 (⟨512, by omega⟩ : Fin 513) j)) (fun j => x4 (ix1 j))
        (fun k j => x5 (ix2 k j)) (fun j => x6 (ix1 j)) (fun j => x7 (ix1 j)) (fun j => x8 (ix1 j)))
          (fun k j => x15 (ix2 k j)) (fun j => x16 (ix1 j)) (fun k => x17 (ix2 k (0 : Fin 1))))
        (fun b => val_main_v18 (F := Ideal) x1 x2 (ix2 e b)) (val_main_v21 (F := Ideal) x1 x2 (ix2 e (0 : Fin 1))) a := by
  rw [v92_at, funext (edgeAttr_ref x0 x1 x2 x3 x4 x5 x6 x7 x8 e)]

end Cert.ReferenceIdeal.RefEdge
end
-- ==== Proof.RefNode.lean ====
/-
  The reference's node stage, read one entry at a time.

  For a node n and a column q, the reference's layer-normalised node update at (n, q) is the row function
  `Cert.Layer.nodeOut` applied to row n of the node features, row n of the aggregated edge features (kept as an
  opaque array), the two halves of the first weight matrix, and the remaining weights.

  The steps follow the row functions of the specification:
  * a vector broadcast down the rows reads the vector at the column;
  * the concatenation (node features | aggregated features) along the columns reads the first array at a column
    below 256 and the second at a column from 256 on, 256 less;
  * the first affine layer's sum over 512 columns splits into the two sums over 256 (`sum_two_pieces`);
  * `leaky`, the second affine layer, the row mean, the mean squared deviation and the normalised entry are then
    each the corresponding row function of the previous row.
-/
import proofs.«140590_j6975026888916_1_alg».proof.Proof.RefStages
import proofs.«140590_j6975026888916_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section
namespace Cert.ReferenceIdeal.RefNode
open Cert.ReferenceIdeal Cert.ReferenceIdeal.Read Idealize.ShloMosaic Idealize.ShloMosaic.ValueIdx

section Rows

variable (x0 : (⟨S20000x256, .f32⟩ : BufTy).Contents (Elt Ideal)) (x1 : (⟨S20000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 x7 x8 : (⟨S256, .f32⟩ : BufTy).Contents (Elt Ideal)) (x9 : (⟨S512x256, .f32⟩ : BufTy).Contents (Elt Ideal)) (x10 : (⟨S256, .f32⟩ : BufTy).Contents (Elt Ideal)) (x11 : (⟨S256x256, .f32⟩ : BufTy).Contents (Elt Ideal)) (x12 x13 x14 : (⟨S256, .f32⟩ : BufTy).Contents (Elt Ideal))

/-! ## Vectors broadcast down the rows -/

/-- The first layer's offset, broadcast down the rows, at (n, q) is its entry q. -/
theorem offset1_at (n : Fin 20000) (q : Fin 256) : val_main_v105 (F := Ideal) x10 (ix2 n q) = x10 (ix1 q) := by
  rw [val_main_v105_apply, val_main_v104_apply]
  exact congrArg x10 (funext fun a => Fin.ext (by match a with | ⟨0, _⟩ => rfl))

/-- The second layer's offset, broadcast down the rows, at (n, q) is its entry q. -/
theorem offset2_at (n : Fin 20000) (q : Fin 256) : val_main_v114 (F := Ideal) x12 (ix2 n q) = x12 (ix1 q) := by
  rw [val_main_v114_apply, val_main_v113_apply]
  exact congrArg x12 (funext fun a => Fin.ext (by match a with | ⟨0, _⟩ => rfl))

/-- The normalisation's gain, broadcast down the rows, at (n, q) is its entry q. -/
theorem gain_at (n : Fin 20000) (q : Fin 256) : val_main_v135 (F := Ideal) x13 (ix2 n q) = x13 (ix1 q) := by
  rw [val_main_v135_apply, val_main_v134_apply]
  exact congrArg x13 (funext fun a => Fin.ext (by match a with | ⟨0, _⟩ => rfl))

/-- The normalisation's offset, broadcast down the rows, at (n, q) is its entry q. -/
theorem shift_at (n : Fin 20000) (q : Fin 256) : val_main_v138 (F := Ideal) x14 (ix2 n q) = x14 (ix1 q) := by
  rw [val_main_v138_apply, val_main_v137_apply]
  exact congrArg x14 (funext fun a => Fin.ext (by match a with | ⟨0, _⟩ => rfl))

/-! ## The concatenation (node features | aggregated edge features) -/

/-- At a column below 256 the concatenation reads the node features at that column. -/
theorem cat_left (n : Fin 20000) (q k : Fin 256) :
    val_main_v102 (F := Ideal) x0 x1 x2 x3 x4 x5 x6 x7 x8 (lidx_main_v103 (ix2 n q) (⟨k.val, by omega⟩ : Fin 512)) = x0 (ix2 n k) := by
  unfold val_main_v102
  generalize val_main_v101 (F := Ideal) x0 x1 x2 x3 x4 x5 x6 x7 x8 = AG
  exact concatenate_pair_apply_left 1 x0 AG Gen.concatenates_S20000x256_S20000x256_S20000x512_d1 _ rfl (ix2 n k) (fun b => by
    match b with
    | ⟨0, _⟩ => rfl
    | ⟨1, _⟩ => rfl)

/-- At a column from 256 on the concatenation reads the aggregated edge features at that column less 256. -/
theorem cat_right (n : Fin 20000) (q k : Fin 256) :
    val_main_v102 (F := Ideal) x0 x1 x2 x3 x4 x5 x6 x7 x8 (lidx_main_v103 (ix2 n q) (⟨256 + k.val, by omega⟩ : Fin 512)) =
      val_main_v101 (F := Ideal) x0 x1 x2 x3 x4 x5 x6 x7 x8 (ix2 n k) := by
  unfold val_main_v102
  generalize val_main_v101 (F := Ideal) x0 x1 x2 x3 x4 x5 x6 x7 x8 = AG
  exact concatenate_pair_apply_right 1 x0 AG Gen.concatenates_S20000x256_S20000x256_S20000x512_d1 _ rfl rfl (ix2 n k)
    (fun b hb => by
      match b with
      | ⟨0, _⟩ => rfl
      | ⟨1, _⟩ => exact absurd rfl hb)
    (by show k.val + 256 = 256 + k.val; omega)

/-! ## The first affine layer and `leaky` -/

/-- The first layer before `leaky` at (n, q): the sum over the 512 concatenated columns, split in its two halves,
    plus the offset. -/
theorem pre1_at (n : Fin 20000) (q : Fin 256) :
    val_main_v106 (F := Ideal) x0 x1 x2 x3 x4 x5 x6 x7 x8 x9 x10 (ix2 n q) =
      ((∑ k : Fin 256, x0 (ix2 n k) * x9 (ix2 (⟨k.val, by omega⟩ : Fin 512) q)) +
        (∑ k : Fin 256, val_main_v101 (F := Ideal) x0 x1 x2 x3 x4 x5 x6 x7 x8 (ix2 n k) * x9 (ix2 (⟨256 + k.val, by omega⟩ : Fin 512) q))) +
        x10 (ix1 q) := by
  rw [val_main_v106_apply, val_main_v103_apply, offset1_at, Cert.Layer.sum_two_pieces]
  refine congrArg₂ (· + ·) (congrArg₂ (· + ·) (Finset.sum_congr rfl fun k _ => ?_) (Finset.sum_congr rfl fun k _ => ?_)) rfl
  · exact congrArg₂ (· * ·) (cat_left x0 x1 x2 x3 x4 x5 x6 x7 x8 n q k)
      (congrArg x9 (funext fun a => Fin.ext (by match a with | ⟨0, _⟩ => rfl | ⟨1, _⟩ => rfl)))
  · exact congrArg₂ (· * ·) (cat_right x0 x1 x2 x3 x4 x5 x6 x7 x8 n q k)
      (congrArg x9 (funext fun a => Fin.ext (by match a with | ⟨0, _⟩ => rfl | ⟨1, _⟩ => rfl)))

/-- Row n of the first layer after `leaky`, as the specification's row function of row n of the node features,
    row n of the aggregated edge features and the two halves of the first weight matrix. -/
abbrev hiddenRow (n : Fin 20000) : Fin 256 → EReal :=
  Cert.Layer.nodeHidden (fun k => x0 (ix2 n k)) (fun k => val_main_v101 (F := Ideal) x0 x1 x2 x3 x4 x5 x6 x7 x8 (ix2 n k))
    (fun k j => x9 (ix2 (⟨k.val, by omega⟩ : Fin 512) j)) (fun k j => x9 (ix2 (⟨256 + k.val, by omega⟩ : Fin 512) j))
    (fun j => x10 (ix1 j))

/-- Row n of the second affine layer. -/
abbrev outRow (n : Fin 20000) : Fin 256 → EReal :=
  Cert.Layer.dense (hiddenRow x0 x1 x2 x3 x4 x5 x6 x7 x8 x9 x10 n) (fun k j => x11 (ix2 k j)) (fun j => x12 (ix1 j))

/-- The first layer after `leaky` at (n, q): compare with zero, multiply by a tenth, select. -/
theorem hidden_at (n : Fin 20000) (q : Fin 256) :
    val_main_v111 (F := Ideal) x0 x1 x2 x3 x4 x5 x6 x7 x8 x9 x10 (ix2 n q) = hiddenRow x0 x1 x2 x3 x4 x5 x6 x7 x8 x9 x10 n q := by
  rw [val_main_v111_apply, val_main_v108_apply, val_main_v110_apply, val_main_v107_apply, val_main_v109_apply,
    val_main_cst_20_apply, val_main_cst_21_apply, pre1_at]
  unfold hiddenRow
  generalize val_main_v101 (F := Ideal) x0 x1 x2 x3 x4 x5 x6 x7 x8 = AG
  rfl

/-! ## The second affine layer -/

/-- The second layer at (n, q): the sum over the 256 hidden columns plus the offset. -/
theorem out_at (n : Fin 20000) (q : Fin 256) :
    val_main_v115 (F := Ideal) x0 x1 x2 x3 x4 x5 x6 x7 x8 x9 x10 x11 x12 (ix2 n q) = outRow x0 x1 x2 x3 x4 x5 x6 x7 x8 x9 x10 x11 x12 n q := by
  rw [val_main_v115_apply, val_main_v112_apply, offset2_at]
  refine congrArg₂ (· + ·) (Finset.sum_congr rfl fun k _ => ?_) rfl
  refine congrArg₂ (· * ·) ?_ (congrArg x11 (funext fun a => Fin.ext (by match a with | ⟨0, _⟩ => rfl | ⟨1, _⟩ => rfl)))
  exact (congrArg (val_main_v111 (F := Ideal) x0 x1 x2 x3 x4 x5 x6 x7 x8 x9 x10) (funext fun a => Fin.ext (by match a with | ⟨0, _⟩ => rfl | ⟨1, _⟩ => rfl))).trans
    (hidden_at x0 x1 x2 x3 x4 x5 x6 x7 x8 x9 x10 n k)

/-! ## Layer normalisation -/

/-- The row mean at row n: the zero the sum starts from goes, the sum over the row is divided by 256. -/
theorem mean_at (n : Fin 20000) (z : Fin 1) :
    val_main_v119 (F := Ideal) x0 x1 x2 x3 x4 x5 x6 x7 x8 x9 x10 x11 x12 (ix2 n z) = Cert.Layer.rowMean (outRow x0 x1 x2 x3 x4 x5 x6 x7 x8 x9 x10 x11 x12 n) := by
  rw [val_main_v119_apply, val_main_v117_apply, val_main_v116_apply, val_main_v118_apply, val_main_cst_23_apply,
    val_main_cst_22_apply]
  have hs : ∀ k : Fin 256, val_main_v115 (F := Ideal) x0 x1 x2 x3 x4 x5 x6 x7 x8 x9 x10 x11 x12 (idx_main_v116 (idx_main_v117 (ix2 n z)) k) =
      outRow x0 x1 x2 x3 x4 x5 x6 x7 x8 x9 x10 x11 x12 n k := fun k =>
    (congrArg (val_main_v115 (F := Ideal) x0 x1 x2 x3 x4 x5 x6 x7 x8 x9 x10 x11 x12) (funext fun a => Fin.ext (by match a with | ⟨0, _⟩ => rfl | ⟨1, _⟩ => rfl))).trans (out_at x0 x1 x2 x3 x4 x5 x6 x7 x8 x9 x10 x11 x12 n k)
  exact congrArg₂ Ideal.div
    ((congrArg₂ (· + ·) Ideal.ofBits_zero_f32 (Finset.sum_congr rfl fun k _ => hs k)).trans (zero_add _)) rfl

/-- The entry at (n, q) less the mean of row n: the copy of the difference that is squared and summed. -/
theorem centred_at (n : Fin 20000) (q : Fin 256) :
    val_main_v121 (F := Ideal) x0 x1 x2 x3 x4 x5 x6 x7 x8 x9 x10 x11 x12 (ix2 n q) = outRow x0 x1 x2 x3 x4 x5 x6 x7 x8 x9 x10 x11 x12 n q - Cert.Layer.rowMean (outRow x0 x1 x2 x3 x4 x5 x6 x7 x8 x9 x10 x11 x12 n) := by
  rw [val_main_v121_apply, val_main_v120_apply, out_at]
  exact congrArg₂ (· - ·) rfl
    ((congrArg (val_main_v119 (F := Ideal) x0 x1 x2 x3 x4 x5 x6 x7 x8 x9 x10 x11 x12) (funext fun a => Fin.ext (by match a with | ⟨0, _⟩ => rfl | ⟨1, _⟩ => rfl))).trans (mean_at x0 x1 x2 x3 x4 x5 x6 x7 x8 x9 x10 x11 x12 n ⟨0, Nat.one_pos⟩))

/-- The entry at (n, q) less the mean of row n: the copy of the difference that is scaled. -/
theorem centred_at' (n : Fin 20000) (q : Fin 256) :
    val_main_v128 (F := Ideal) x0 x1 x2 x3 x4 x5 x6 x7 x8 x9 x10 x11 x12 (ix2 n q) = outRow x0 x1 x2 x3 x4 x5 x6 x7 x8 x9 x10 x11 x12 n q - Cert.Layer.rowMean (outRow x0 x1 x2 x3 x4 x5 x6 x7 x8 x9 x10 x11 x12 n) := by
  rw [val_main_v128_apply, val_main_v127_apply, out_at]
  exact congrArg₂ (· - ·) rfl
    ((congrArg (val_main_v119 (F := Ideal) x0 x1 x2 x3 x4 x5 x6 x7 x8 x9 x10 x11 x12) (funext fun a => Fin.ext (by match a with | ⟨0, _⟩ => rfl | ⟨1, _⟩ => rfl))).trans (mean_at x0 x1 x2 x3 x4 x5 x6 x7 x8 x9 x10 x11 x12 n ⟨0, Nat.one_pos⟩))

/-- The mean squared deviation at row n. -/
theorem var_at (n : Fin 20000) (z : Fin 1) :
    val_main_v126 (F := Ideal) x0 x1 x2 x3 x4 x5 x6 x7 x8 x9 x10 x11 x12 (ix2 n z) =
      Ideal.div (∑ k : Fin 256, (outRow x0 x1 x2 x3 x4 x5 x6 x7 x8 x9 x10 x11 x12 n k - Cert.Layer.rowMean (outRow x0 x1 x2 x3 x4 x5 x6 x7 x8 x9 x10 x11 x12 n)) *
        (outRow x0 x1 x2 x3 x4 x5 x6 x7 x8 x9 x10 x11 x12 n k - Cert.Layer.rowMean (outRow x0 x1 x2 x3 x4 x5 x6 x7 x8 x9 x10 x11 x12 n))) Cert.Layer.width := by
  rw [val_main_v126_apply, val_main_v124_apply, val_main_v123_apply, val_main_v125_apply, val_main_cst_25_apply,
    val_main_cst_24_apply]
  have hs : ∀ k : Fin 256, val_main_v122 (F := Ideal) x0 x1 x2 x3 x4 x5 x6 x7 x8 x9 x10 x11 x12 (idx_main_v123 (idx_main_v124 (ix2 n z)) k) =
      (outRow x0 x1 x2 x3 x4 x5 x6 x7 x8 x9 x10 x11 x12 n k - Cert.Layer.rowMean (outRow x0 x1 x2 x3 x4 x5 x6 x7 x8 x9 x10 x11 x12 n)) *
        (outRow x0 x1 x2 x3 x4 x5 x6 x7 x8 x9 x10 x11 x12 n k - Cert.Layer.rowMean (outRow x0 x1 x2 x3 x4 x5 x6 x7 x8 x9 x10 x11 x12 n)) := fun k => by
    refine (congrArg (val_main_v122 (F := Ideal) x0 x1 x2 x3 x4 x5 x6 x7 x8 x9 x10 x11 x12) (funext fun a => Fin.ext (by match a with | ⟨0, _⟩ => rfl | ⟨1, _⟩ => rfl) : _ = ix2 n k)).trans ?_
    rw [val_main_v122_apply, centred_at]
    rfl
  exact congrArg₂ Ideal.div
    ((congrArg₂ (· + ·) Ideal.ofBits_zero_f32 (Finset.sum_congr rfl fun k _ => hs k)).trans (zero_add _)) rfl

/-- The normalised entry at (n, q): centred, times the reciprocal root of (the mean squared deviation plus 1e-5),
    times the gain, plus the offset. -/
theorem norm_at (n : Fin 20000) (q : Fin 256) :
    val_main_v139 (F := Ideal) x0 x1 x2 x3 x4 x5 x6 x7 x8 x9 x10 x11 x12 x13 x14 (ix2 n q) =
      Cert.Layer.rowNorm (outRow x0 x1 x2 x3 x4 x5 x6 x7 x8 x9 x10 x11 x12 n) (fun j => x13 (ix1 j)) (fun j => x14 (ix1 j)) q := by
  rw [val_main_v139_apply, val_main_v136_apply, val_main_v133_apply, val_main_v132_apply, val_main_v131_apply,
    val_main_v130_apply, val_main_v129_apply, val_main_cst_26_apply, gain_at, shift_at, centred_at']
  have e : idx_main_v132 (ix2 n q) = ix2 n (⟨0, Nat.one_pos⟩ : Fin 1) := funext fun a => Fin.ext (by match a with | ⟨0, _⟩ => rfl | ⟨1, _⟩ => rfl)
  rw [e, var_at]
  generalize outRow x0 x1 x2 x3 x4 x5 x6 x7 x8 x9 x10 x11 x12 n = v
  rfl

end Rows

/-- The reference's node update at (n, q) is the specification's `nodeOut` of row n of the node features, row n of
    the aggregated edge features, and the weights. -/
theorem nodeOut_ref (x0 : (⟨S20000x256, .f32⟩ : BufTy).Contents (Elt Ideal)) (x1 : (⟨S20000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 x7 x8 : (⟨S256, .f32⟩ : BufTy).Contents (Elt Ideal)) (x9 : (⟨S512x256, .f32⟩ : BufTy).Contents (Elt Ideal)) (x10 : (⟨S256, .f32⟩ : BufTy).Contents (Elt Ideal)) (x11 : (⟨S256x256, .f32⟩ : BufTy).Contents (Elt Ideal)) (x12 x13 x14 : (⟨S256, .f32⟩ : BufTy).Contents (Elt Ideal)) (n : Fin 20000) (q : Fin 256) :
    val_main_v139 (F := Ideal) x0 x1 x2 x3 x4 x5 x6 x7 x8 x9 x10 x11 x12 x13 x14 (ix2 n q) =
      Cert.Layer.nodeOut (fun k => x0 (ix2 n k)) (fun k => val_main_v101 (F := Ideal) x0 x1 x2 x3 x4 x5 x6 x7 x8 (ix2 n k))
        (fun k j => x9 (ix2 (⟨k.val, by omega⟩ : Fin 512) j)) (fun k j => x9 (ix2 (⟨256 + k.val, by omega⟩ : Fin 512) j))
        (fun j => x10 (ix1 j)) (fun k j => x11 (ix2 k j)) (fun j => x12 (ix1 j)) (fun j => x13 (ix1 j)) (fun j => x14 (ix1 j)) q :=
  norm_at x0 x1 x2 x3 x4 x5 x6 x7 x8 x9 x10 x11 x12 x13 x14 n q

end Cert.ReferenceIdeal.RefNode
end
-- ==== Proof.RefArrays.lean ====
/-
  The reference's three stage outputs as whole arrays.

  Entry (e, q) of the reference's edge-feature array is the edge-feature row function of edge e at column q, entry
  (e, a) of its coordinate-update array is the coordinate update of edge e on axis a, and entry (n, q) of its
  node-update array is the node-update row function of node n at column q. An index of a two-axis array is the pair
  of its coordinates, so the three arrays are the arrays whose rows are those row functions. The gathered features,
  the distance, the relative coordinates and the aggregated edge features stay opaque arrays.
-/
import proofs.«140590_j6975026888916_1_alg».proof.Proof.RefEdge
import proofs.«140590_j6975026888916_1_alg».proof.Proof.RefNode
import proofs.«140590_j6975026888916_1_alg».proof.Proof.Arrays

noncomputable section
namespace Cert.ReferenceIdeal.RefArrays
open Cert.ReferenceIdeal Cert.ReferenceIdeal.Read Idealize.ShloMosaic Idealize.ShloMosaic.ValueIdx Cert.Layer

/-- The edge-feature array of the reference is the array of the edge-feature rows. -/
theorem edge_stage (x0 : (⟨S20000x256, .f32⟩ : BufTy).Contents (Elt Ideal)) (x1 : (⟨S20000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 x7 x8 : (⟨S256, .f32⟩ : BufTy).Contents (Elt Ideal)) :
    val_main_v78 (F := Ideal) x0 x1 x2 x3 x4 x5 x6 x7 x8
      = edgeArr (val_main_v28 (F := Ideal) x0 x2) (val_main_v35 (F := Ideal) x0 x2) (val_main_v21 (F := Ideal) x1 x2) x3 x4 x5 x6 x7 x8 := by
  funext (i : (⟨2, ![320000, 256]⟩ : Shape).Idx)
  obtain ⟨e, q, rfl⟩ : ∃ (e : Fin 320000) (q : Fin 256), i = ix2 e q := ⟨i 0, i 1, eq_ix2 i⟩
  refine (RefEdge.edgeAttr_ref x0 x1 x2 x3 x4 x5 x6 x7 x8 e q).trans ?_
  generalize val_main_v28 (F := Ideal) x0 x2 = HR
  generalize val_main_v35 (F := Ideal) x0 x2 = HC
  generalize val_main_v21 (F := Ideal) x1 x2 = RD
  rfl

/-- The coordinate-update array of the reference is the array of the edges' coordinate updates. -/
theorem coord_stage (x0 : (⟨S20000x256, .f32⟩ : BufTy).Contents (Elt Ideal)) (x1 : (⟨S20000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 x7 x8 : (⟨S256, .f32⟩ : BufTy).Contents (Elt Ideal)) (x15 : (⟨S256x256, .f32⟩ : BufTy).Contents (Elt Ideal)) (x16 : (⟨S256, .f32⟩ : BufTy).Contents (Elt Ideal)) (x17 : (⟨S256x1, .f32⟩ : BufTy).Contents (Elt Ideal)) :
    val_main_v92 (F := Ideal) x0 x1 x2 x3 x4 x5 x6 x7 x8 x15 x16 x17
      = coordArr (val_main_v28 (F := Ideal) x0 x2) (val_main_v35 (F := Ideal) x0 x2) (val_main_v21 (F := Ideal) x1 x2) x3 x4 x5 x6 x7 x8 (val_main_v18 (F := Ideal) x1 x2) x15 x16 x17 := by
  funext (i : (⟨2, ![320000, 3]⟩ : Shape).Idx)
  obtain ⟨e, a, rfl⟩ : ∃ (e : Fin 320000) (a : Fin 3), i = ix2 e a := ⟨i 0, i 1, eq_ix2 i⟩
  refine (RefEdge.coordMul_ref x0 x1 x2 x3 x4 x5 x6 x7 x8 x15 x16 x17 e a).trans ?_
  generalize val_main_v28 (F := Ideal) x0 x2 = HR
  generalize val_main_v35 (F := Ideal) x0 x2 = HC
  generalize val_main_v21 (F := Ideal) x1 x2 = RD
  generalize val_main_v18 (F := Ideal) x1 x2 = RC
  rfl

/-- The node-update array of the reference is the array of the node-update rows. -/
theorem node_stage (x0 : (⟨S20000x256, .f32⟩ : BufTy).Contents (Elt Ideal)) (x1 : (⟨S20000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 x7 x8 : (⟨S256, .f32⟩ : BufTy).Contents (Elt Ideal)) (x9 : (⟨S512x256, .f32⟩ : BufTy).Contents (Elt Ideal)) (x10 : (⟨S256, .f32⟩ : BufTy).Contents (Elt Ideal)) (x11 : (⟨S256x256, .f32⟩ : BufTy).Contents (Elt Ideal)) (x12 x13 x14 : (⟨S256, .f32⟩ : BufTy).Contents (Elt Ideal)) :
    val_main_v139 (F := Ideal) x0 x1 x2 x3 x4 x5 x6 x7 x8 x9 x10 x11 x12 x13 x14
      = nodeArr x0 (val_main_v101 (F := Ideal) x0 x1 x2 x3 x4 x5 x6 x7 x8) x9 x10 x11 x12 x13 x14 := by
  funext (i : (⟨2, ![20000, 256]⟩ : Shape).Idx)
  obtain ⟨n, q, rfl⟩ : ∃ (n : Fin 20000) (q : Fin 256), i = ix2 n q := ⟨i 0, i 1, eq_ix2 i⟩
  refine (RefNode.nodeOut_ref x0 x1 x2 x3 x4 x5 x6 x7 x8 x9 x10 x11 x12 x13 x14 n q).trans ?_
  generalize val_main_v101 (F := Ideal) x0 x1 x2 x3 x4 x5 x6 x7 x8 = AG
  rfl

end Cert.ReferenceIdeal.RefArrays
end
-- ==== Proof.Bridge.lean ====
/-
  The two programs meet: the reference's two results are the idealized kernel program's two results.

  Outside the three stages the two programs are the same host operations: the source and target indices read off
  the edge list and wrapped, the four gathers, the relative coordinates and their length, the two scatter-sums by
  the source index, the scalar products and the sums with the arguments. So each kernel-side operand array IS the
  reference's intermediate of the same name, by unfolding both sides' definitions (the kernel program's change of
  float format before the gather is the identity at the exact values). With the three stages identified as whole
  arrays (the edge features, the coordinate updates, the node update), the results agree.
-/
import proofs.«140590_j6975026888916_1_alg».proof.Proof.Boundaries
import proofs.«140590_j6975026888916_1_alg».proof.Proof.RefArrays

noncomputable section

namespace Cert.Bridge

open Idealize.ShloMosaic Idealize.ShloMosaic.TcCoe Cert.Layer

variable (x0 : (⟨Cert.ReferenceIdeal.S20000x256, .f32⟩ : BufTy).Contents (Elt Ideal)) (x1 : (⟨Cert.ReferenceIdeal.S20000x3, .f32⟩ : BufTy).Contents (Elt Ideal)) (x2 : (⟨Cert.ReferenceIdeal.S2x320000, .i32⟩ : BufTy).Contents (Elt Ideal))
  (x3 : (⟨Cert.ReferenceIdeal.S513x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 x7 x8 : (⟨Cert.ReferenceIdeal.S256, .f32⟩ : BufTy).Contents (Elt Ideal))
  (x9 : (⟨Cert.ReferenceIdeal.S512x256, .f32⟩ : BufTy).Contents (Elt Ideal)) (x10 : (⟨Cert.ReferenceIdeal.S256, .f32⟩ : BufTy).Contents (Elt Ideal)) (x11 : (⟨Cert.ReferenceIdeal.S256x256, .f32⟩ : BufTy).Contents (Elt Ideal)) (x12 x13 x14 : (⟨Cert.ReferenceIdeal.S256, .f32⟩ : BufTy).Contents (Elt Ideal))
  (x15 : (⟨Cert.ReferenceIdeal.S256x256, .f32⟩ : BufTy).Contents (Elt Ideal)) (x16 : (⟨Cert.ReferenceIdeal.S256, .f32⟩ : BufTy).Contents (Elt Ideal)) (x17 : (⟨Cert.ReferenceIdeal.S256x1, .f32⟩ : BufTy).Contents (Elt Ideal)) (x18 x19 : (⟨Cert.ReferenceIdeal.S_, .f32⟩ : BufTy).Contents (Elt Ideal))

/-! ## The shared host operations, side by side -/

theorem src_features : Cert.KernelIdeal.Fold.srcFeat (F := Ideal) x0 x2 = Cert.ReferenceIdeal.Read.val_main_v28 (F := Ideal) x0 x2 := rfl

theorem dst_features : Cert.KernelIdeal.Fold.dstFeat (F := Ideal) x0 x2 = Cert.ReferenceIdeal.Read.val_main_v35 (F := Ideal) x0 x2 := rfl

theorem rel_coords : Cert.KernelIdeal.Fold.relCoords (F := Ideal) x1 x2 = Cert.ReferenceIdeal.Read.val_main_v18 (F := Ideal) x1 x2 := rfl

theorem rel_dist : Cert.KernelIdeal.Fold.relDist (F := Ideal) x1 x2 = Cert.ReferenceIdeal.Read.val_main_v21 (F := Ideal) x1 x2 := rfl

/-- The reference's aggregated edge features are the kernel program's scatter-sum of the reference's edge features. -/
theorem aggregate :
    Cert.ReferenceIdeal.Read.val_main_v101 (F := Ideal) x0 x1 x2 x3 x4 x5 x6 x7 x8
      = Cert.KernelIdeal.Fold.sumToNodes (F := Ideal) x2 (Cert.ReferenceIdeal.Read.val_main_v78 (F := Ideal) x0 x1 x2 x3 x4 x5 x6 x7 x8) := rfl

/-- The reference's feature result is the residual form over its node update. -/
theorem features_form :
    Cert.ReferenceIdeal.Read.val_main_v142 (F := Ideal) x0 x1 x2 x3 x4 x5 x6 x7 x8 x9 x10 x11 x12 x13 x14 x19
      = Cert.KernelIdeal.Fold.residual (F := Ideal) x0 x19 (Cert.ReferenceIdeal.Read.val_main_v139 (F := Ideal) x0 x1 x2 x3 x4 x5 x6 x7 x8 x9 x10 x11 x12 x13 x14) := rfl

/-- The reference's coordinate result is the residual form over the scatter-sum of its coordinate updates. -/
theorem coords_form :
    Cert.ReferenceIdeal.Read.val_main_v98 (F := Ideal) x0 x1 x2 x3 x4 x5 x6 x7 x8 x15 x16 x17 x18
      = Cert.KernelIdeal.Fold.residual3 (F := Ideal) x1 x18
          (Cert.KernelIdeal.Fold.sumToNodes3 (F := Ideal) x2 (Cert.ReferenceIdeal.Read.val_main_v92 (F := Ideal) x0 x1 x2 x3 x4 x5 x6 x7 x8 x15 x16 x17)) := rfl

/-! ## The results -/

/-- The feature result of the kernel program, as a term of the arguments, is the reference's. -/
theorem features_result :
    Cert.KernelIdeal.Fold.residual (F := Ideal) x0 x19
        (nodeArr x0 (Cert.KernelIdeal.Fold.sumToNodes (F := Ideal) x2
            (edgeArr (Cert.KernelIdeal.Fold.srcFeat (F := Ideal) x0 x2) (Cert.KernelIdeal.Fold.dstFeat (F := Ideal) x0 x2) (Cert.KernelIdeal.Fold.relDist (F := Ideal) x1 x2) x3 x4 x5 x6 x7 x8))
          x9 x10 x11 x12 x13 x14)
      = Cert.ReferenceIdeal.Read.val_main_v142 (F := Ideal) x0 x1 x2 x3 x4 x5 x6 x7 x8 x9 x10 x11 x12 x13 x14 x19 := by
  rw [features_form, Cert.ReferenceIdeal.RefArrays.node_stage, aggregate, Cert.ReferenceIdeal.RefArrays.edge_stage, src_features, dst_features, rel_dist]

/-- The coordinate result of the kernel program, as a term of the arguments, is the reference's. -/
theorem coords_result :
    Cert.KernelIdeal.Fold.residual3 (F := Ideal) x1 x18
        (Cert.KernelIdeal.Fold.sumToNodes3 (F := Ideal) x2
          (coordArr (Cert.KernelIdeal.Fold.srcFeat (F := Ideal) x0 x2) (Cert.KernelIdeal.Fold.dstFeat (F := Ideal) x0 x2) (Cert.KernelIdeal.Fold.relDist (F := Ideal) x1 x2) x3 x4 x5 x6 x7 x8
            (Cert.KernelIdeal.Fold.relCoords (F := Ideal) x1 x2) x15 x16 x17))
      = Cert.ReferenceIdeal.Read.val_main_v98 (F := Ideal) x0 x1 x2 x3 x4 x5 x6 x7 x8 x15 x16 x17 x18 := by
  rw [coords_form, Cert.ReferenceIdeal.RefArrays.coord_stage, src_features, dst_features, rel_dist, rel_coords]

end Cert.Bridge

end
-- ==== Proof.lean ====
/-
  The certificate of the layer: the Pallas kernel program (an edge region over blocks of 4000 edges, two host
  scatter-sums, a node region over blocks of 4000 nodes) against the plain jnp reference, at the exact values.

  Mathematics. Both programs compute, per edge, the edge features (two affine layers with leaky rectifiers and a
  layer normalisation, from the features of the edge's two nodes and their distance) and a coordinate update (a gate
  computed from the edge features times the relative coordinate over the distance); both sum these into the nodes by
  the source index; both compute, per node, a node update (an affine layer, a leaky rectifier, an affine layer, a
  layer normalisation) from the node's features and its summed edge features; both add a scalar multiple of the
  updates to the arguments. They differ in three ways, none of which changes an exact value: the kernel program
  narrows some operands to a shorter float format (the identity at the exact values); it computes the first edge
  layer over the concatenation (source features, target features, distance) as three partial products and the first
  node layer over (node features, summed edge features) as two, where the reference takes one product over the
  concatenated row — a sum over 513 (or 512) indices split into its pieces, which needs only that addition of
  extended reals is commutative and associative, so no input is assumed finite for it —; and it computes both stages
  block by block over a grid, each block a restriction of one whole-array function, the blocks covering the arrays.

  Modules. Spec: the row functions and the two splitting laws. Arrays: the three stages as whole arrays. EdgeBody,
  NodeBody: the kernel bodies read at an index against the row functions. EdgeArray, NodeArray: from blocks to the
  arrays. Fold, FoldHead, Boundaries, OperandReads: the host operations around the regions. RunValue: the kernel
  program's run with its results in the post. Results: the kernel program's results as terms of the arguments.
  RefStages, RefRun: the reference one operation at a time, and its run. RefEdge, RefNode, RefArrays: the
  reference's stages against the row functions. Bridge: the two programs' terms are equal. The frames of the two
  kernel programs are the generated ones; the reference's frame is its run with the results dropped; the idealized
  kernel program is the kernel program's own text read at the exact values, so nothing is owed for it.
-/
import proofs.«140590_j6975026888916_1_alg».proof.Defs
import proofs.«140590_j6975026888916_1_alg».proof.Proof.Gen.Kernel
import proofs.«140590_j6975026888916_1_alg».proof.Proof.Gen.Kernel.Skeleton
import proofs.«140590_j6975026888916_1_alg».proof.Proof.Gen.Kernel.Launch
import proofs.«140590_j6975026888916_1_alg».proof.Proof.Gen.Kernel.Points
import proofs.«140590_j6975026888916_1_alg».proof.Proof.Gen.Kernel.Frame
import proofs.«140590_j6975026888916_1_alg».proof.Proof.Gen.KernelIdeal
import proofs.«140590_j6975026888916_1_alg».proof.Proof.Gen.KernelIdeal.Skeleton
import proofs.«140590_j6975026888916_1_alg».proof.Proof.Gen.KernelIdeal.Launch
import proofs.«140590_j6975026888916_1_alg».proof.Proof.Gen.KernelIdeal.Points
import proofs.«140590_j6975026888916_1_alg».proof.Proof.Gen.KernelIdeal.Frame
import proofs.«140590_j6975026888916_1_alg».proof.Proof.Gen.ReferenceIdeal
import proofs.«140590_j6975026888916_1_alg».proof.Proof.Gen.Pre_finite_inputs
import proofs.«140590_j6975026888916_1_alg».proof.Proof.RunValue
import proofs.«140590_j6975026888916_1_alg».proof.Proof.Results
import proofs.«140590_j6975026888916_1_alg».proof.Proof.RefRun
import proofs.«140590_j6975026888916_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its reading at the exact values. -/
theorem frame_kernel_ideal : Cert.frame_KernelIdeal := fun m ρ _ => Cert.KernelIdeal.Gen.frame m ρ

/-- The reference runs and leaves its arguments as launched: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealized kernel program is the kernel program's own text read at the exact values. -/
theorem preserves : Cert.preserves_Kernel_KernelIdeal := trivial

set_option maxHeartbeats 1600000 in
/-- From memories agreeing on the arguments both programs run, and end with the same two results. -/
theorem algebraic : Cert.algebraic_KernelIdeal_ReferenceIdeal := by
  intro m ρ m' ρ' _ hagree
  refine ⟨fun c => Cert.KernelIdeal.Gen.W7 m ρ c (Proc.devRef .tc Cert.KernelIdeal.main_v73),
    fun c => Cert.KernelIdeal.Gen.W7 m ρ c (Proc.devRef .tc Cert.KernelIdeal.main_v57), ?_, ?_⟩
  · -- the kernel program: every buffer at the last boundary, the arguments among them unchanged
    refine (θ_run Cert.KernelIdeal.defs _ _).mono (fun r h c => ?_) (Cert.KernelIdeal.RunValue.run_all m ρ)
    exact ⟨Cert.KernelIdeal.RunValue.at_end m ρ h c Cert.KernelIdeal.main_v73 (by decide),
      Cert.KernelIdeal.RunValue.at_end m ρ h c Cert.KernelIdeal.main_v57 (by decide),
      (Cert.KernelIdeal.RunValue.at_end m ρ h c Cert.KernelIdeal.main_arg0 (by decide)).trans (Cert.KernelIdeal.Gen.W7_main_arg0 m ρ c),
      (Cert.KernelIdeal.RunValue.at_end m ρ h c Cert.KernelIdeal.main_arg1 (by decide)).trans (Cert.KernelIdeal.Gen.W7_main_arg1 m ρ c),
      (Cert.KernelIdeal.RunValue.at_end m ρ h c Cert.KernelIdeal.main_arg2 (by decide)).trans (Cert.KernelIdeal.Gen.W7_main_arg2 m ρ c),
      (Cert.KernelIdeal.RunValue.at_end m ρ h c Cert.KernelIdeal.main_arg3 (by decide)).trans (Cert.KernelIdeal.Gen.W7_main_arg3 m ρ c),
      (Cert.KernelIdeal.RunValue.at_end m ρ h c Cert.KernelIdeal.main_arg4 (by decide)).trans (Cert.KernelIdeal.Gen.W7_main_arg4 m ρ c),
      (Cert.KernelIdeal.RunValue.at_end m ρ h c Cert.KernelIdeal.main_arg5 (by decide)).trans (Cert.KernelIdeal.Gen.W7_main_arg5 m ρ c),
      (Cert.KernelIdeal.RunValue.at_end m ρ h c Cert.KernelIdeal.main_arg6 (by decide)).trans (Cert.KernelIdeal.Gen.W7_main_arg6 m ρ c),
      (Cert.KernelIdeal.RunValue.at_end m ρ h c Cert.KernelIdeal.main_arg7 (by decide)).trans (Cert.KernelIdeal.Gen.W7_main_arg7 m ρ c),
      (Cert.KernelIdeal.RunValue.at_end m ρ h c Cert.KernelIdeal.main_arg8 (by decide)).trans (Cert.KernelIdeal.Gen.W7_main_arg8 m ρ c),
      (Cert.KernelIdeal.RunValue.at_end m ρ h c Cert.KernelIdeal.main_arg9 (by decide)).trans (Cert.KernelIdeal.Gen.W7_main_arg9 m ρ c),
      (Cert.KernelIdeal.RunValue.at_end m ρ h c Cert.KernelIdeal.main_arg10 (by decide)).trans (Cert.KernelIdeal.Gen.W7_main_arg10 m ρ c),
      (Cert.KernelIdeal.RunValue.at_end m ρ h c Cert.KernelIdeal.main_arg11 (by decide)).trans (Cert.KernelIdeal.Gen.W7_main_arg11 m ρ c),
      (Cert.KernelIdeal.RunValue.at_end m ρ h c Cert.KernelIdeal.main_arg12 (by decide)).trans (Cert.KernelIdeal.Gen.W7_main_arg12 m ρ c),
      (Cert.KernelIdeal.RunValue.at_end m ρ h c Cert.KernelIdeal.main_arg13 (by decide)).trans (Cert.KernelIdeal.Gen.W7_main_arg13 m ρ c),
      (Cert.KernelIdeal.RunValue.at_end m ρ h c Cert.KernelIdeal.main_arg14 (by decide)).trans (Cert.KernelIdeal.Gen.W7_main_arg14 m ρ c),
      (Cert.KernelIdeal.RunValue.at_end m ρ h c Cert.KernelIdeal.main_arg15 (by decide)).trans (Cert.KernelIdeal.Gen.W7_main_arg15 m ρ c),
      (Cert.KernelIdeal.RunValue.at_end m ρ h c Cert.KernelIdeal.main_arg16 (by decide)).trans (Cert.KernelIdeal.Gen.W7_main_arg16 m ρ c),
      (Cert.KernelIdeal.RunValue.at_end m ρ h c Cert.KernelIdeal.main_arg17 (by decide)).trans (Cert.KernelIdeal.Gen.W7_main_arg17 m ρ c),
      (Cert.KernelIdeal.RunValue.at_end m ρ h c Cert.KernelIdeal.main_arg18 (by decide)).trans (Cert.KernelIdeal.Gen.W7_main_arg18 m ρ c),
      (Cert.KernelIdeal.RunValue.at_end m ρ h c Cert.KernelIdeal.main_arg19 (by decide)).trans (Cert.KernelIdeal.Gen.W7_main_arg19 m ρ c)⟩
  · -- the reference: its two results are the kernel program's, as terms of the agreeing arguments
    refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14, e15, e16, e17, e18, e19⟩ := hagree c
      show Cert.ReferenceIdeal.Value.res_main_v142 m' c = Cert.KernelIdeal.Gen.W7 m ρ c (Proc.devRef .tc Cert.KernelIdeal.main_v73)
      rw [Cert.KernelIdeal.Results.features m ρ c]
      unfold Cert.ReferenceIdeal.Value.res_main_v142
      rw [e0, e1, e2, e3, e4, e5, e6, e7, e8, e9, e10, e11, e12, e13, e14, e19]
      exact (Cert.Bridge.features_result _ _ _ _ _ _ _ _ _ _ _ _ _ _ _ _).symm
    · obtain ⟨e0, e1, e2, e3, e4, e5, e6, e7, e8, e9, e10, e11, e12, e13, e14, e15, e16, e17, e18, e19⟩ := hagree c
      show Cert.ReferenceIdeal.Value.res_main_v98 m' c = Cert.KernelIdeal.Gen.W7 m ρ c (Proc.devRef .tc Cert.KernelIdeal.main_v57)
      rw [Cert.KernelIdeal.Results.coords m ρ c]
      unfold Cert.ReferenceIdeal.Value.res_main_v98
      rw [e0, e1, e2, e3, e4, e5, e6, e7, e8, e15, e16, e17, e18]
      exact (Cert.Bridge.coords_result _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
